-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S128x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : FVec F S128x64 .f32) (main_arg6 : FVec F S64 .f32) (main_arg7 : IVec S2x1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x64, .f32⟩
  | .hbm, ⟨77, _⟩ => ⟨S1650000x1, .f32⟩
  | .hbm, ⟨78, _⟩ => ⟨S1650000x64, .f32⟩
  | .hbm, ⟨79, _⟩ => ⟨S1650000x64, .f32⟩
  | .hbm, ⟨80, _⟩ => ⟨S_, .f32⟩
  | .hbm, ⟨81, _⟩ => ⟨S50000x64, .f32⟩
  | .hbm, ⟨82, _⟩ => ⟨S1650000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .i32⟩
  | .hbm, ⟨88, _⟩ => ⟨S1650000, .i32⟩
  | .hbm, ⟨89, _⟩ => ⟨S1650000, .i1⟩
  | .hbm, ⟨90, _⟩ => ⟨S_, .i32⟩
  | .hbm, ⟨91, _⟩ => ⟨S1650000, .i32⟩
  | .hbm, ⟨92, _⟩ => ⟨S1650000, .i32⟩
  | .hbm, ⟨93, _⟩ => ⟨S1650000, .i32⟩
  | .hbm, ⟨94, _⟩ => ⟨S1650000x1, .i32⟩
  | .hbm, ⟨95, _⟩ => ⟨S1650000x64, .f32⟩
  | .hbm, ⟨96, _⟩ => ⟨S1650000x1, .f32⟩
  | .hbm, ⟨97, _⟩ => ⟨S1650000x64, .f32⟩
  | .hbm, ⟨98, _⟩ => ⟨S1650000x64, .f32⟩
  | .hbm, ⟨99, _⟩ => ⟨S_, .f32⟩
  | .hbm, ⟨100, _⟩ => ⟨S50000x64, .f32⟩
  | .hbm, ⟨101, _⟩ => ⟨S1650000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 194
  | .vmem => 0
  | .smem => 0
  | _ => 0

abbrev hbmTy0_0 (i : Nat) : BufTy := match i % 128 with
  | 0 => ⟨S50000x256, .f32⟩
  | 1 => ⟨S256x128, .f32⟩
  | 2 => ⟨S128, .f32⟩
  | 3 => ⟨S128x64, .f32⟩
  | 4 => ⟨S64, .f32⟩
  | 5 => ⟨S128x64, .f32⟩
  | 6 => ⟨S64, .f32⟩
  | 7 => ⟨S2x1600000, .i32⟩
  | 8 => ⟨S1x1600000, .i32⟩
  | 9 => ⟨S1600000, .i32⟩
  | 10 => ⟨S50000, .i32⟩
  | 11 => ⟨S1650000, .i32⟩
  | 12 => ⟨S1x1600000, .i32⟩
  | 13 => ⟨S1600000, .i32⟩
  | 14 => ⟨S50000, .i32⟩
  | 15 => ⟨S1650000, .i32⟩
  | 16 => ⟨S_, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000, .f32⟩
  | 48 => ⟨S1650000, .f32⟩
  | 49 => ⟨S50000x128, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000x128, .f32⟩
  | 59 => ⟨S1650000x1, .f32⟩
  | 60 => ⟨S1650000x128, .f32⟩
  | 61 => ⟨S1650000x128, .f32⟩
  | 62 => ⟨S_, .f32⟩
  | 63 => ⟨S50000x128, .f32⟩
  | 64 => ⟨S1650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x1600000, .i32⟩
  | 73 => ⟨S1600000, .i32⟩
  | 74 => ⟨S50000, .i32⟩
  | 75 => ⟨S1650000, .i32⟩
  | 76 => ⟨S1x1600000, .i32⟩
  | 77 => ⟨S1600000, .i32⟩
  | 78 => ⟨S50000, .i32⟩
  | 79 => ⟨S1650000, .i32⟩
  | 80 => ⟨S_, .f32⟩
  | 81 => ⟨S1650000, .f32⟩
  | 82 => ⟨S_, .f32⟩
  | 83 => ⟨S50000, .f32⟩
  | 84 => ⟨S1650000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000, .f32⟩
  | 112 => ⟨S1650000, .f32⟩
  | 113 => ⟨S50000x64, .f32⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000x64, .f32⟩
  | 123 => ⟨S1650000x1, .f32⟩
  | 124 => ⟨S1650000x64, .f32⟩
  | 125 => ⟨S1650000x64, .f32⟩
  | 126 => ⟨S_, .f32⟩
  | 127 => ⟨S50000x64, .f32⟩
  | _ => ⟨S50000x256, .f32⟩

abbrev hbmTy0_1 (i : Nat) : BufTy := match i % 128 with
  | 0 => ⟨S1650000x1, .i32⟩
  | 1 => ⟨S50000x64, .f32⟩
  | 2 => ⟨S1x64, .f32⟩
  | 3 => ⟨S50000x64, .f32⟩
  | 4 => ⟨S50000x64, .f32⟩
  | 5 => ⟨S1x1600000, .i32⟩
  | 6 => ⟨S1600000, .i32⟩
  | 7 => ⟨S50000, .i32⟩
  | 8 => ⟨S1650000, .i32⟩
  | 9 => ⟨S1x1600000, .i32⟩
  | 10 => ⟨S1600000, .i32⟩
  | 11 => ⟨S50000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S50000x64, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x64, .f32⟩
  | 56 => ⟨S1650000x1, .f32⟩
  | 57 => ⟨S1650000x64, .f32⟩
  | 58 => ⟨S1650000x64, .f32⟩
  | 59 => ⟨S_, .f32⟩
  | 60 => ⟨S50000x64, .f32⟩
  | 61 => ⟨S1650000x1, .i32⟩
  | 62 => ⟨S50000x64, .f32⟩
  | 63 => ⟨S1x64, .f32⟩
  | 64 => ⟨S50000x64, .f32⟩
  | 65 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_20 : Ref sig .tc := ⟨.hbm, 141, rfl⟩
abbrev main_v105 : Ref sig .tc := ⟨.hbm, 142, rfl⟩
abbrev main_cst_21 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_22 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_23 : Ref sig .tc := ⟨.hbm, 151, rfl⟩
abbrev main_call3_v0 : Ref sig .tc := ⟨.hbm, 152, rfl⟩
abbrev main_call3_v1 : Ref sig .tc := ⟨.hbm, 153, rfl⟩
abbrev main_v112 : Ref sig .tc := ⟨.hbm, 154, rfl⟩
abbrev main_c_24 : Ref sig .tc := ⟨.hbm, 155, rfl⟩
abbrev main_v113 : Ref sig .tc := ⟨.hbm, 156, rfl⟩
abbrev main_v114 : Ref sig .tc := ⟨.hbm, 157, rfl⟩
abbrev main_c_25 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_26 : Ref sig .tc := ⟨.hbm, 164, rfl⟩
abbrev main_v120 : Ref sig .tc := ⟨.hbm, 165, rfl⟩
abbrev main_v121 : Ref sig .tc := ⟨.hbm, 166, rfl⟩
abbrev main_c_27 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_28 : Ref sig .tc := ⟨.hbm, 175, rfl⟩
abbrev main_v129 : Ref sig .tc := ⟨.hbm, 176, rfl⟩
abbrev main_v130 : Ref sig .tc := ⟨.hbm, 177, rfl⟩
abbrev main_c_29 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_30 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The idealized kernel's whole run with its two result buffers named.  The program is six launches among stretches of
  host operations; the contents of every buffer at each boundary between two such segments is a fold from the launch
  memory (the generated frame's `W0 … W12`).  Every weakly fair execution terminates, nothing faults, and the final
  memory agrees with the last boundary's contents `W12` on every unscoped buffer: here that is read off at the two
  results (the outputs of the fourth and the sixth launch) as well as at the eight arguments, which end as launched.
-/
import proofs.«143387_j11854109737065_1_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run: the segments launched from any memory with zero counters; the last thread state (every unscoped buffer at
    `W12`) read against the final memory, at the two results and at each argument. -/
theorem run_named : θ_run defs (onTc (τ := τ) (main (F := F))) ⟨m, fun _ => 0, ρ⟩ (fun r => ∀ c : Dev nD,
      r.2.mem ((c.tc : Thread nD τ).loc main_v61) = W12 m ρ c (Proc.devRef .tc main_v61)
      ∧ r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v61 (by decide)),
       h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.GcnRun

end
-- ==== Proof.GcnSpec.lean ====
/-
  The graph convolution both programs compute, as functions of the argument arrays over any float instance.

  The edge list `e : i32[2, 1600000]` gives 1 600 000 edges (row 0 the sources, row 1 the destinations); a self-loop is
  appended for each of the 50 000 nodes, so there are 1 650 000 edges in all.  The degree of a node is the number of edges
  ending in it (a scatter-add of ones), `dinv` its inverse square root where the degree is positive and zero elsewhere,
  and the weight of an edge is `dinv (src) · dinv (dst)`.  One convolution of a feature array `xw : [50000, C]` gathers
  the source row of every edge, scales it by the edge's weight, and scatter-adds it into the destination row.
  The network is: `h = max (agg (x · W_h) + b_h, 0)`, then `mu = agg (h · W_mu) + b_mu` and
  `logstd = agg (h · W_ls) + b_ls`.

  Gathers and scatters are kept as the host operations the programs print (an index below zero wraps once, as the
  printed `select (i < 0) (i + 50000) i` says); nothing here opens them: both programs apply the same ones.
-/
import proofs.«143387_j11854109737065_1_alg».proof.Proof.Gen.ReferenceIdeal

noncomputable section

namespace Cert.Gcn

open Idealize.ShloMosaic Cert.ReferenceIdeal Cert.ReferenceIdeal.Gen

variable {F : FTy → Type} [FloatOps F]

/-- Row `0` of the edge list followed by the nodes `0 … 49999`: the source of every edge, self-loops last. -/
def srcOf (e : (⟨S2x1600000, .i32⟩ : BufTy).Contents (Elt F)) : (⟨S1650000, .i32⟩ : BufTy).Contents (Elt F) :=
  concatenate S1650000 0 [⟨S1600000, shapeCast _ (extractStridedSlice S1x1600000 ![0, 0] e slices_S2x1600000_S1x1600000_0_0) shapeCasts_S1x1600000_S1600000⟩, ⟨S50000, iotaInDim S50000 32 0⟩] concatenates_S1600000_S50000_S1650000_d0

/-- Row `1` of the edge list followed by the nodes `0 … 49999`: the destination of every edge, self-loops last. -/
def dstOf (e : (⟨S2x1600000, .i32⟩ : BufTy).Contents (Elt F)) : (⟨S1650000, .i32⟩ : BufTy).Contents (Elt F) :=
  concatenate S1650000 0 [⟨S1600000, shapeCast _ (extractStridedSlice S1x1600000 ![1, 0] e slices_S2x1600000_S1x1600000_1_0) shapeCasts_S1x1600000_S1600000⟩, ⟨S50000, iotaInDim S50000 32 0⟩] concatenates_S1600000_S50000_S1650000_d0

/-- An index below zero counts from the end: `i + 50000` where `i < 0`, else `i`. -/
def wrapIdx (v : (⟨S1650000, .i32⟩ : BufTy).Contents (Elt F)) : (⟨S1650000, .i32⟩ : BufTy).Contents (Elt F) :=
  select (cmpi .slt v (broadcastInDim S1650000 ![] bcast_S_S1650000 (constantI S_ 32 0#32))) (addi v (broadcastInDim S1650000 ![] bcast_S_S1650000 (constantI S_ 32 50000#32))) v

/-- A vector of node indices as the one-column index array the gathers and scatters take. -/
def idxCol (v : (⟨S1650000, .i32⟩ : BufTy).Contents (Elt F)) : (⟨S1650000x1, .i32⟩ : BufTy).Contents (Elt F) :=
  broadcastInDim S1650000x1 ![0] bcast_S1650000_S1650000x1_0 v

/-- The degree of every node: ones scatter-added at the destinations. -/
def degOf (e : (⟨S2x1600000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant (F := F) S_ .f32 0x00000000#32)) (idxCol (dstOf (F := F) e)) (broadcastInDim S1650000 ![] bcast_S_S1650000 (constant (F := F) S_ .f32 0x3F800000#32))

/-- `deg^(-1/2)` where the degree is positive, zero elsewhere. -/
def dinvOf (e : (⟨S2x1600000, .i32⟩ : BufTy).Contents (Elt F)) : (⟨S50000, .f32⟩ : BufTy).Contents (Elt F) :=
  select (cmpf .ogt (degOf (F := F) e) (broadcastInDim S50000 ![] bcast_S_S50000 (constant (F := F) S_ .f32 0x00000000#32))) (Host.rsqrt (degOf (F := F) e)) (broadcastInDim S50000 ![] bcast_S_S50000 (id (constant (F := F) S_ .f32 0x00000000#32)))

/-- The weight of every edge: `dinv` at its source times `dinv` at its destination. -/
def normOf (e : (⟨S2x1600000, .i32⟩ : BufTy).Contents (Elt F)) : (⟨S1650000, .f32⟩ : BufTy).Contents (Elt F) :=
  mulf (Host.gather gather_S50000_S1650000x1_S1650000_n_0_n_n_0_1_1 (dinvOf (F := F) e) (idxCol (wrapIdx (srcOf (F := F) e))))
    (Host.gather gather_S50000_S1650000x1_S1650000_n_0_n_n_0_1_1 (dinvOf (F := F) e) (idxCol (wrapIdx (dstOf (F := F) e))))

/-- One convolution of 128-wide features: gather the source rows, scale by the edge weights, scatter-add at the destinations. -/
def agg128 (e : (⟨S2x1600000, .i32⟩ : BufTy).Contents (Elt F)) (xw : (⟨S50000x128, .f32⟩ : BufTy).Contents (Elt F)) : (⟨S50000x128, .f32⟩ : BufTy).Contents (Elt F) :=
  Host.scatterAdd scatter_S50000x128_S1650000x1_S1650000x128_1_0_0_1 (broadcastInDim S50000x128 ![] bcast_S_S50000x128 (constant (F := F) S_ .f32 0x00000000#32)) (idxCol (dstOf (F := F) e))
    (mulf (Host.gather gather_S50000x128_S1650000x1_S1650000x128_1_0_n_n_0_1_1128 xw (idxCol (wrapIdx (srcOf (F := F) e))))
      (broadcastInDim S1650000x128 ![0, 1] bcast_S1650000x1_S1650000x128_0_1 (broadcastInDim S1650000x1 ![0] bcast_S1650000_S1650000x1_0 (normOf (F := F) e))))

/-- One convolution of 64-wide features. -/
def agg64 (e : (⟨S2x1600000, .i32⟩ : BufTy).Contents (Elt F)) (xw : (⟨S50000x64, .f32⟩ : BufTy).Contents (Elt F)) : (⟨S50000x64, .f32⟩ : BufTy).Contents (Elt F) :=
  Host.scatterAdd scatter_S50000x64_S1650000x1_S1650000x64_1_0_0_1 (broadcastInDim S50000x64 ![] bcast_S_S50000x64 (constant (F := F) S_ .f32 0x00000000#32)) (idxCol (dstOf (F := F) e))
    (mulf (Host.gather gather_S50000x64_S1650000x1_S1650000x64_1_0_n_n_0_1_164 xw (idxCol (wrapIdx (srcOf (F := F) e))))
      (broadcastInDim S1650000x64 ![0, 1] bcast_S1650000x1_S1650000x64_0_1 (broadcastInDim S1650000x1 ![0] bcast_S1650000_S1650000x1_0 (normOf (F := F) e))))

/-- A 128-entry bias as the array added to every row. -/
def biasRows128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- A 64-entry bias as the array added to every row. -/
def biasRows64 (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- The hidden layer: `max (agg (x · W_h) + b_h, 0)`. -/
def hidden (x : (⟨S50000x256, .f32⟩ : BufTy).Contents (Elt F)) (wh : (⟨S256x128, .f32⟩ : BufTy).Contents (Elt F)) (bh : (⟨S128, .f32⟩ : BufTy).Contents (Elt F)) (e : (⟨S2x1600000, .i32⟩ : BufTy).Contents (Elt F)) : (⟨S50000x128, .f32⟩ : BufTy).Contents (Elt F) :=
  maximumf (addf (agg128 e (Host.dotGeneral dot_S50000x256_S256x128_S50000x128_1_0_0_1_n_n none x wh)) (biasRows128 bh))
    (broadcastInDim S50000x128 ![] bcast_S_S50000x128 (constant (F := F) S_ .f32 0x00000000#32))

/-- An output head on the hidden layer: `agg (h · W) + b`. -/
def head (h : (⟨S50000x128, .f32⟩ : BufTy).Contents (Elt F)) (w : (⟨S128x64, .f32⟩ : BufTy).Contents (Elt F)) (b : (⟨S64, .f32⟩ : BufTy).Contents (Elt F)) (e : (⟨S2x1600000, .i32⟩ : BufTy).Contents (Elt F)) : (⟨S50000x64, .f32⟩ : BufTy).Contents (Elt F) :=
  addf (agg64 e (Host.dotGeneral dot_S50000x128_S128x64_S50000x64_1_0_0_1_n_n none h w)) (biasRows64 b)

end Cert.Gcn

end
-- ==== Proof.KernelStretches.lean ====
/-
  The host operations of the idealized kernel's program, stretch by stretch, from ANY buffer contents `X` at the
  stretch's start: which buffers a stretch writes (every other buffer keeps its contents), and what it leaves in the
  buffers later segments read, as the convolution's functions (the edge sources and destinations, the degrees' inverse
  square roots, the edge weights, one gather / scale / scatter-add of a feature array, a bias vector as a one-row array).
-/
import proofs.«143387_j11854109737065_1_alg».proof.Proof.Gen.KernelIdeal.Launch
import proofs.«143387_j11854109737065_1_alg».proof.Proof.GcnSpec
import Idealize.ShloMosaic.Lib.StableHlo.Run

set_option maxRecDepth 16384

noncomputable section

namespace Cert.KernelIdeal.GcnStretch

open Idealize.ShloMosaic Idealize.ShloMosaic.StableHlo Idealize.SL.Sem
open Cert.KernelIdeal Cert.KernelIdeal.Gen Cert.Gcn

variable {F : FTy → Type} [FloatOps F]

/-! ## What each stretch writes -/

/-- The references the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem hostOps0_keeps (X : Valuation τ sig (Elt F)) (r : Ref sig .tc) (h : r ∉ hostOps0_W) : after hostOps0 X (Proc.devRef .tc r) = X (Proc.devRef .tc r) :=
  after_of_writes_sub hostOps0 X hostOps0_writes h

/-- The references the operations of `hostOps0_1` write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem hostOps0_1_keeps (X : Valuation τ sig (Elt F)) (r : Ref sig .tc) (h : r ∉ hostOps0_1_W) : after hostOps0_1 X (Proc.devRef .tc r) = X (Proc.devRef .tc r) :=
  after_of_writes_sub hostOps0_1 X hostOps0_1_writes h

/-- The references the operations of `hostOps0_2` write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem hostOps0_2_keeps (X : Valuation τ sig (Elt F)) (r : Ref sig .tc) (h : r ∉ hostOps0_2_W) : after hostOps0_2 X (Proc.devRef .tc r) = X (Proc.devRef .tc r) :=
  after_of_writes_sub hostOps0_2 X hostOps0_2_writes h

/-- The references the operations of `hostOps1` write. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem hostOps1_keeps (X : Valuation τ sig (Elt F)) (r : Ref sig .tc) (h : r ∉ hostOps1_W) : after hostOps1 X (Proc.devRef .tc r) = X (Proc.devRef .tc r) :=
  after_of_writes_sub hostOps1 X hostOps1_writes h

/-- The references the operations of `hostOps3` write. -/
abbrev hostOps3_W : List (Ref sig .tc) := [main_c_9, main_v47, main_v48, main_c_10, main_v49, main_v50, main_v51, main_v52, main_v53, main_v54, main_v55, main_v56, main_cst_11, main_v57, main_v58, main_v59, main_v60]
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem hostOps3_keeps (X : Valuation τ sig (Elt F)) (r : Ref sig .tc) (h : r ∉ hostOps3_W) : after hostOps3 X (Proc.devRef .tc r) = X (Proc.devRef .tc r) :=
  after_of_writes_sub hostOps3 X hostOps3_writes h

/-- The references the operations of `hostOps5` write. -/
abbrev hostOps5_W : List (Ref sig .tc) := [main_c_12, main_v63, main_v64, main_c_13, main_v65, main_v66, main_v67, main_v68, main_v69, main_v70, main_v71, main_v72, main_cst_14, main_v73, main_v74, main_v75, main_v76]
theorem hostOps5_writes : (hostOps5 : List (HloOp τ sig (Elt F))).Forall fun op => op.writes ⊆ (hostOps5_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer none of them writes keeps its contents. -/
theorem hostOps5_keeps (X : Valuation τ sig (Elt F)) (r : Ref sig .tc) (h : r ∉ hostOps5_W) : after hostOps5 X (Proc.devRef .tc r) = X (Proc.devRef .tc r) :=
  after_of_writes_sub hostOps5 X hostOps5_writes h

/-! ## What each stretch computes -/

variable (X : Valuation τ sig (Elt F))

/-- The first stretch joins row 0 of the edge list with the node numbers: every edge's source. -/
theorem first_src : after hostOps0 X (Proc.devRef .tc main_v5) = srcOf (F := F) (X (Proc.devRef .tc main_arg7)) := by
  dsimp only [hostOps0]; after_results; rfl
/-- … and row 1 with the node numbers: every edge's destination. -/
theorem first_dst : after hostOps0 X (Proc.devRef .tc main_v6) = dstOf (F := F) (X (Proc.devRef .tc main_arg7)) := by
  dsimp only [hostOps0]; after_results; rfl
/-- Where the degree is positive. -/
theorem first_pos : after hostOps0 X (Proc.devRef .tc main_v12)
    = cmpf .ogt (degOf (F := F) (X (Proc.devRef .tc main_arg7))) (broadcastInDim Cert.ReferenceIdeal.S50000 ![] Cert.ReferenceIdeal.Gen.bcast_S_S50000 (constant (F := F) Cert.ReferenceIdeal.S_ .f32 0x00000000#32)) := by
  dsimp only [hostOps0]; after_results; rfl
/-- The degrees' inverse square roots, taken everywhere. -/
theorem first_rsqrt : after hostOps0 X (Proc.devRef .tc main_v13) = Host.rsqrt (degOf (F := F) (X (Proc.devRef .tc main_arg7))) := by
  dsimp only [hostOps0]; after_results; rfl
/-- The zero that replaces them where the degree is not positive. -/
theorem first_zero : after hostOps0 X (Proc.devRef .tc main_cst_2) = constant (F := F) Cert.ReferenceIdeal.S_ .f32 0x00000000#32 := by
  dsimp only [hostOps0]; after_results <;> rfl

/-- The selection: `deg^(-1/2)` where the degree is positive, zero elsewhere. -/
theorem where_dinv (e : (⟨S2x1600000, .i32⟩ : BufTy).Contents (Elt F))
    (h12 : X (Proc.devRef .tc main_v12) = cmpf .ogt (degOf (F := F) e) (broadcastInDim Cert.ReferenceIdeal.S50000 ![] Cert.ReferenceIdeal.Gen.bcast_S_S50000 (constant (F := F) Cert.ReferenceIdeal.S_ .f32 0x00000000#32)))
    (h13 : X (Proc.devRef .tc main_v13) = Host.rsqrt (degOf (F := F) e))
    (hc : X (Proc.devRef .tc main_cst_2) = constant (F := F) Cert.ReferenceIdeal.S_ .f32 0x00000000#32) :
    after hostOps0_1 X (Proc.devRef .tc main_v14) = dinvOf (F := F) e := by
  dsimp only [hostOps0_1]; after_results_simp; rw [h12, h13, hc]; rfl

/-- The edge weights: `dinv` gathered at the (wrapped) sources times `dinv` gathered at the (wrapped) destinations. -/
theorem edge_weights (e : (⟨S2x1600000, .i32⟩ : BufTy).Contents (Elt F))
    (h5 : X (Proc.devRef .tc main_v5) = srcOf (F := F) e) (h6 : X (Proc.devRef .tc main_v6) = dstOf (F := F) e) (h14 : X (Proc.devRef .tc main_v14) = dinvOf (F := F) e) :
    after hostOps0_2 X (Proc.devRef .tc main_v29) = normOf (F := F) e := by
  dsimp only [hostOps0_2]; after_results_simp; rw [h5, h6, h14]; rfl

/-- The first convolution: gather / scale / scatter-add of the 128-wide product left in `main_v30`. -/
theorem conv1 (e : (⟨S2x1600000, .i32⟩ : BufTy).Contents (Elt F)) (xw : (⟨S50000x128, .f32⟩ : BufTy).Contents (Elt F))
    (h5 : X (Proc.devRef .tc main_v5) = srcOf (F := F) e) (h6 : X (Proc.devRef .tc main_v6) = dstOf (F := F) e) (h29 : X (Proc.devRef .tc main_v29) = normOf (F := F) e)
    (hx : X (Proc.devRef .tc main_v30) = xw) :
    after hostOps1 X (Proc.devRef .tc main_v43) = agg128 (F := F) e xw := by
  dsimp only [hostOps1]; after_results_simp; rw [h5, h6, h29, hx]; rfl
/-- … and the hidden layer's bias as a one-row array. -/
theorem row1 : after hostOps1 X (Proc.devRef .tc main_v44) = shapeCast S1x128 (X (Proc.devRef .tc main_arg2)) shapeCasts_S128_S1x128 := by
  dsimp only [hostOps1]; after_results_simp <;> rfl

/-- The second convolution: of the 64-wide product left in `main_v46`. -/
theorem conv3 (e : (⟨S2x1600000, .i32⟩ : BufTy).Contents (Elt F)) (xw : (⟨S50000x64, .f32⟩ : BufTy).Contents (Elt F))
    (h5 : X (Proc.devRef .tc main_v5) = srcOf (F := F) e) (h6 : X (Proc.devRef .tc main_v6) = dstOf (F := F) e) (h29 : X (Proc.devRef .tc main_v29) = normOf (F := F) e)
    (hx : X (Proc.devRef .tc main_v46) = xw) :
    after hostOps3 X (Proc.devRef .tc main_v59) = agg64 (F := F) e xw := by
  dsimp only [hostOps3]; after_results_simp; rw [h5, h6, h29, hx]; rfl
theorem row3 : after hostOps3 X (Proc.devRef .tc main_v60) = shapeCast S1x64 (X (Proc.devRef .tc main_arg4)) shapeCasts_S64_S1x64 := by
  dsimp only [hostOps3]; after_results_simp <;> rfl

/-- The third convolution: of the 64-wide product left in `main_v62`. -/
theorem conv5 (e : (⟨S2x1600000, .i32⟩ : BufTy).Contents (Elt F)) (xw : (⟨S50000x64, .f32⟩ : BufTy).Contents (Elt F))
    (h5 : X (Proc.devRef .tc main_v5) = srcOf (F := F) e) (h6 : X (Proc.devRef .tc main_v6) = dstOf (F := F) e) (h29 : X (Proc.devRef .tc main_v29) = normOf (F := F) e)
    (hx : X (Proc.devRef .tc main_v62) = xw) :
    after hostOps5 X (Proc.devRef .tc main_v75) = agg64 (F := F) e xw := by
  dsimp only [hostOps5]; after_results_simp; rw [h5, h6, h29, hx]; rfl
theorem row5 : after hostOps5 X (Proc.devRef .tc main_v76) = shapeCast S1x64 (X (Proc.devRef .tc main_arg6)) shapeCasts_S64_S1x64 := by
  dsimp only [hostOps5]; after_results_simp <;> rfl

end Cert.KernelIdeal.GcnStretch

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.DenseRows0.lean ====
/-
  Region 0 of the kernel program is a matrix product done in ten blocks of 5000 rows: at grid point t the body multiplies
  rows 5000 t … 5000 t + 4999 of the [50000, 256] array by the whole [256, 128] weight and writes the [5000, 128] result back as
  rows 5000 t … 5000 t + 4999 of the [50000, 128] output. Entry (i0, i1) of the output array is therefore written by the point
  t = i0 / 5000, as entry (i0 - 5000 t, i1) of that point's block product, which is ∑ k, x (i0, k) · w (k, i1): the very sum the
  whole [50000, 256] × [256, 128] product has at (i0, i1). So after the ten points the output array is the host's `dot_general` of
  the two arrays as the region found them.
-/
import proofs.«143387_j11854109737065_1_alg».proof.Proof.Gen.KernelIdeal.Frame
import proofs.«143387_j11854109737065_1_alg».proof.Proof.Gen.ReferenceIdeal
import proofs.«143387_j11854109737065_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.GcnBlocks

open Cert.KernelIdeal Cert.KernelIdeal.Gen
open Idealize.ShloMosaic.ValueIdx Idealize.ShloMosaic.LibPlainDot

variable (V : (c : Dev nD) → (b : Ref sig .tc) → Buf (Elt Ideal) ((c : Thread nD τ).loc b))

namespace Dense0

/-- The zero offsets of a whole-buffer load or store, as the constant function. -/
theorem hz0 : (![0, 0] : Fin 2 → Nat) = fun _ => 0 := funext fun a => by fin_cases a <;> rfl

/-- The body's payload at (p, q): the operands' change of float format is the identity over the extended reals, and the
    product into a zero accumulator is the sum over k of x0 (p, k) · x1 (k, q). -/
theorem pay0_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  exact matmul_plain_apply 5000 256 128 none _ _ p q

/-- The host's whole product at (r, q): the sum over k of a0 (r, k) · a1 (k, q). -/
theorem host0_apply (a0 : S50000x256.Idx → Elt Ideal .f32) (a1 : S256x128.Idx → Elt Ideal .f32) (r : Fin 50000) (q : Fin 128) :
    Host.dotGeneral (F := Ideal) (φ₁ := .f32) (φ₂ := .f32) Cert.ReferenceIdeal.dot_S50000x256_S256x128_S50000x128_1_0_0_1_n_n none a0 a1 (ix2 r q)
      = ∑ k : Fin 256, a0 (ix2 r k) * a1 (ix2 k q) := by
  simp only [Host.dotGeneral]
  exact dotGeneral_plain_apply 50000 256 128 none _ a0 a1 r q

/-- A block x0 of 5000 rows of a0 starting at row 5000 tv, times x1 = a1, is the same rows of the whole product a0 · a1:
    both are ∑ k, a0 (5000 tv + p, k) · a1 (k, q) at (p, q). -/
theorem block_eq0 (a0 : S50000x256.Idx → Elt Ideal .f32) (a1 : S256x128.Idx → Elt Ideal .f32)
    (x0 : Vec Ideal S5000x256 .f32) (x1 : Vec Ideal S256x128 .f32) (tv : Nat) (ht : tv < 10)
    (h0 : ∀ (p : Fin 5000) (k : Fin 256), x0 (ix2 p k) = a0 (ix2 ⟨tv * 5000 + p.val, by omega⟩ k))
    (h1 : ∀ (k : Fin 256) (q : Fin 128), x1 (ix2 k q) = a1 (ix2 k q))
    (p : Fin 5000) (q : Fin 128) :
    k0_pay1 (F := Ideal) x0 x1 (ix2 p q)
      = Host.dotGeneral (F := Ideal) (φ₁ := .f32) (φ₂ := .f32) Cert.ReferenceIdeal.dot_S50000x256_S256x128_S50000x128_1_0_0_1_n_n none a0 a1 (ix2 ⟨tv * 5000 + p.val, by omega⟩ q) := by
  rw [pay0_apply, host0_apply]
  refine Finset.sum_congr rfl fun k _ => ?_
  rw [h0, h1]

/-- The printed index maps, decided over the ten grid points: the row operand and the output move with the point on axis 0
    and stay at block 0 on axis 1; the weight is block (0, 0) at every point. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index (i0, i1) of the output array lies in the block of the point t = i0 / 5000, which writes back:
    5000 t ≤ i0 < 5000 t + 5000 and 0 ≤ i1 < 128. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

set_option maxHeartbeats 400000 in
/-- What point t writes back is block t of the whole product of the two arrays as the region found them: the body's one store
    leaves its payload, the block product of rows 5000 t … of the first array and the whole second array, and entry (p, q) of
    that is entry (5000 t + p, q) of the whole product. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x256_S256x128_S50000x128_1_0_0_1_n_n none (V c main_arg0) (V c main_arg1)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x128) hz0]
  obtain ⟨e0, e1, e2, e3, e4, e5⟩ := idx_facts0 t
  have ht : t.val < 10 := Nat.lt_of_lt_of_eq t.isLt N_0
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Host.dotGeneral (F := Ideal) (φ₁ := .f32) (φ₂ := .f32) Cert.ReferenceIdeal.dot_S50000x256_S256x128_S50000x128_1_0_0_1_n_n none (V c main_arg0) (V c main_arg1) (((cfg0.win 2).blk t).view.emb (ix2 p q))
  have hemb : ((cfg0.win 2).blk t).view.emb (ix2 p q) = (ix2 (⟨t.val * 5000 + p.val, by omega⟩ : Fin 50000) q : S50000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine block_eq0 (V c main_arg0) (V c main_arg1) (iblk0 V c 0 t) (iblk0 V c 1 t) t.val ht ?_ ?_ p q
  · intro p k
    show V c main_arg0 (((cfg0.win 0).blk t).view.emb (ix2 p k)) = _
    congr 1
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  · intro k q
    show V c main_arg1 (((cfg0.win 1).blk t).view.emb (ix2 k q)) = _
    congr 1
    funext a; apply Fin.ext
    match a with
    | ⟨0, _⟩ => show win0_1.index t (0 : Fin 2) * 256 + 1 * k.val = k.val; omega
    | ⟨1, _⟩ => show win0_1.index t (1 : Fin 2) * 128 + 1 * q.val = q.val; omega

end Dense0

/-- After the region's ten points the [50000, 128] output array is the whole [50000, 256] × [256, 128] product of the two input
    arrays as the region found them: every point writes its block of that product, and the ten blocks cover the array. -/
theorem dense0 (c : Dev nD) :
    (dat0 (F := Ideal) V c).arrAt 2 cfg0.N
      = Host.dotGeneral (F := Ideal) (φ₁ := .f32) (φ₂ := .f32) Cert.ReferenceIdeal.dot_S50000x256_S256x128_S50000x128_1_0_0_1_n_n none (V c main_arg0) (V c main_arg1) :=
  (dat0 (F := Ideal) V c).arrAt_eq_of_cover 2 _ (fun t _ => Dense0.flushed0_eq V c t) Dense0.cover0

end Cert.KernelIdeal.GcnBlocks

end
-- ==== Proof.DenseRows2.lean ====
/-
  Region 2 of the kernel program is a matrix product done in ten blocks of 5000 rows: at grid point t the body multiplies
  rows 5000 t … 5000 t + 4999 of the [50000, 128] array by the whole [128, 64] weight and writes the [5000, 64] result back as
  rows 5000 t … 5000 t + 4999 of the [50000, 64] output. Entry (i0, i1) of the output array is therefore written by the point
  t = i0 / 5000, as entry (i0 - 5000 t, i1) of that point's block product, which is ∑ k, x (i0, k) · w (k, i1): the very sum the
  whole [50000, 128] × [128, 64] product has at (i0, i1). So after the ten points the output array is the host's `dot_general` of
  the two arrays as the region found them.
-/
import proofs.«143387_j11854109737065_1_alg».proof.Proof.Gen.KernelIdeal.Frame
import proofs.«143387_j11854109737065_1_alg».proof.Proof.Gen.ReferenceIdeal
import proofs.«143387_j11854109737065_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.GcnBlocks

open Cert.KernelIdeal Cert.KernelIdeal.Gen
open Idealize.ShloMosaic.ValueIdx Idealize.ShloMosaic.LibPlainDot

variable (V : (c : Dev nD) → (b : Ref sig .tc) → Buf (Elt Ideal) ((c : Thread nD τ).loc b))

namespace Dense2

/-- The zero offsets of a whole-buffer load or store, as the constant function. -/
theorem hz2 : (![0, 0] : Fin 2 → Nat) = fun _ => 0 := funext fun a => by fin_cases a <;> rfl

/-- The body's payload at (p, q): the operands' change of float format is the identity over the extended reals, and the
    product into a zero accumulator is the sum over k of x0 (p, k) · x1 (k, q). -/
theorem pay2_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  rw [shapeCast_self]
  exact matmul_plain_apply 5000 128 64 none _ _ p q

/-- The host's whole product at (r, q): the sum over k of a0 (r, k) · a1 (k, q). -/
theorem host2_apply (a0 : S50000x128.Idx → Elt Ideal .f32) (a1 : S128x64.Idx → Elt Ideal .f32) (r : Fin 50000) (q : Fin 64) :
    Host.dotGeneral (F := Ideal) (φ₁ := .f32) (φ₂ := .f32) Cert.ReferenceIdeal.dot_S50000x128_S128x64_S50000x64_1_0_0_1_n_n none a0 a1 (ix2 r q)
      = ∑ k : Fin 128, a0 (ix2 r k) * a1 (ix2 k q) := by
  simp only [Host.dotGeneral]
  exact dotGeneral_plain_apply 50000 128 64 none _ a0 a1 r q

/-- A block x0 of 5000 rows of a0 starting at row 5000 tv, times x1 = a1, is the same rows of the whole product a0 · a1:
    both are ∑ k, a0 (5000 tv + p, k) · a1 (k, q) at (p, q). -/
theorem block_eq2 (a0 : S50000x128.Idx → Elt Ideal .f32) (a1 : S128x64.Idx → Elt Ideal .f32)
    (x0 : Vec Ideal S5000x128 .f32) (x1 : Vec Ideal S128x64 .f32) (tv : Nat) (ht : tv < 10)
    (h0 : ∀ (p : Fin 5000) (k : Fin 128), x0 (ix2 p k) = a0 (ix2 ⟨tv * 5000 + p.val, by omega⟩ k))
    (h1 : ∀ (k : Fin 128) (q : Fin 64), x1 (ix2 k q) = a1 (ix2 k q))
    (p : Fin 5000) (q : Fin 64) :
    k2_pay1 (F := Ideal) x0 x1 (ix2 p q)
      = Host.dotGeneral (F := Ideal) (φ₁ := .f32) (φ₂ := .f32) Cert.ReferenceIdeal.dot_S50000x128_S128x64_S50000x64_1_0_0_1_n_n none a0 a1 (ix2 ⟨tv * 5000 + p.val, by omega⟩ q) := by
  rw [pay2_apply, host2_apply]
  refine Finset.sum_congr rfl fun k _ => ?_
  rw [h0, h1]

/-- The printed index maps, decided over the ten grid points: the row operand and the output move with the point on axis 0
    and stay at block 0 on axis 1; the weight is block (0, 0) at every point. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An index of the output array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every index (i0, i1) of the output array lies in the block of the point t = i0 / 5000, which writes back:
    5000 t ≤ i0 < 5000 t + 5000 and 0 ≤ i1 < 64. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_2 _, ?_⟩
  rw [mem_blk2]
  obtain ⟨-, -, -, -, e4, e5⟩ := idx_facts2 ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e5]; omega

set_option maxHeartbeats 400000 in
/-- What point t writes back is block t of the whole product of the two arrays as the region found them: the body's one store
    leaves its payload, the block product of rows 5000 t … of the first array and the whole second array, and entry (p, q) of
    that is entry (5000 t + p, q) of the whole product. -/
theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x128_S128x64_S50000x64_1_0_0_1_n_n none (V c main_v45) (V c main_arg3)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x64) hz2]
  obtain ⟨e0, e1, e2, e3, e4, e5⟩ := idx_facts2 t
  have ht : t.val < 10 := Nat.lt_of_lt_of_eq t.isLt N_2
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = Host.dotGeneral (F := Ideal) (φ₁ := .f32) (φ₂ := .f32) Cert.ReferenceIdeal.dot_S50000x128_S128x64_S50000x64_1_0_0_1_n_n none (V c main_v45) (V c main_arg3) (((cfg2.win 2).blk t).view.emb (ix2 p q))
  have hemb : ((cfg2.win 2).blk t).view.emb (ix2 p q) = (ix2 (⟨t.val * 5000 + p.val, by omega⟩ : Fin 50000) q : S50000x64.Idx) := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hemb]
  refine block_eq2 (V c main_v45) (V c main_arg3) (iblk2 V c 0 t) (iblk2 V c 1 t) t.val ht ?_ ?_ p q
  · intro p k
    show V c main_v45 (((cfg2.win 0).blk t).view.emb (ix2 p k)) = _
    congr 1
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_arg3 (((cfg2.win 1).blk t).view.emb (ix2 k q)) = _
    congr 1
    funext a; apply Fin.ext
    match a with
    | ⟨0, _⟩ => show win2_1.index t (0 : Fin 2) * 128 + 1 * k.val = k.val; omega
    | ⟨1, _⟩ => show win2_1.index t (1 : Fin 2) * 64 + 1 * q.val = q.val; omega

end Dense2

/-- After the region's ten points the [50000, 64] output array is the whole [50000, 128] × [128, 64] product of the two input
    arrays as the region found them: every point writes its block of that product, and the ten blocks cover the array. -/
theorem dense2 (c : Dev nD) :
    (dat2 (F := Ideal) V c).arrAt 2 cfg2.N
      = Host.dotGeneral (F := Ideal) (φ₁ := .f32) (φ₂ := .f32) Cert.ReferenceIdeal.dot_S50000x128_S128x64_S50000x64_1_0_0_1_n_n none (V c main_v45) (V c main_arg3) :=
  (dat2 (F := Ideal) V c).arrAt_eq_of_cover 2 _ (fun t _ => Dense2.flushed2_eq V c t) Dense2.cover2

end Cert.KernelIdeal.GcnBlocks

end
-- ==== Proof.DenseRows4.lean ====
/-
  Region 4 of the kernel program is a matrix product done in ten blocks of 5000 rows: at grid point t the body multiplies
  rows 5000 t … 5000 t + 4999 of the [50000, 128] array by the whole [128, 64] weight and writes the [5000, 64] result back as
  rows 5000 t … 5000 t + 4999 of the [50000, 64] output. Entry (i0, i1) of the output array is therefore written by the point
  t = i0 / 5000, as entry (i0 - 5000 t, i1) of that point's block product, which is ∑ k, x (i0, k) · w (k, i1): the very sum the
  whole [50000, 128] × [128, 64] product has at (i0, i1). So after the ten points the output array is the host's `dot_general` of
  the two arrays as the region found them.
-/
import proofs.«143387_j11854109737065_1_alg».proof.Proof.Gen.KernelIdeal.Frame
import proofs.«143387_j11854109737065_1_alg».proof.Proof.Gen.ReferenceIdeal
import proofs.«143387_j11854109737065_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.GcnBlocks

open Cert.KernelIdeal Cert.KernelIdeal.Gen
open Idealize.ShloMosaic.ValueIdx Idealize.ShloMosaic.LibPlainDot

variable (V : (c : Dev nD) → (b : Ref sig .tc) → Buf (Elt Ideal) ((c : Thread nD τ).loc b))

namespace Dense4

/-- The zero offsets of a whole-buffer load or store, as the constant function. -/
theorem hz4 : (![0, 0] : Fin 2 → Nat) = fun _ => 0 := funext fun a => by fin_cases a <;> rfl

/-- The body's payload at (p, q): the operands' change of float format is the identity over the extended reals, and the
    product into a zero accumulator is the sum over k of x0 (p, k) · x1 (k, q). -/
theorem pay4_apply (x0 : Vec Ideal S5000x128 .f32) (x1 : Vec Ideal S128x64 .f32) (p : Fin 5000) (q : Fin 64) :
    k4_pay1 (F := Ideal) x0 x1 (ix2 p q) = ∑ k : Fin 128, x0 (ix2 p k) * x1 (ix2 k q) := by
  unfold k4_pay1
  rw [shapeCast_self]
  exact matmul_plain_apply 5000 128 64 none _ _ p q

/-- The host's whole product at (r, q): the sum over k of a0 (r, k) · a1 (k, q). -/
theorem host4_apply (a0 : S50000x128.Idx → Elt Ideal .f32) (a1 : S128x64.Idx → Elt Ideal .f32) (r : Fin 50000) (q : Fin 64) :
    Host.dotGeneral (F := Ideal) (φ₁ := .f32) (φ₂ := .f32) Cert.ReferenceIdeal.dot_S50000x128_S128x64_S50000x64_1_0_0_1_n_n none a0 a1 (ix2 r q)
      = ∑ k : Fin 128, a0 (ix2 r k) * a1 (ix2 k q) := by
  simp only [Host.dotGeneral]
  exact dotGeneral_plain_apply 50000 128 64 none _ a0 a1 r q

/-- A block x0 of 5000 rows of a0 starting at row 5000 tv, times x1 = a1, is the same rows of the whole product a0 · a1:
    both are ∑ k, a0 (5000 tv + p, k) · a1 (k, q) at (p, q). -/
theorem block_eq4 (a0 : S50000x128.Idx → Elt Ideal .f32) (a1 : S128x64.Idx → Elt Ideal .f32)
    (x0 : Vec Ideal S5000x128 .f32) (x1 : Vec Ideal S128x64 .f32) (tv : Nat) (ht : tv < 10)
    (h0 : ∀ (p : Fin 5000) (k : Fin 128), x0 (ix2 p k) = a0 (ix2 ⟨tv * 5000 + p.val, by omega⟩ k))
    (h1 : ∀ (k : Fin 128) (q : Fin 64), x1 (ix2 k q) = a1 (ix2 k q))
    (p : Fin 5000) (q : Fin 64) :
    k4_pay1 (F := Ideal) x0 x1 (ix2 p q)
      = Host.dotGeneral (F := Ideal) (φ₁ := .f32) (φ₂ := .f32) Cert.ReferenceIdeal.dot_S50000x128_S128x64_S50000x64_1_0_0_1_n_n none a0 a1 (ix2 ⟨tv * 5000 + p.val, by omega⟩ q) := by
  rw [pay4_apply, host4_apply]
  refine Finset.sum_congr rfl fun k _ => ?_
  rw [h0, h1]

/-- The printed index maps, decided over the ten grid points: the row operand and the output move with the point on axis 0
    and stay at block 0 on axis 1; the weight is block (0, 0) at every point. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- An index of the output array is in point t's block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- Every index (i0, i1) of the output array lies in the block of the point t = i0 / 5000, which writes back:
    5000 t ≤ i0 < 5000 t + 5000 and 0 ≤ i1 < 64. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  refine ⟨⟨(i 0).val / 5000, by rw [hN]; omega⟩, flush4_2 _, ?_⟩
  rw [mem_blk4]
  obtain ⟨-, -, -, -, e4, e5⟩ := idx_facts4 ⟨(i 0).val / 5000, by rw [hN]; omega⟩
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 64 ≤ (i 1).val ∧ (i 1).val < win4_2.index _ (1 : Fin 2) * 64 + 64
    rw [e5]; omega

set_option maxHeartbeats 400000 in
/-- What point t writes back is block t of the whole product of the two arrays as the region found them: the body's one store
    leaves its payload, the block product of rows 5000 t … of the first array and the whole second array, and entry (p, q) of
    that is entry (5000 t + p, q) of the whole product. -/
theorem flushed4_eq (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S50000x128_S128x64_S50000x64_1_0_0_1_n_n none (V c main_v45) (V c main_arg5)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x64) hz4]
  obtain ⟨e0, e1, e2, e3, e4, e5⟩ := idx_facts4 t
  have ht : t.val < 10 := Nat.lt_of_lt_of_eq t.isLt N_4
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (ix2 p q)
    = Host.dotGeneral (F := Ideal) (φ₁ := .f32) (φ₂ := .f32) Cert.ReferenceIdeal.dot_S50000x128_S128x64_S50000x64_1_0_0_1_n_n none (V c main_v45) (V c main_arg5) (((cfg4.win 2).blk t).view.emb (ix2 p q))
  have hemb : ((cfg4.win 2).blk t).view.emb (ix2 p q) = (ix2 (⟨t.val * 5000 + p.val, by omega⟩ : Fin 50000) q : S50000x64.Idx) := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  rw [hemb]
  refine block_eq4 (V c main_v45) (V c main_arg5) (iblk4 V c 0 t) (iblk4 V c 1 t) t.val ht ?_ ?_ p q
  · intro p k
    show V c main_v45 (((cfg4.win 0).blk t).view.emb (ix2 p k)) = _
    congr 1
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  · intro k q
    show V c main_arg5 (((cfg4.win 1).blk t).view.emb (ix2 k q)) = _
    congr 1
    funext a; apply Fin.ext
    match a with
    | ⟨0, _⟩ => show win4_1.index t (0 : Fin 2) * 128 + 1 * k.val = k.val; omega
    | ⟨1, _⟩ => show win4_1.index t (1 : Fin 2) * 64 + 1 * q.val = q.val; omega

end Dense4

/-- After the region's ten points the [50000, 64] output array is the whole [50000, 128] × [128, 64] product of the two input
    arrays as the region found them: every point writes its block of that product, and the ten blocks cover the array. -/
theorem dense4 (c : Dev nD) :
    (dat4 (F := Ideal) V c).arrAt 2 cfg4.N
      = Host.dotGeneral (F := Ideal) (φ₁ := .f32) (φ₂ := .f32) Cert.ReferenceIdeal.dot_S50000x128_S128x64_S50000x64_1_0_0_1_n_n none (V c main_v45) (V c main_arg5) :=
  (dat4 (F := Ideal) V c).arrAt_eq_of_cover 2 _ (fun t _ => Dense4.flushed4_eq V c t) Dense4.cover4

end Cert.KernelIdeal.GcnBlocks

end
-- ==== Proof.BiasRows1.lean ====
/-
  The bias-and-clamp region over the extended reals. The region walks the [50000, 128] array in 10 blocks of 5000 rows; at
  each block it adds the [1, 128] bias row to every row of the block and clamps the sum below at zero. Read index by index:
  entry (i0, i1) of the output array is written by the point t = i0 / 5000, from entry (i0, i1) of the input array and entry
  (0, i1) of the bias row, as max (x (i0, i1) + b (0, i1)) 0. The host's form of the same array — the bias row broadcast along
  axes [0, 1] to [50000, 128], added, and the maximum taken with the broadcast scalar zero — reads the same value at every index,
  so after the 10 points the output array IS that whole-array expression of the two input arrays as the region found them.
  Also here: the [128] bias vector reshaped to one row and the same vector broadcast along axis 1 to one row are one [1, 128]
  array (both put b j at (0, j)).
-/
import proofs.«143387_j11854109737065_1_alg».proof.Proof.Gen.KernelIdeal.Frame
import proofs.«143387_j11854109737065_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.GcnBlocks

open Cert.KernelIdeal Cert.KernelIdeal.Gen

/-- The zero offsets of a store or load that covers its whole buffer. -/
theorem bias1_hz : (![0, 0] : Fin 2 → Nat) = fun _ => 0 := funext fun a => by fin_cases a <;> rfl

/-- The body's payload at (p, q) of a block: the block's entry (p, q) plus the bias row's entry (0, q), clamped below at zero
    (the two same-shape casts are the identity, the row broadcast reads row 0, the scalar broadcast reads the scalar). -/
theorem bias1_pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self, maximumf_apply, addf_apply, broadcast_apply]
  rw [broadcastTo_apply x1 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]
  rfl

/-- The whole-array value: the rows array plus the bias row broadcast along axes [0, 1], clamped below at the broadcast
    scalar zero. -/
abbrev bias1_G (a : FVec Ideal S50000x128 .f32) (b : FVec Ideal S1x128 .f32) : FVec Ideal S50000x128 .f32 :=
  maximumf (addf a (broadcastInDim Cert.ReferenceIdeal.S50000x128 ![0, 1] Cert.ReferenceIdeal.Gen.bcast_S1x128_S50000x128_0_1 b))
    (broadcastInDim Cert.ReferenceIdeal.S50000x128 ![] Cert.ReferenceIdeal.Gen.bcast_S_S50000x128 (constant (F := Ideal) Cert.ReferenceIdeal.S_ .f32 0x00000000#32))

/-- The whole-array value at an index i: a i plus the bias row at any index k of column i 1 (its row coordinate is 0, the
    row axis having extent 1), clamped below at zero. -/
theorem bias1_G_apply (a : FVec Ideal S50000x128 .f32) (b : FVec Ideal S1x128 .f32) (i : S50000x128.Idx) (k : S1x128.Idx)
    (hk : (k 1).val = (i 1).val) :
    bias1_G a b i = max (a i + b k) (Ideal.ofBits .f32 0x00000000#32) := by
  have hk0 : (k 0).val < 1 := (k 0).isLt
  unfold bias1_G
  rw [maximumf_apply, addf_apply]
  rw [broadcastInDim_apply _ Cert.ReferenceIdeal.Gen.bcast_S1x128_S50000x128_0_1 b i k (fun a => match a with
    | ⟨0, _⟩ => by show (k 0).val = if (1 : Nat) = 1 then 0 else _; rw [if_pos rfl]; omega
    | ⟨1, _⟩ => by show (k 1).val = if (128 : Nat) = 1 then 0 else (i 1).val; rw [if_neg (by decide)]; exact hk)]
  rw [broadcastInDim_apply _ Cert.ReferenceIdeal.Gen.bcast_S_S50000x128 _ i ix0 (fun a => a.elim0)]
  rfl

/-- The index maps over the 10 points: the rows window and the output window sit at the same block, block (t, 0); the bias
    window at block (0, 0). -/
theorem bias1_idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

section AtEntry
variable (V : (c : Dev nD) → (b : Ref sig .tc) → Buf (Elt Ideal) ((c : Thread nD τ).loc b))

/-- What point t writes back is block t of the whole-array value of the two input arrays as the region found them: entry
    (p, q) of the block is array entry (5000 t + p, q), made from the rows array's entry (5000 t + p, q) and the bias row's
    entry (0, q). -/
theorem bias1_flushed_eq (c : Dev nD) (t : Fin cfg1.N) :
    (dat1 (F := Ideal) V c).flushed 2 t = ((cfg1.win 2).blk t).view.read (Elt Ideal) (bias1_G (V c main_v43) (V c main_v44)) := by
  show (cfg1.win 2).cut (grid1.coords t) ((dat1 V c).after 2 t) = _
  rw [after1_2]
  unfold out1_2
  rw [View.canon_unit_zero bias1_hz]
  simp only [View.ld_unit_zero (S := S5000x128) bias1_hz, View.ld_unit_zero (S := S1x128) bias1_hz]
  obtain ⟨e0, e1, e2, e3, e4, e5⟩ := bias1_idx_facts t
  funext j
  obtain ⟨p, q, rfl⟩ : ∃ (p : Fin 5000) (q : Fin 128), j = ValueIdx.ix2 p q := ⟨j 0, j 1, ValueIdx.eq_ix2 j⟩
  show k1_pay1 (iblk1 V c 0 t) (iblk1 V c 1 t) (ix2 p q) = _
  rw [bias1_pay_apply, View.read_apply]
  rw [bias1_G_apply (V c main_v43) (V c main_v44) (((cfg1.win 2).blk t).view.emb (ix2 p q)) (((cfg1.win 1).blk t).view.emb (ix2 (0 : Fin 1) q))
    (by show win1_1.index t (1 : Fin 2) * 128 + 1 * q.val = win1_2.index t (1 : Fin 2) * 128 + 1 * q.val; omega)]
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  unfold iblk1
  rw [View.read_apply, View.read_apply, h0]
  rfl

end AtEntry

/-- An index of the output array is in point t's block iff each coordinate is in the block's range on its axis. -/
theorem bias1_mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The 10 blocks of 5000 rows cover the array: index (i0, i1) lies in the block of point t = i0 / 5000, which writes back. -/
theorem bias1_cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_2 t, ?_⟩
  rw [bias1_mem_blk]
  obtain ⟨e0, e1, e2, e3, e4, e5⟩ := bias1_idx_facts t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- AFTER THE REGION'S 10 POINTS the output array is the rows array plus the bias row broadcast to every row, clamped below at
    zero, of the two input arrays as the region found them: entry (i0, i1) was written by point i0 / 5000 from the rows array's
    entry (i0, i1) and the bias row's entry (0, i1), and every entry lies in exactly such a block. -/
theorem biasRelu1 (V : (c : Dev nD) → (b : Ref sig .tc) → Buf (Elt Ideal) ((c : Thread nD τ).loc b)) (c : Dev nD) :
    (dat1 (F := Ideal) V c).arrAt 2 cfg1.N
      = maximumf (addf (V c main_v43) (broadcastInDim Cert.ReferenceIdeal.S50000x128 ![0, 1] Cert.ReferenceIdeal.Gen.bcast_S1x128_S50000x128_0_1 (V c main_v44)))
          (broadcastInDim Cert.ReferenceIdeal.S50000x128 ![] Cert.ReferenceIdeal.Gen.bcast_S_S50000x128 (constant (F := Ideal) Cert.ReferenceIdeal.S_ .f32 0x00000000#32)) :=
  (dat1 V c).arrAt_eq_of_cover 2 (bias1_G (V c main_v43) (V c main_v44)) (fun t _ => bias1_flushed_eq V c t) bias1_cover

/-- The [128] bias vector reshaped to one row and the same vector broadcast along axis 1 to one row are the same [1, 128]
    array: both read b q at (0, q) (the reshape keeps the row-major position, 0 · 128 + q = q). -/
theorem row128 (b : FVec Ideal S128 .f32) :
    shapeCast Cert.KernelIdeal.S1x128 b Cert.KernelIdeal.Gen.shapeCasts_S128_S1x128
      = broadcastInDim Cert.ReferenceIdeal.S1x128 ![1] Cert.ReferenceIdeal.Gen.bcast_S128_S1x128_1 b := by
  funext j
  obtain ⟨p, q, rfl⟩ : ∃ (p : Fin 1) (q : Fin 128), j = ValueIdx.ix2 p q := ⟨j 0, j 1, ValueIdx.eq_ix2 j⟩
  rw [shapeCast_apply b Cert.KernelIdeal.Gen.shapeCasts_S128_S1x128 (ix2 p q) (ix1 q)
    (by rw [Shape.rowMajor_val_one, Shape.rowMajor_val_two]; show q.val = p.val * 128 + q.val; omega)]
  rw [broadcastInDim_apply _ Cert.ReferenceIdeal.Gen.bcast_S128_S1x128_1 b (ix2 p q) (ix1 q) (fun a => match a with
    | ⟨0, _⟩ => by show q.val = if (128 : Nat) = 1 then 0 else q.val; rw [if_neg (by decide)])]

end Cert.KernelIdeal.GcnBlocks

end
-- ==== Proof.BiasRows3.lean ====
/-
  The bias region over the extended reals. The region walks the [50000, 64] array in 10 blocks of 5000 rows; at each block it
  adds the [1, 64] bias row to every row of the block. Read index by index: entry (i0, i1) of the output array is written by
  the point t = i0 / 5000, from entry (i0, i1) of the input array and entry (0, i1) of the bias row, as x (i0, i1) + b (0, i1).
  The host's form of the same array — the bias row broadcast along axes [0, 1] to [50000, 64], added — reads the same value at
  every index, so after the 10 points the output array IS that whole-array expression of the two input arrays as the region
  found them.
  Also here: the [64] bias vector reshaped to one row and the same vector broadcast along axis 1 to one row are one [1, 64]
  array (both put b j at (0, j)).
-/
import proofs.«143387_j11854109737065_1_alg».proof.Proof.Gen.KernelIdeal.Frame
import proofs.«143387_j11854109737065_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.GcnBlocks

open Cert.KernelIdeal Cert.KernelIdeal.Gen

/-- The zero offsets of a store or load that covers its whole buffer. -/
theorem bias3_hz : (![0, 0] : Fin 2 → Nat) = fun _ => 0 := funext fun a => by fin_cases a <;> rfl

/-- The body's payload at (p, q) of a block: the block's entry (p, q) plus the bias row's entry (0, q) (the two same-shape
    casts are the identity, the row broadcast reads row 0). -/
theorem bias3_pay_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  rw [shapeCast_self, shapeCast_self, addf_apply]
  rw [broadcastTo_apply x1 broadcasts_S1x64_S5000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])]

/-- The whole-array value: the rows array plus the bias row broadcast along axes [0, 1]. -/
abbrev bias3_G (a : FVec Ideal S50000x64 .f32) (b : FVec Ideal S1x64 .f32) : FVec Ideal S50000x64 .f32 :=
  addf a (broadcastInDim Cert.ReferenceIdeal.S50000x64 ![0, 1] Cert.ReferenceIdeal.Gen.bcast_S1x64_S50000x64_0_1 b)

/-- The whole-array value at an index i: a i plus the bias row at any index k of column i 1 (its row coordinate is 0, the
    row axis having extent 1). -/
theorem bias3_G_apply (a : FVec Ideal S50000x64 .f32) (b : FVec Ideal S1x64 .f32) (i : S50000x64.Idx) (k : S1x64.Idx)
    (hk : (k 1).val = (i 1).val) :
    bias3_G a b i = a i + b k := by
  have hk0 : (k 0).val < 1 := (k 0).isLt
  unfold bias3_G
  rw [addf_apply]
  rw [broadcastInDim_apply _ Cert.ReferenceIdeal.Gen.bcast_S1x64_S50000x64_0_1 b i k (fun a => match a with
    | ⟨0, _⟩ => by show (k 0).val = if (1 : Nat) = 1 then 0 else _; rw [if_pos rfl]; omega
    | ⟨1, _⟩ => by show (k 1).val = if (64 : Nat) = 1 then 0 else (i 1).val; rw [if_neg (by decide)]; exact hk)]

/-- The index maps over the 10 points: the rows window and the output window sit at the same block, block (t, 0); the bias
    window at block (0, 0). -/
theorem bias3_idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

section AtEntry
variable (V : (c : Dev nD) → (b : Ref sig .tc) → Buf (Elt Ideal) ((c : Thread nD τ).loc b))

/-- What point t writes back is block t of the whole-array value of the two input arrays as the region found them: entry
    (p, q) of the block is array entry (5000 t + p, q), made from the rows array's entry (5000 t + p, q) and the bias row's
    entry (0, q). -/
theorem bias3_flushed_eq (c : Dev nD) (t : Fin cfg3.N) :
    (dat3 (F := Ideal) V c).flushed 2 t = ((cfg3.win 2).blk t).view.read (Elt Ideal) (bias3_G (V c main_v59) (V c main_v60)) := by
  show (cfg3.win 2).cut (grid3.coords t) ((dat3 V c).after 2 t) = _
  rw [after3_2]
  unfold out3_2
  rw [View.canon_unit_zero bias3_hz]
  simp only [View.ld_unit_zero (S := S5000x64) bias3_hz, View.ld_unit_zero (S := S1x64) bias3_hz]
  obtain ⟨e0, e1, e2, e3, e4, e5⟩ := bias3_idx_facts t
  funext j
  obtain ⟨p, q, rfl⟩ : ∃ (p : Fin 5000) (q : Fin 64), j = ValueIdx.ix2 p q := ⟨j 0, j 1, ValueIdx.eq_ix2 j⟩
  show k3_pay1 (iblk3 V c 0 t) (iblk3 V c 1 t) (ix2 p q) = _
  rw [bias3_pay_apply, View.read_apply]
  rw [bias3_G_apply (V c main_v59) (V c main_v60) (((cfg3.win 2).blk t).view.emb (ix2 p q)) (((cfg3.win 1).blk t).view.emb (ix2 (0 : Fin 1) q))
    (by show win3_1.index t (1 : Fin 2) * 64 + 1 * q.val = win3_2.index t (1 : Fin 2) * 64 + 1 * q.val; omega)]
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  unfold iblk3
  rw [View.read_apply, View.read_apply, h0]
  rfl

end AtEntry

/-- An index of the output array is in point t's block iff each coordinate is in the block's range on its axis. -/
theorem bias3_mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The 10 blocks of 5000 rows cover the array: index (i0, i1) lies in the block of point t = i0 / 5000, which writes back. -/
theorem bias3_cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_2 t, ?_⟩
  rw [bias3_mem_blk]
  obtain ⟨e0, e1, e2, e3, e4, e5⟩ := bias3_idx_facts t
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- AFTER THE REGION'S 10 POINTS the output array is the rows array plus the bias row broadcast to every row, of the two input
    arrays as the region found them: entry (i0, i1) was written by point i0 / 5000 from the rows array's entry (i0, i1) and the
    bias row's entry (0, i1), and every entry lies in exactly such a block. -/
theorem bias3 (V : (c : Dev nD) → (b : Ref sig .tc) → Buf (Elt Ideal) ((c : Thread nD τ).loc b)) (c : Dev nD) :
    (dat3 (F := Ideal) V c).arrAt 2 cfg3.N
      = addf (F := Ideal) (φ := .f32) (V c main_v59) (broadcastInDim Cert.ReferenceIdeal.S50000x64 ![0, 1] Cert.ReferenceIdeal.Gen.bcast_S1x64_S50000x64_0_1 (V c main_v60)) :=
  (dat3 V c).arrAt_eq_of_cover 2 (bias3_G (V c main_v59) (V c main_v60)) (fun t _ => bias3_flushed_eq V c t) bias3_cover

/-- The [64] bias vector reshaped to one row and the same vector broadcast along axis 1 to one row are the same [1, 64]
    array: both read b q at (0, q) (the reshape keeps the row-major position, 0 · 64 + q = q). -/
theorem row64 (b : FVec Ideal S64 .f32) :
    shapeCast Cert.KernelIdeal.S1x64 b Cert.KernelIdeal.Gen.shapeCasts_S64_S1x64
      = broadcastInDim Cert.ReferenceIdeal.S1x64 ![1] Cert.ReferenceIdeal.Gen.bcast_S64_S1x64_1 b := by
  funext j
  obtain ⟨p, q, rfl⟩ : ∃ (p : Fin 1) (q : Fin 64), j = ValueIdx.ix2 p q := ⟨j 0, j 1, ValueIdx.eq_ix2 j⟩
  rw [shapeCast_apply b Cert.KernelIdeal.Gen.shapeCasts_S64_S1x64 (ix2 p q) (ix1 q)
    (by rw [Shape.rowMajor_val_one, Shape.rowMajor_val_two]; show q.val = p.val * 64 + q.val; omega)]
  rw [broadcastInDim_apply _ Cert.ReferenceIdeal.Gen.bcast_S64_S1x64_1 b (ix2 p q) (ix1 q) (fun a => match a with
    | ⟨0, _⟩ => by show q.val = if (64 : Nat) = 1 then 0 else q.val; rw [if_neg (by decide)])]

end Cert.KernelIdeal.GcnBlocks

end
-- ==== Proof.BiasRows5.lean ====
/-
  The bias region over the extended reals. The region walks the [50000, 64] array in 10 blocks of 5000 rows; at each block it
  adds the [1, 64] bias row to every row of the block. Read index by index: entry (i0, i1) of the output array is written by
  the point t = i0 / 5000, from entry (i0, i1) of the input array and entry (0, i1) of the bias row, as x (i0, i1) + b (0, i1).
  The host's form of the same array — the bias row broadcast along axes [0, 1] to [50000, 64], added — reads the same value at
  every index, so after the 10 points the output array IS that whole-array expression of the two input arrays as the region
  found them.
-/
import proofs.«143387_j11854109737065_1_alg».proof.Proof.Gen.KernelIdeal.Frame
import proofs.«143387_j11854109737065_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.GcnBlocks

open Cert.KernelIdeal Cert.KernelIdeal.Gen

/-- The zero offsets of a store or load that covers its whole buffer. -/
theorem bias5_hz : (![0, 0] : Fin 2 → Nat) = fun _ => 0 := funext fun a => by fin_cases a <;> rfl

/-- The body's payload at (p, q) of a block: the block's entry (p, q) plus the bias row's entry (0, q) (the two same-shape
    casts are the identity, the row broadcast reads row 0). -/
theorem bias5_pay_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  rw [shapeCast_self, shapeCast_self, addf_apply]
  rw [broadcastTo_apply x1 broadcasts_S1x64_S5000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])]

/-- The whole-array value: the rows array plus the bias row broadcast along axes [0, 1]. -/
abbrev bias5_G (a : FVec Ideal S50000x64 .f32) (b : FVec Ideal S1x64 .f32) : FVec Ideal S50000x64 .f32 :=
  addf a (broadcastInDim Cert.ReferenceIdeal.S50000x64 ![0, 1] Cert.ReferenceIdeal.Gen.bcast_S1x64_S50000x64_0_1 b)

/-- The whole-array value at an index i: a i plus the bias row at any index k of column i 1 (its row coordinate is 0, the
    row axis having extent 1). -/
theorem bias5_G_apply (a : FVec Ideal S50000x64 .f32) (b : FVec Ideal S1x64 .f32) (i : S50000x64.Idx) (k : S1x64.Idx)
    (hk : (k 1).val = (i 1).val) :
    bias5_G a b i = a i + b k := by
  have hk0 : (k 0).val < 1 := (k 0).isLt
  unfold bias5_G
  rw [addf_apply]
  rw [broadcastInDim_apply _ Cert.ReferenceIdeal.Gen.bcast_S1x64_S50000x64_0_1 b i k (fun a => match a with
    | ⟨0, _⟩ => by show (k 0).val = if (1 : Nat) = 1 then 0 else _; rw [if_pos rfl]; omega
    | ⟨1, _⟩ => by show (k 1).val = if (64 : Nat) = 1 then 0 else (i 1).val; rw [if_neg (by decide)]; exact hk)]

/-- The index maps over the 10 points: the rows window and the output window sit at the same block, block (t, 0); the bias
    window at block (0, 0). -/
theorem bias5_idx_facts : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

section AtEntry
variable (V : (c : Dev nD) → (b : Ref sig .tc) → Buf (Elt Ideal) ((c : Thread nD τ).loc b))

/-- What point t writes back is block t of the whole-array value of the two input arrays as the region found them: entry
    (p, q) of the block is array entry (5000 t + p, q), made from the rows array's entry (5000 t + p, q) and the bias row's
    entry (0, q). -/
theorem bias5_flushed_eq (c : Dev nD) (t : Fin cfg5.N) :
    (dat5 (F := Ideal) V c).flushed 2 t = ((cfg5.win 2).blk t).view.read (Elt Ideal) (bias5_G (V c main_v75) (V c main_v76)) := by
  show (cfg5.win 2).cut (grid5.coords t) ((dat5 V c).after 2 t) = _
  rw [after5_2]
  unfold out5_2
  rw [View.canon_unit_zero bias5_hz]
  simp only [View.ld_unit_zero (S := S5000x64) bias5_hz, View.ld_unit_zero (S := S1x64) bias5_hz]
  obtain ⟨e0, e1, e2, e3, e4, e5⟩ := bias5_idx_facts t
  funext j
  obtain ⟨p, q, rfl⟩ : ∃ (p : Fin 5000) (q : Fin 64), j = ValueIdx.ix2 p q := ⟨j 0, j 1, ValueIdx.eq_ix2 j⟩
  show k5_pay1 (iblk5 V c 0 t) (iblk5 V c 1 t) (ix2 p q) = _
  rw [bias5_pay_apply, View.read_apply]
  rw [bias5_G_apply (V c main_v75) (V c main_v76) (((cfg5.win 2).blk t).view.emb (ix2 p q)) (((cfg5.win 1).blk t).view.emb (ix2 (0 : Fin 1) q))
    (by show win5_1.index t (1 : Fin 2) * 64 + 1 * q.val = win5_2.index t (1 : Fin 2) * 64 + 1 * q.val; omega)]
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * q.val = win5_2.index t (1 : Fin 2) * 64 + 1 * q.val; omega
  unfold iblk5
  rw [View.read_apply, View.read_apply, h0]
  rfl

end AtEntry

/-- An index of the output array is in point t's block iff each coordinate is in the block's range on its axis. -/
theorem bias5_mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- The 10 blocks of 5000 rows cover the array: index (i0, i1) lies in the block of point t = i0 / 5000, which writes back. -/
theorem bias5_cover (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  refine ⟨t, flush5_2 t, ?_⟩
  rw [bias5_mem_blk]
  obtain ⟨e0, e1, e2, e3, e4, e5⟩ := bias5_idx_facts t
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- AFTER THE REGION'S 10 POINTS the output array is the rows array plus the bias row broadcast to every row, of the two input
    arrays as the region found them: entry (i0, i1) was written by point i0 / 5000 from the rows array's entry (i0, i1) and the
    bias row's entry (0, i1), and every entry lies in exactly such a block. -/
theorem bias5 (V : (c : Dev nD) → (b : Ref sig .tc) → Buf (Elt Ideal) ((c : Thread nD τ).loc b)) (c : Dev nD) :
    (dat5 (F := Ideal) V c).arrAt 2 cfg5.N
      = addf (F := Ideal) (φ := .f32) (V c main_v75) (broadcastInDim Cert.ReferenceIdeal.S50000x64 ![0, 1] Cert.ReferenceIdeal.Gen.bcast_S1x64_S50000x64_0_1 (V c main_v76)) :=
  (dat5 V c).arrAt_eq_of_cover 2 (bias5_G (V c main_v75) (V c main_v76)) (fun t _ => bias5_flushed_eq V c t) bias5_cover

end Cert.KernelIdeal.GcnBlocks

end
-- ==== Proof.KernelChain.lean ====
/-
  What the buffers the value depends on hold at each boundary between two segments of the idealized kernel's program
  (the generated frame's `W0 … W12`), at the extended reals: the graph's structure after the first three stretches and
  unchanged from then on; after each launch its output array as one whole-array function (a matrix product, a bias with
  or without the rectifier); after each later stretch its convolution.  At the last boundary the two result buffers hold
  `mu` and `logstd` of the argument arrays.
-/
import proofs.«143387_j11854109737065_1_alg».proof.Proof.Gen.KernelIdeal.Frame
import proofs.«143387_j11854109737065_1_alg».proof.Proof.GcnSpec
import proofs.«143387_j11854109737065_1_alg».proof.Proof.KernelStretches
import proofs.«143387_j11854109737065_1_alg».proof.Proof.DenseRows0
import proofs.«143387_j11854109737065_1_alg».proof.Proof.DenseRows2
import proofs.«143387_j11854109737065_1_alg».proof.Proof.DenseRows4
import proofs.«143387_j11854109737065_1_alg».proof.Proof.BiasRows1
import proofs.«143387_j11854109737065_1_alg».proof.Proof.BiasRows3
import proofs.«143387_j11854109737065_1_alg».proof.Proof.BiasRows5

set_option maxRecDepth 16384

noncomputable section

namespace Cert.KernelIdeal.GcnChain

open Idealize.ShloMosaic Idealize.ShloMosaic.TcCoe Idealize.SL.Sem
open Idealize.ShloMosaic.Pipeline (Dat)
open Cert.KernelIdeal Cert.KernelIdeal.Gen Cert.Gcn

variable (m : (ℓ : Loc nD τ sig) → Buf (Elt Ideal) ℓ) (ρ : Dev nD → PrngReg) (c : Dev nD)

/-! ## The argument arrays as launched -/

abbrev a0 (m : (ℓ : Loc nD τ sig) → Buf (Elt Ideal) ℓ) (c : Dev nD) : (⟨Cert.ReferenceIdeal.S50000x256, .f32⟩ : BufTy).Contents (Elt Ideal) := m ((c.tc : Thread nD τ).loc main_arg0)
abbrev a1 (m : (ℓ : Loc nD τ sig) → Buf (Elt Ideal) ℓ) (c : Dev nD) : (⟨Cert.ReferenceIdeal.S256x128, .f32⟩ : BufTy).Contents (Elt Ideal) := m ((c.tc : Thread nD τ).loc main_arg1)
abbrev a2 (m : (ℓ : Loc nD τ sig) → Buf (Elt Ideal) ℓ) (c : Dev nD) : (⟨Cert.ReferenceIdeal.S128, .f32⟩ : BufTy).Contents (Elt Ideal) := m ((c.tc : Thread nD τ).loc main_arg2)
abbrev a3 (m : (ℓ : Loc nD τ sig) → Buf (Elt Ideal) ℓ) (c : Dev nD) : (⟨Cert.ReferenceIdeal.S128x64, .f32⟩ : BufTy).Contents (Elt Ideal) := m ((c.tc : Thread nD τ).loc main_arg3)
abbrev a4 (m : (ℓ : Loc nD τ sig) → Buf (Elt Ideal) ℓ) (c : Dev nD) : (⟨Cert.ReferenceIdeal.S64, .f32⟩ : BufTy).Contents (Elt Ideal) := m ((c.tc : Thread nD τ).loc main_arg4)
abbrev a5 (m : (ℓ : Loc nD τ sig) → Buf (Elt Ideal) ℓ) (c : Dev nD) : (⟨Cert.ReferenceIdeal.S128x64, .f32⟩ : BufTy).Contents (Elt Ideal) := m ((c.tc : Thread nD τ).loc main_arg5)
abbrev a6 (m : (ℓ : Loc nD τ sig) → Buf (Elt Ideal) ℓ) (c : Dev nD) : (⟨Cert.ReferenceIdeal.S64, .f32⟩ : BufTy).Contents (Elt Ideal) := m ((c.tc : Thread nD τ).loc main_arg6)
abbrev a7 (m : (ℓ : Loc nD τ sig) → Buf (Elt Ideal) ℓ) (c : Dev nD) : (⟨Cert.ReferenceIdeal.S2x1600000, .i32⟩ : BufTy).Contents (Elt Ideal) := m ((c.tc : Thread nD τ).loc main_arg7)

/-! ## The chain -/

theorem arg0_at3 : W3 m ρ c (Proc.devRef .tc main_arg0) = (a0 m c) :=
  ((GcnStretch.hostOps0_2_keeps (W2 m ρ c) main_arg0 (by decide)).trans ((GcnStretch.hostOps0_1_keeps (W1 m ρ c) main_arg0 (by decide)).trans ((GcnStretch.hostOps0_keeps (W0 m ρ c) main_arg0 (by decide)).trans (rfl : W0 m ρ c (Proc.devRef .tc main_arg0) = (a0 m c)))))

theorem arg1_at3 : W3 m ρ c (Proc.devRef .tc main_arg1) = (a1 m c) :=
  ((GcnStretch.hostOps0_2_keeps (W2 m ρ c) main_arg1 (by decide)).trans ((GcnStretch.hostOps0_1_keeps (W1 m ρ c) main_arg1 (by decide)).trans ((GcnStretch.hostOps0_keeps (W0 m ρ c) main_arg1 (by decide)).trans (rfl : W0 m ρ c (Proc.devRef .tc main_arg1) = (a1 m c)))))

theorem arg2_at4 : W4 m ρ c (Proc.devRef .tc main_arg2) = (a2 m c) :=
  ((W4_of_ne m ρ c main_arg2 (by decide)).trans ((GcnStretch.hostOps0_2_keeps (W2 m ρ c) main_arg2 (by decide)).trans ((GcnStretch.hostOps0_1_keeps (W1 m ρ c) main_arg2 (by decide)).trans ((GcnStretch.hostOps0_keeps (W0 m ρ c) main_arg2 (by decide)).trans (rfl : W0 m ρ c (Proc.devRef .tc main_arg2) = (a2 m c))))))

theorem arg3_at6 : W6 m ρ c (Proc.devRef .tc main_arg3) = (a3 m c) :=
  ((W6_of_ne m ρ c main_arg3 (by decide)).trans ((GcnStretch.hostOps1_keeps (W4 m ρ c) main_arg3 (by decide)).trans ((W4_of_ne m ρ c main_arg3 (by decide)).trans ((GcnStretch.hostOps0_2_keeps (W2 m ρ c) main_arg3 (by decide)).trans ((GcnStretch.hostOps0_1_keeps (W1 m ρ c) main_arg3 (by decide)).trans ((GcnStretch.hostOps0_keeps (W0 m ρ c) main_arg3 (by decide)).trans (rfl : W0 m ρ c (Proc.devRef .tc main_arg3) = (a3 m c))))))))

theorem arg4_at7 : W7 m ρ c (Proc.devRef .tc main_arg4) = (a4 m c) :=
  ((W7_of_ne m ρ c main_arg4 (by decide)).trans ((W6_of_ne m ρ c main_arg4 (by decide)).trans ((GcnStretch.hostOps1_keeps (W4 m ρ c) main_arg4 (by decide)).trans ((W4_of_ne m ρ c main_arg4 (by decide)).trans ((GcnStretch.hostOps0_2_keeps (W2 m ρ c) main_arg4 (by decide)).trans ((GcnStretch.hostOps0_1_keeps (W1 m ρ c) main_arg4 (by decide)).trans ((GcnStretch.hostOps0_keeps (W0 m ρ c) main_arg4 (by decide)).trans (rfl : W0 m ρ c (Proc.devRef .tc main_arg4) = (a4 m c)))))))))

theorem arg5_at9 : W9 m ρ c (Proc.devRef .tc main_arg5) = (a5 m c) :=
  ((W9_of_ne m ρ c main_arg5 (by decide)).trans ((GcnStretch.hostOps3_keeps (W7 m ρ c) main_arg5 (by decide)).trans ((W7_of_ne m ρ c main_arg5 (by decide)).trans ((W6_of_ne m ρ c main_arg5 (by decide)).trans ((GcnStretch.hostOps1_keeps (W4 m ρ c) main_arg5 (by decide)).trans ((W4_of_ne m ρ c main_arg5 (by decide)).trans ((GcnStretch.hostOps0_2_keeps (W2 m ρ c) main_arg5 (by decide)).trans ((GcnStretch.hostOps0_1_keeps (W1 m ρ c) main_arg5 (by decide)).trans ((GcnStretch.hostOps0_keeps (W0 m ρ c) main_arg5 (by decide)).trans (rfl : W0 m ρ c (Proc.devRef .tc main_arg5) = (a5 m c)))))))))))

theorem arg6_at10 : W10 m ρ c (Proc.devRef .tc main_arg6) = (a6 m c) :=
  ((W10_of_ne m ρ c main_arg6 (by decide)).trans ((W9_of_ne m ρ c main_arg6 (by decide)).trans ((GcnStretch.hostOps3_keeps (W7 m ρ c) main_arg6 (by decide)).trans ((W7_of_ne m ρ c main_arg6 (by decide)).trans ((W6_of_ne m ρ c main_arg6 (by decide)).trans ((GcnStretch.hostOps1_keeps (W4 m ρ c) main_arg6 (by decide)).trans ((W4_of_ne m ρ c main_arg6 (by decide)).trans ((GcnStretch.hostOps0_2_keeps (W2 m ρ c) main_arg6 (by decide)).trans ((GcnStretch.hostOps0_1_keeps (W1 m ρ c) main_arg6 (by decide)).trans ((GcnStretch.hostOps0_keeps (W0 m ρ c) main_arg6 (by decide)).trans (rfl : W0 m ρ c (Proc.devRef .tc main_arg6) = (a6 m c))))))))))))

/-- After the first stretch: every edge's source, … -/
theorem src_at1 : W1 m ρ c (Proc.devRef .tc main_v5) = srcOf (F := Ideal) (a7 m c) :=
  GcnStretch.first_src (W0 m ρ c)

/-- … every edge's destination, … -/
theorem dst_at1 : W1 m ρ c (Proc.devRef .tc main_v6) = dstOf (F := Ideal) (a7 m c) :=
  GcnStretch.first_dst (W0 m ρ c)

/-- … where the degree is positive, … -/
theorem pos_at1 : W1 m ρ c (Proc.devRef .tc main_v12) = cmpf .ogt (degOf (F := Ideal) (a7 m c)) (broadcastInDim Cert.ReferenceIdeal.S50000 ![] Cert.ReferenceIdeal.Gen.bcast_S_S50000 (constant (F := Ideal) Cert.ReferenceIdeal.S_ .f32 0x00000000#32)) :=
  GcnStretch.first_pos (W0 m ρ c)

/-- … the degrees' inverse square roots … -/
theorem rsqrt_at1 : W1 m ρ c (Proc.devRef .tc main_v13) = Host.rsqrt (F := Ideal) (s := Cert.ReferenceIdeal.S50000) (φ := .f32) (degOf (F := Ideal) (a7 m c)) :=
  GcnStretch.first_rsqrt (W0 m ρ c)

/-- … and the zero that replaces them. -/
theorem zero_at1 : W1 m ρ c (Proc.devRef .tc main_cst_2) = constant (F := Ideal) Cert.ReferenceIdeal.S_ .f32 0x00000000#32 :=
  GcnStretch.first_zero (W0 m ρ c)

/-- After the selection: `dinv`. -/
theorem dinv_at2 : W2 m ρ c (Proc.devRef .tc main_v14) = dinvOf (F := Ideal) (a7 m c) :=
  GcnStretch.where_dinv (W1 m ρ c) (a7 m c) (pos_at1 m ρ c) (rsqrt_at1 m ρ c) (zero_at1 m ρ c)

theorem src_at2 : W2 m ρ c (Proc.devRef .tc main_v5) = srcOf (F := Ideal) (a7 m c) :=
  ((GcnStretch.hostOps0_1_keeps (W1 m ρ c) main_v5 (by decide)).trans (src_at1 m ρ c))

theorem dst_at2 : W2 m ρ c (Proc.devRef .tc main_v6) = dstOf (F := Ideal) (a7 m c) :=
  ((GcnStretch.hostOps0_1_keeps (W1 m ρ c) main_v6 (by decide)).trans (dst_at1 m ρ c))

/-- After the third stretch: the edge weights. -/
theorem nrm_at3 : W3 m ρ c (Proc.devRef .tc main_v29) = normOf (F := Ideal) (a7 m c) :=
  GcnStretch.edge_weights (W2 m ρ c) (a7 m c) (src_at2 m ρ c) (dst_at2 m ρ c) (dinv_at2 m ρ c)

theorem src_at3 : W3 m ρ c (Proc.devRef .tc main_v5) = srcOf (F := Ideal) (a7 m c) :=
  ((GcnStretch.hostOps0_2_keeps (W2 m ρ c) main_v5 (by decide)).trans (src_at2 m ρ c))

theorem dst_at3 : W3 m ρ c (Proc.devRef .tc main_v6) = dstOf (F := Ideal) (a7 m c) :=
  ((GcnStretch.hostOps0_2_keeps (W2 m ρ c) main_v6 (by decide)).trans (dst_at2 m ρ c))

/-- The graph's structure is still there at boundary 4: no segment in between writes these buffers. -/
theorem src_at4 : W4 m ρ c (Proc.devRef .tc main_v5) = srcOf (F := Ideal) (a7 m c) :=
  ((W4_of_ne m ρ c main_v5 (by decide)).trans (src_at3 m ρ c))

theorem dst_at4 : W4 m ρ c (Proc.devRef .tc main_v6) = dstOf (F := Ideal) (a7 m c) :=
  ((W4_of_ne m ρ c main_v6 (by decide)).trans (dst_at3 m ρ c))

theorem nrm_at4 : W4 m ρ c (Proc.devRef .tc main_v29) = normOf (F := Ideal) (a7 m c) :=
  ((W4_of_ne m ρ c main_v29 (by decide)).trans (nrm_at3 m ρ c))

/-- The graph's structure is still there at boundary 7: no segment in between writes these buffers. -/
theorem src_at7 : W7 m ρ c (Proc.devRef .tc main_v5) = srcOf (F := Ideal) (a7 m c) :=
  ((W7_of_ne m ρ c main_v5 (by decide)).trans ((W6_of_ne m ρ c main_v5 (by decide)).trans ((GcnStretch.hostOps1_keeps (W4 m ρ c) main_v5 (by decide)).trans (src_at4 m ρ c))))

theorem dst_at7 : W7 m ρ c (Proc.devRef .tc main_v6) = dstOf (F := Ideal) (a7 m c) :=
  ((W7_of_ne m ρ c main_v6 (by decide)).trans ((W6_of_ne m ρ c main_v6 (by decide)).trans ((GcnStretch.hostOps1_keeps (W4 m ρ c) main_v6 (by decide)).trans (dst_at4 m ρ c))))

theorem nrm_at7 : W7 m ρ c (Proc.devRef .tc main_v29) = normOf (F := Ideal) (a7 m c) :=
  ((W7_of_ne m ρ c main_v29 (by decide)).trans ((W6_of_ne m ρ c main_v29 (by decide)).trans ((GcnStretch.hostOps1_keeps (W4 m ρ c) main_v29 (by decide)).trans (nrm_at4 m ρ c))))

/-- The graph's structure is still there at boundary 10: no segment in between writes these buffers. -/
theorem src_at10 : W10 m ρ c (Proc.devRef .tc main_v5) = srcOf (F := Ideal) (a7 m c) :=
  ((W10_of_ne m ρ c main_v5 (by decide)).trans ((W9_of_ne m ρ c main_v5 (by decide)).trans ((GcnStretch.hostOps3_keeps (W7 m ρ c) main_v5 (by decide)).trans (src_at7 m ρ c))))

theorem dst_at10 : W10 m ρ c (Proc.devRef .tc main_v6) = dstOf (F := Ideal) (a7 m c) :=
  ((W10_of_ne m ρ c main_v6 (by decide)).trans ((W9_of_ne m ρ c main_v6 (by decide)).trans ((GcnStretch.hostOps3_keeps (W7 m ρ c) main_v6 (by decide)).trans (dst_at7 m ρ c))))

theorem nrm_at10 : W10 m ρ c (Proc.devRef .tc main_v29) = normOf (F := Ideal) (a7 m c) :=
  ((W10_of_ne m ρ c main_v29 (by decide)).trans ((W9_of_ne m ρ c main_v29 (by decide)).trans ((GcnStretch.hostOps3_keeps (W7 m ρ c) main_v29 (by decide)).trans (nrm_at7 m ρ c))))

/-- After the first launch: `x · W_h`. -/
theorem xw1_at4 : W4 m ρ c (Proc.devRef .tc main_v30) = (Host.dotGeneral (F := Ideal) (φ₁ := .f32) (φ₂ := .f32) Cert.ReferenceIdeal.dot_S50000x256_S256x128_S50000x128_1_0_0_1_n_n none (a0 m c) (a1 m c)) :=
  (W4_arr m ρ c 2).trans ((GcnBlocks.dense0 (V3 m ρ) c).trans (congrArg₂ (Host.dotGeneral (F := Ideal) (φ₁ := .f32) (φ₂ := .f32) Cert.ReferenceIdeal.dot_S50000x256_S256x128_S50000x128_1_0_0_1_n_n none) (arg0_at3 m ρ c) (arg1_at3 m ρ c)))

/-- After the next stretch: its convolution, … -/
theorem agg1_at5 : W5 m ρ c (Proc.devRef .tc main_v43) = agg128 (F := Ideal) (a7 m c) (Host.dotGeneral (F := Ideal) (φ₁ := .f32) (φ₂ := .f32) Cert.ReferenceIdeal.dot_S50000x256_S256x128_S50000x128_1_0_0_1_n_n none (a0 m c) (a1 m c)) :=
  GcnStretch.conv1 (W4 m ρ c) (a7 m c) _ (src_at4 m ρ c) (dst_at4 m ρ c) (nrm_at4 m ρ c) (xw1_at4 m ρ c)

/-- … and the bias `b_h` as a one-row array. -/
theorem row1_at5 : W5 m ρ c (Proc.devRef .tc main_v44) = shapeCast S1x128 (a2 m c) Cert.KernelIdeal.Gen.shapeCasts_S128_S1x128 :=
  (GcnStretch.row1 (W4 m ρ c)).trans (congrArg (fun b => shapeCast S1x128 b Cert.KernelIdeal.Gen.shapeCasts_S128_S1x128) (arg2_at4 m ρ c))

/-- After the second launch: the hidden layer. -/
theorem hid_at6 : W6 m ρ c (Proc.devRef .tc main_v45) = (hidden (F := Ideal) (a0 m c) (a1 m c) (a2 m c) (a7 m c)) := by
  refine (W6_arr m ρ c 2).trans ((GcnBlocks.biasRelu1 (V5 m ρ) c).trans ?_)
  rw [show V5 m ρ c main_v43 = _ from agg1_at5 m ρ c, show V5 m ρ c main_v44 = _ from row1_at5 m ρ c, GcnBlocks.row128]
  rfl

/-- The third launch reads the hidden layer and leaves it in place. -/
theorem hid_at7 : W7 m ρ c (Proc.devRef .tc main_v45) = (hidden (F := Ideal) (a0 m c) (a1 m c) (a2 m c) (a7 m c)) :=
  ((W7_arr m ρ c 0).trans (((dat2 (V6 m ρ) c).arrAt_in 0 rfl _).trans (A_eq2 (V6 m ρ) c 0))).trans (hid_at6 m ρ c)

/-- After the third launch: `h · W_mu`. -/
theorem xw2_at7 : W7 m ρ c (Proc.devRef .tc main_v46) = (Host.dotGeneral (F := Ideal) (φ₁ := .f32) (φ₂ := .f32) Cert.ReferenceIdeal.dot_S50000x128_S128x64_S50000x64_1_0_0_1_n_n none (hidden (F := Ideal) (a0 m c) (a1 m c) (a2 m c) (a7 m c)) (a3 m c)) :=
  (W7_arr m ρ c 2).trans ((GcnBlocks.dense2 (V6 m ρ) c).trans (congrArg₂ (Host.dotGeneral (F := Ideal) (φ₁ := .f32) (φ₂ := .f32) Cert.ReferenceIdeal.dot_S50000x128_S128x64_S50000x64_1_0_0_1_n_n none) (hid_at6 m ρ c) (arg3_at6 m ρ c)))

theorem agg2_at8 : W8 m ρ c (Proc.devRef .tc main_v59) = agg64 (F := Ideal) (a7 m c) (Host.dotGeneral (F := Ideal) (φ₁ := .f32) (φ₂ := .f32) Cert.ReferenceIdeal.dot_S50000x128_S128x64_S50000x64_1_0_0_1_n_n none (hidden (F := Ideal) (a0 m c) (a1 m c) (a2 m c) (a7 m c)) (a3 m c)) :=
  GcnStretch.conv3 (W7 m ρ c) (a7 m c) _ (src_at7 m ρ c) (dst_at7 m ρ c) (nrm_at7 m ρ c) (xw2_at7 m ρ c)

theorem row2_at8 : W8 m ρ c (Proc.devRef .tc main_v60) = shapeCast S1x64 (a4 m c) Cert.KernelIdeal.Gen.shapeCasts_S64_S1x64 :=
  (GcnStretch.row3 (W7 m ρ c)).trans (congrArg (fun b => shapeCast S1x64 b Cert.KernelIdeal.Gen.shapeCasts_S64_S1x64) (arg4_at7 m ρ c))

theorem hid_at9 : W9 m ρ c (Proc.devRef .tc main_v45) = (hidden (F := Ideal) (a0 m c) (a1 m c) (a2 m c) (a7 m c)) :=
  ((W9_of_ne m ρ c main_v45 (by decide)).trans ((GcnStretch.hostOps3_keeps (W7 m ρ c) main_v45 (by decide)).trans (hid_at7 m ρ c)))

/-- After the fourth launch: the first result, `mu`. -/
theorem mu_at9 : W9 m ρ c (Proc.devRef .tc main_v61) = head (F := Ideal) (hidden (F := Ideal) (a0 m c) (a1 m c) (a2 m c) (a7 m c)) (a3 m c) (a4 m c) (a7 m c) := by
  refine (W9_arr m ρ c 2).trans ((GcnBlocks.bias3 (V8 m ρ) c).trans ?_)
  rw [show V8 m ρ c main_v59 = _ from agg2_at8 m ρ c, show V8 m ρ c main_v60 = _ from row2_at8 m ρ c, GcnBlocks.row64]
  rfl

/-- After the fifth launch: `h · W_ls`. -/
theorem xw3_at10 : W10 m ρ c (Proc.devRef .tc main_v62) = (Host.dotGeneral (F := Ideal) (φ₁ := .f32) (φ₂ := .f32) Cert.ReferenceIdeal.dot_S50000x128_S128x64_S50000x64_1_0_0_1_n_n none (hidden (F := Ideal) (a0 m c) (a1 m c) (a2 m c) (a7 m c)) (a5 m c)) :=
  (W10_arr m ρ c 2).trans ((GcnBlocks.dense4 (V9 m ρ) c).trans (congrArg₂ (Host.dotGeneral (F := Ideal) (φ₁ := .f32) (φ₂ := .f32) Cert.ReferenceIdeal.dot_S50000x128_S128x64_S50000x64_1_0_0_1_n_n none) (hid_at9 m ρ c) (arg5_at9 m ρ c)))

theorem agg3_at11 : W11 m ρ c (Proc.devRef .tc main_v75) = agg64 (F := Ideal) (a7 m c) (Host.dotGeneral (F := Ideal) (φ₁ := .f32) (φ₂ := .f32) Cert.ReferenceIdeal.dot_S50000x128_S128x64_S50000x64_1_0_0_1_n_n none (hidden (F := Ideal) (a0 m c) (a1 m c) (a2 m c) (a7 m c)) (a5 m c)) :=
  GcnStretch.conv5 (W10 m ρ c) (a7 m c) _ (src_at10 m ρ c) (dst_at10 m ρ c) (nrm_at10 m ρ c) (xw3_at10 m ρ c)

theorem row3_at11 : W11 m ρ c (Proc.devRef .tc main_v76) = shapeCast S1x64 (a6 m c) Cert.KernelIdeal.Gen.shapeCasts_S64_S1x64 :=
  (GcnStretch.row5 (W10 m ρ c)).trans (congrArg (fun b => shapeCast S1x64 b Cert.KernelIdeal.Gen.shapeCasts_S64_S1x64) (arg6_at10 m ρ c))

/-- After the sixth launch: the second result, `logstd`. -/
theorem ls_at12 : W12 m ρ c (Proc.devRef .tc main_v77) = head (F := Ideal) (hidden (F := Ideal) (a0 m c) (a1 m c) (a2 m c) (a7 m c)) (a5 m c) (a6 m c) (a7 m c) := by
  refine (W12_arr m ρ c 2).trans ((GcnBlocks.bias5 (V11 m ρ) c).trans ?_)
  rw [show V11 m ρ c main_v75 = _ from agg3_at11 m ρ c, show V11 m ρ c main_v76 = _ from row3_at11 m ρ c, GcnBlocks.row64]
  rfl

/-- … and the first result is still there at the end. -/
theorem mu_at12 : W12 m ρ c (Proc.devRef .tc main_v61) = head (F := Ideal) (hidden (F := Ideal) (a0 m c) (a1 m c) (a2 m c) (a7 m c)) (a3 m c) (a4 m c) (a7 m c) :=
  ((W12_of_ne m ρ c main_v61 (by decide)).trans ((GcnStretch.hostOps5_keeps (W10 m ρ c) main_v61 (by decide)).trans ((W10_of_ne m ρ c main_v61 (by decide)).trans (mu_at9 m ρ c))))

end Cert.KernelIdeal.GcnChain

end
-- ==== Proof.RefOps.lean ====
/-
  The idealized reference program's operations.  Its @main is 186 host operations (three graph convolutions, each
  recomputing the edge sources and destinations, the degrees' inverse square roots and the edge weights).  The list is
  cut into eighteen consecutive stretches; for each, which buffers it writes: every other buffer keeps its contents.
-/
import proofs.«143387_j11854109737065_1_alg».proof.Proof.Gen.ReferenceIdeal
import Idealize.ShloMosaic.Lib.StableHlo.Run

set_option maxRecDepth 16384

noncomputable section

namespace Cert.ReferenceIdeal.GcnRef

open Cert.ReferenceIdeal Cert.ReferenceIdeal.Gen Idealize.ShloMosaic Idealize.ShloMosaic.TcCoe Idealize.SL.Sem Idealize.ShloMosaic.StableHlo

variable {F : FTy → Type} [FloatOps F]

/-- @main's 186 operations, in order (a called function's operations stand in its call's place, spelt `TRef.…`). -/
abbrev ops : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    nullary main_v2 (iotaInDim S50000 32 0),
    binary main_v1 main_v2 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg7 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_v6 (iotaInDim S50000 32 0),
    binary main_v5 main_v6 main_v7 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v8 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S1650000 ![] bcast_S_S1650000 : (⟨S_, .i32⟩ : BufTy).Contents (Elt F) → (⟨S1650000, .i32⟩ : BufTy).Contents (Elt F)),
    binary main_v3 main_v16 main_v17 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v18 (broadcastInDim S1650000 ![] bcast_S_S1650000 : (⟨S_, .i32⟩ : BufTy).Contents (Elt F) → (⟨S1650000, .i32⟩ : BufTy).Contents (Elt F)),
    binary main_v3 main_v18 main_v19 (addi : (⟨S1650000, .i32⟩ : BufTy).Contents (Elt F) → (⟨S1650000, .i32⟩ : BufTy).Contents (Elt F) → (⟨S1650000, .i32⟩ : BufTy).Contents (Elt F)),
    ternary main_v17 main_v19 main_v3 main_v20 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v20 main_v21 (broadcastInDim S1650000x1 ![0] bcast_S1650000_S1650000x1_0 : (⟨S1650000, .i32⟩ : BufTy).Contents (Elt F) → (⟨S1650000x1, .i32⟩ : BufTy).Contents (Elt F)),
    binary main_v15 main_v21 main_v22 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v23 (broadcastInDim S1650000 ![] bcast_S_S1650000 : (⟨S_, .i32⟩ : BufTy).Contents (Elt F) → (⟨S1650000, .i32⟩ : BufTy).Contents (Elt F)),
    binary main_v7 main_v23 main_v24 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v25 (broadcastInDim S1650000 ![] bcast_S_S1650000 : (⟨S_, .i32⟩ : BufTy).Contents (Elt F) → (⟨S1650000, .i32⟩ : BufTy).Contents (Elt F)),
    binary main_v7 main_v25 main_v26 (addi : (⟨S1650000, .i32⟩ : BufTy).Contents (Elt F) → (⟨S1650000, .i32⟩ : BufTy).Contents (Elt F) → (⟨S1650000, .i32⟩ : BufTy).Contents (Elt F)),
    ternary main_v24 main_v26 main_v7 main_v27 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v27 main_v28 (broadcastInDim S1650000x1 ![0] bcast_S1650000_S1650000x1_0 : (⟨S1650000, .i32⟩ : BufTy).Contents (Elt F) → (⟨S1650000x1, .i32⟩ : BufTy).Contents (Elt F)),
    binary main_v15 main_v28 main_v29 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v22 main_v29 main_v30 (mulf : (⟨S1650000, .f32⟩ : BufTy).Contents (Elt F) → (⟨S1650000, .f32⟩ : BufTy).Contents (Elt F) → (⟨S1650000, .f32⟩ : BufTy).Contents (Elt F)),
    binary main_arg0 main_arg1 main_v31 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v32 (broadcastInDim S1650000 ![] bcast_S_S1650000 : (⟨S_, .i32⟩ : BufTy).Contents (Elt F) → (⟨S1650000, .i32⟩ : BufTy).Contents (Elt F)),
    binary main_v3 main_v32 main_v33 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v34 (broadcastInDim S1650000 ![] bcast_S_S1650000 : (⟨S_, .i32⟩ : BufTy).Contents (Elt F) → (⟨S1650000, .i32⟩ : BufTy).Contents (Elt F)),
    binary main_v3 main_v34 main_v35 (addi : (⟨S1650000, .i32⟩ : BufTy).Contents (Elt F) → (⟨S1650000, .i32⟩ : BufTy).Contents (Elt F) → (⟨S1650000, .i32⟩ : BufTy).Contents (Elt F)),
    ternary main_v33 main_v35 main_v3 main_v36 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v36 main_v37 (broadcastInDim S1650000x1 ![0] bcast_S1650000_S1650000x1_0 : (⟨S1650000, .i32⟩ : BufTy).Contents (Elt F) → (⟨S1650000x1, .i32⟩ : BufTy).Contents (Elt F)),
    binary main_v31 main_v37 main_v38 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v30 main_v39 (broadcastInDim S1650000x1 ![0] bcast_S1650000_S1650000x1_0 : (⟨S1650000, .f32⟩ : BufTy).Contents (Elt F) → (⟨S1650000x1, .f32⟩ : BufTy).Contents (Elt F)),
    unary main_v39 main_v40 (broadcastInDim S1650000x128 ![0, 1] bcast_S1650000x1_S1650000x128_0_1 : (⟨S1650000x1, .f32⟩ : BufTy).Contents (Elt F) → (⟨S1650000x128, .f32⟩ : BufTy).Contents (Elt F)),
    binary main_v38 main_v40 main_v41 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v7 main_v43 (broadcastInDim S1650000x1 ![0] bcast_S1650000_S1650000x1_0 : (⟨S1650000, .i32⟩ : BufTy).Contents (Elt F) → (⟨S1650000x1, .i32⟩ : BufTy).Contents (Elt F)),
    ternary main_v42 main_v43 main_v41 main_v44 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v48) maximumf,
    unary main_arg7 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    nullary main_v51 (iotaInDim S50000 32 0),
    binary main_v50 main_v51 main_v52 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg7 main_v53 ((extractStridedSlice S1x1600000 ![1, 0] · slices_S2x1600000_S1x1600000_1_0) : (⟨S2x1600000, .i32⟩ : BufTy).Contents (Elt F) → (⟨S1x1600000, .i32⟩ : BufTy).Contents (Elt F)),
    reshape main_v53 main_v54 rfl shapeCasts_S1x1600000_S1600000,
    nullary main_v55 (iotaInDim S50000 32 0),
    binary main_v54 main_v55 main_v56 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_9 (constant S_ .f32 0x3F800000#32),
    unary main_cst_9 main_v57 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v58 (broadcastInDim S50000 ![] bcast_S_S50000 : (⟨S_, .f32⟩ : BufTy).Contents (Elt F) → (⟨S50000, .f32⟩ : BufTy).Contents (Elt F)),
    unary main_v56 main_v59 (broadcastInDim S1650000x1 ![0] bcast_S1650000_S1650000x1_0 : (⟨S1650000, .i32⟩ : BufTy).Contents (Elt F) → (⟨S1650000x1, .i32⟩ : BufTy).Contents (Elt F)),
    ternary main_v58 main_v59 main_v57 main_v60 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v61 (broadcastInDim S50000 ![] bcast_S_S50000 : (⟨S_, .f32⟩ : BufTy).Contents (Elt F) → (⟨S50000, .f32⟩ : BufTy).Contents (Elt F)),
    binary main_v60 main_v61 main_v62 (cmpf .ogt : (⟨S50000, .f32⟩ : BufTy).Contents (Elt F) → (⟨S50000, .f32⟩ : BufTy).Contents (Elt F) → (⟨S50000, .i1⟩ : BufTy).Contents (Elt F)),
    unary main_v60 main_v63 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v62) (TRef.of (T := ⟨S50000, .f32⟩) main_v63) (TRef.of (T := ⟨S50000, .f32⟩) main_call2_v1) (TRef.of (T := ⟨S50000, .f32⟩) main_v64) select,
    nullary main_c_13 (constantI S_ 32 0#32),
    unary main_c_13 main_v65 (broadcastInDim S1650000 ![] bcast_S_S1650000 : (⟨S_, .i32⟩ : BufTy).Contents (Elt F) → (⟨S1650000, .i32⟩ : BufTy).Contents (Elt F)),
    binary main_v52 main_v65 main_v66 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v67 (broadcastInDim S1650000 ![] bcast_S_S1650000 : (⟨S_, .i32⟩ : BufTy).Contents (Elt F) → (⟨S1650000, .i32⟩ : BufTy).Contents (Elt F)),
    binary main_v52 main_v67 main_v68 (addi : (⟨S1650000, .i32⟩ : BufTy).Contents (Elt F) → (⟨S1650000, .i32⟩ : BufTy).Contents (Elt F) → (⟨S1650000, .i32⟩ : BufTy).Contents (Elt F)),
    ternary main_v66 main_v68 main_v52 main_v69 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v69 main_v70 (broadcastInDim S1650000x1 ![0] bcast_S1650000_S1650000x1_0 : (⟨S1650000, .i32⟩ : BufTy).Contents (Elt F) → (⟨S1650000x1, .i32⟩ : BufTy).Contents (Elt F)),
    binary main_v64 main_v70 main_v71 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v72 (broadcastInDim S1650000 ![] bcast_S_S1650000 : (⟨S_, .i32⟩ : BufTy).Contents (Elt F) → (⟨S1650000, .i32⟩ : BufTy).Contents (Elt F)),
    binary main_v56 main_v72 main_v73 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v74 (broadcastInDim S1650000 ![] bcast_S_S1650000 : (⟨S_, .i32⟩ : BufTy).Contents (Elt F) → (⟨S1650000, .i32⟩ : BufTy).Contents (Elt F)),
    binary main_v56 main_v74 main_v75 (addi : (⟨S1650000, .i32⟩ : BufTy).Contents (Elt F) → (⟨S1650000, .i32⟩ : BufTy).Contents (Elt F) → (⟨S1650000, .i32⟩ : BufTy).Contents (Elt F)),
    ternary main_v73 main_v75 main_v56 main_v76 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v76 main_v77 (broadcastInDim S1650000x1 ![0] bcast_S1650000_S1650000x1_0 : (⟨S1650000, .i32⟩ : BufTy).Contents (Elt F) → (⟨S1650000x1, .i32⟩ : BufTy).Contents (Elt F)),
    binary main_v64 main_v77 main_v78 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v71 main_v78 main_v79 (mulf : (⟨S1650000, .f32⟩ : BufTy).Contents (Elt F) → (⟨S1650000, .f32⟩ : BufTy).Contents (Elt F) → (⟨S1650000, .f32⟩ : BufTy).Contents (Elt F)),
    binary main_v48 main_arg3 main_v80 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v81 (broadcastInDim S1650000 ![] bcast_S_S1650000 : (⟨S_, .i32⟩ : BufTy).Contents (Elt F) → (⟨S1650000, .i32⟩ : BufTy).Contents (Elt F)),
    binary main_v52 main_v81 main_v82 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v83 (broadcastInDim S1650000 ![] bcast_S_S1650000 : (⟨S_, .i32⟩ : BufTy).Contents (Elt F) → (⟨S1650000, .i32⟩ : BufTy).Contents (Elt F)),
    binary main_v52 main_v83 main_v84 (addi : (⟨S1650000, .i32⟩ : BufTy).Contents (Elt F) → (⟨S1650000, .i32⟩ : BufTy).Contents (Elt F) → (⟨S1650000, .i32⟩ : BufTy).Contents (Elt F)),
    ternary main_v82 main_v84 main_v52 main_v85 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v85 main_v86 (broadcastInDim S1650000x1 ![0] bcast_S1650000_S1650000x1_0 : (⟨S1650000, .i32⟩ : BufTy).Contents (Elt F) → (⟨S1650000x1, .i32⟩ : BufTy).Contents (Elt F)),
    binary main_v80 main_v86 main_v87 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v79 main_v88 (broadcastInDim S1650000x1 ![0] bcast_S1650000_S1650000x1_0 : (⟨S1650000, .f32⟩ : BufTy).Contents (Elt F) → (⟨S1650000x1, .f32⟩ : BufTy).Contents (Elt F)),
    unary main_v88 main_v89 (broadcastInDim S1650000x64 ![0, 1] bcast_S1650000x1_S1650000x64_0_1 : (⟨S1650000x1, .f32⟩ : BufTy).Contents (Elt F) → (⟨S1650000x64, .f32⟩ : BufTy).Contents (Elt F)),
    binary main_v87 main_v89 main_v90 (mulf : (⟨S1650000x64, .f32⟩ : BufTy).Contents (Elt F) → (⟨S1650000x64, .f32⟩ : BufTy).Contents (Elt F) → (⟨S1650000x64, .f32⟩ : BufTy).Contents (Elt F)),
    nullary main_cst_19 (constant S_ .f32 0x00000000#32),
    unary main_cst_19 main_v91 (broadcastInDim S50000x64 ![] bcast_S_S50000x64 : (⟨S_, .f32⟩ : BufTy).Contents (Elt F) → (⟨S50000x64, .f32⟩ : BufTy).Contents (Elt F)),
    unary main_v56 main_v92 (broadcastInDim S1650000x1 ![0] bcast_S1650000_S1650000x1_0 : (⟨S1650000, .i32⟩ : BufTy).Contents (Elt F) → (⟨S1650000x1, .i32⟩ : BufTy).Contents (Elt F)),
    ternary main_v91 main_v92 main_v90 main_v93 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg4 main_v94 (broadcastInDim S1x64 ![1] bcast_S64_S1x64_1 : (⟨S64, .f32⟩ : BufTy).Contents (Elt F) → (⟨S1x64, .f32⟩ : BufTy).Contents (Elt F)),
    unary main_v94 main_v95 (broadcastInDim S50000x64 ![0, 1] bcast_S1x64_S50000x64_0_1 : (⟨S1x64, .f32⟩ : BufTy).Contents (Elt F) → (⟨S50000x64, .f32⟩ : BufTy).Contents (Elt F)),
    binary main_v93 main_v95 main_v96 (addf : (⟨S50000x64, .f32⟩ : BufTy).Contents (Elt F) → (⟨S50000x64, .f32⟩ : BufTy).Contents (Elt F) → (⟨S50000x64, .f32⟩ : BufTy).Contents (Elt F)),
    unary main_arg7 main_v97 ((extractStridedSlice S1x1600000 ![0, 0] · slices_S2x1600000_S1x1600000_0_0) : (⟨S2x1600000, .i32⟩ : BufTy).Contents (Elt F) → (⟨S1x1600000, .i32⟩ : BufTy).Contents (Elt F)),
    reshape main_v97 main_v98 rfl shapeCasts_S1x1600000_S1600000,
    nullary main_v99 (iotaInDim S50000 32 0),
    binary main_v98 main_v99 main_v100 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg7 main_v101 ((extractStridedSlice S1x1600000 ![1, 0] · slices_S2x1600000_S1x1600000_1_0) : (⟨S2x1600000, .i32⟩ : BufTy).Contents (Elt F) → (⟨S1x1600000, .i32⟩ : BufTy).Contents (Elt F)),
    reshape main_v101 main_v102 rfl shapeCasts_S1x1600000_S1600000,
    nullary main_v103 (iotaInDim S50000 32 0),
    binary main_v102 main_v103 main_v104 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_20 (constant S_ .f32 0x3F800000#32),
    unary main_cst_20 main_v105 (broadcastInDim S1650000 ![] bcast_S_S1650000 : (⟨S_, .f32⟩ : BufTy).Contents (Elt F) → (⟨S1650000, .f32⟩ : BufTy).Contents (Elt F)),
    nullary main_cst_21 (constant S_ .f32 0x00000000#32),
    unary main_cst_21 main_v106 (broadcastInDim S50000 ![] bcast_S_S50000 : (⟨S_, .f32⟩ : BufTy).Contents (Elt F) → (⟨S50000, .f32⟩ : BufTy).Contents (Elt F)),
    unary main_v104 main_v107 (broadcastInDim S1650000x1 ![0] bcast_S1650000_S1650000x1_0 : (⟨S1650000, .i32⟩ : BufTy).Contents (Elt F) → (⟨S1650000x1, .i32⟩ : BufTy).Contents (Elt F)),
    ternary main_v106 main_v107 main_v105 main_v108 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_22 (constant S_ .f32 0x00000000#32),
    unary main_cst_22 main_v109 (broadcastInDim S50000 ![] bcast_S_S50000 : (⟨S_, .f32⟩ : BufTy).Contents (Elt F) → (⟨S50000, .f32⟩ : BufTy).Contents (Elt F)),
    binary main_v108 main_v109 main_v110 (cmpf .ogt : (⟨S50000, .f32⟩ : BufTy).Contents (Elt F) → (⟨S50000, .f32⟩ : BufTy).Contents (Elt F) → (⟨S50000, .i1⟩ : BufTy).Contents (Elt F)),
    unary main_v108 main_v111 (Host.rsqrt : (⟨S50000, .f32⟩ : BufTy).Contents (Elt F) → (⟨S50000, .f32⟩ : BufTy).Contents (Elt F)),
    nullary main_cst_23 (constant S_ .f32 0x00000000#32),
    TRef.unary (TRef.of (T := ⟨S_, .f32⟩) main_cst_23) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v110) (TRef.of (T := ⟨S50000, .f32⟩) main_v111) (TRef.of (T := ⟨S50000, .f32⟩) main_call3_v1) (TRef.of (T := ⟨S50000, .f32⟩) main_v112) select,
    nullary main_c_24 (constantI S_ 32 0#32),
    unary main_c_24 main_v113 (broadcastInDim S1650000 ![] bcast_S_S1650000 : (⟨S_, .i32⟩ : BufTy).Contents (Elt F) → (⟨S1650000, .i32⟩ : BufTy).Contents (Elt F)),
    binary main_v100 main_v113 main_v114 (cmpi .slt : (⟨S1650000, .i32⟩ : BufTy).Contents (Elt F) → (⟨S1650000, .i32⟩ : BufTy).Contents (Elt F) → (⟨S1650000, .i1⟩ : BufTy).Contents (Elt F)),
    nullary main_c_25 (constantI S_ 32 50000#32),
    unary main_c_25 main_v115 (broadcastInDim S1650000 ![] bcast_S_S1650000 : (⟨S_, .i32⟩ : BufTy).Contents (Elt F) → (⟨S1650000, .i32⟩ : BufTy).Contents (Elt F)),
    binary main_v100 main_v115 main_v116 (addi : (⟨S1650000, .i32⟩ : BufTy).Contents (Elt F) → (⟨S1650000, .i32⟩ : BufTy).Contents (Elt F) → (⟨S1650000, .i32⟩ : BufTy).Contents (Elt F)),
    ternary main_v114 main_v116 main_v100 main_v117 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v117 main_v118 (broadcastInDim S1650000x1 ![0] bcast_S1650000_S1650000x1_0 : (⟨S1650000, .i32⟩ : BufTy).Contents (Elt F) → (⟨S1650000x1, .i32⟩ : BufTy).Contents (Elt F)),
    binary main_v112 main_v118 main_v119 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_26 (constantI S_ 32 0#32),
    unary main_c_26 main_v120 (broadcastInDim S1650000 ![] bcast_S_S1650000 : (⟨S_, .i32⟩ : BufTy).Contents (Elt F) → (⟨S1650000, .i32⟩ : BufTy).Contents (Elt F)),
    binary main_v104 main_v120 main_v121 (cmpi .slt : (⟨S1650000, .i32⟩ : BufTy).Contents (Elt F) → (⟨S1650000, .i32⟩ : BufTy).Contents (Elt F) → (⟨S1650000, .i1⟩ : BufTy).Contents (Elt F)),
    nullary main_c_27 (constantI S_ 32 50000#32),
    unary main_c_27 main_v122 (broadcastInDim S1650000 ![] bcast_S_S1650000 : (⟨S_, .i32⟩ : BufTy).Contents (Elt F) → (⟨S1650000, .i32⟩ : BufTy).Contents (Elt F)),
    binary main_v104 main_v122 main_v123 (addi : (⟨S1650000, .i32⟩ : BufTy).Contents (Elt F) → (⟨S1650000, .i32⟩ : BufTy).Contents (Elt F) → (⟨S1650000, .i32⟩ : BufTy).Contents (Elt F)),
    ternary main_v121 main_v123 main_v104 main_v124 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v124 main_v125 (broadcastInDim S1650000x1 ![0] bcast_S1650000_S1650000x1_0 : (⟨S1650000, .i32⟩ : BufTy).Contents (Elt F) → (⟨S1650000x1, .i32⟩ : BufTy).Contents (Elt F)),
    binary main_v112 main_v125 main_v126 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v119 main_v126 main_v127 (mulf : (⟨S1650000, .f32⟩ : BufTy).Contents (Elt F) → (⟨S1650000, .f32⟩ : BufTy).Contents (Elt F) → (⟨S1650000, .f32⟩ : BufTy).Contents (Elt F)),
    binary main_v48 main_arg5 main_v128 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_28 (constantI S_ 32 0#32),
    unary main_c_28 main_v129 (broadcastInDim S1650000 ![] bcast_S_S1650000 : (⟨S_, .i32⟩ : BufTy).Contents (Elt F) → (⟨S1650000, .i32⟩ : BufTy).Contents (Elt F)),
    binary main_v100 main_v129 main_v130 (cmpi .slt : (⟨S1650000, .i32⟩ : BufTy).Contents (Elt F) → (⟨S1650000, .i32⟩ : BufTy).Contents (Elt F) → (⟨S1650000, .i1⟩ : BufTy).Contents (Elt F)),
    nullary main_c_29 (constantI S_ 32 50000#32),
    unary main_c_29 main_v131 (broadcastInDim S1650000 ![] bcast_S_S1650000 : (⟨S_, .i32⟩ : BufTy).Contents (Elt F) → (⟨S1650000, .i32⟩ : BufTy).Contents (Elt F)),
    binary main_v100 main_v131 main_v132 (addi : (⟨S1650000, .i32⟩ : BufTy).Contents (Elt F) → (⟨S1650000, .i32⟩ : BufTy).Contents (Elt F) → (⟨S1650000, .i32⟩ : BufTy).Contents (Elt F)),
    ternary main_v130 main_v132 main_v100 main_v133 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v133 main_v134 (broadcastInDim S1650000x1 ![0] bcast_S1650000_S1650000x1_0 : (⟨S1650000, .i32⟩ : BufTy).Contents (Elt F) → (⟨S1650000x1, .i32⟩ : BufTy).Contents (Elt F)),
    binary main_v128 main_v134 main_v135 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v127 main_v136 (broadcastInDim S1650000x1 ![0] bcast_S1650000_S1650000x1_0 : (⟨S1650000, .f32⟩ : BufTy).Contents (Elt F) → (⟨S1650000x1, .f32⟩ : BufTy).Contents (Elt F)),
    unary main_v136 main_v137 (broadcastInDim S1650000x64 ![0, 1] bcast_S1650000x1_S1650000x64_0_1 : (⟨S1650000x1, .f32⟩ : BufTy).Contents (Elt F) → (⟨S1650000x64, .f32⟩ : BufTy).Contents (Elt F)),
    binary main_v135 main_v137 main_v138 (mulf : (⟨S1650000x64, .f32⟩ : BufTy).Contents (Elt F) → (⟨S1650000x64, .f32⟩ : BufTy).Contents (Elt F) → (⟨S1650000x64, .f32⟩ : BufTy).Contents (Elt F)),
    nullary main_cst_30 (constant S_ .f32 0x00000000#32),
    unary main_cst_30 main_v139 (broadcastInDim S50000x64 ![] bcast_S_S50000x64 : (⟨S_, .f32⟩ : BufTy).Contents (Elt F) → (⟨S50000x64, .f32⟩ : BufTy).Contents (Elt F)),
    unary main_v104 main_v140 (broadcastInDim S1650000x1 ![0] bcast_S1650000_S1650000x1_0 : (⟨S1650000, .i32⟩ : BufTy).Contents (Elt F) → (⟨S1650000x1, .i32⟩ : BufTy).Contents (Elt F)),
    ternary main_v139 main_v140 main_v138 main_v141 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg6 main_v142 (broadcastInDim S1x64 ![1] bcast_S64_S1x64_1 : (⟨S64, .f32⟩ : BufTy).Contents (Elt F) → (⟨S1x64, .f32⟩ : BufTy).Contents (Elt F)),
    unary main_v142 main_v143 (broadcastInDim S50000x64 ![0, 1] bcast_S1x64_S50000x64_0_1 : (⟨S1x64, .f32⟩ : BufTy).Contents (Elt F) → (⟨S50000x64, .f32⟩ : BufTy).Contents (Elt F)),
    binary main_v141 main_v143 main_v144 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-! ## The eighteen stretches -/

/-- Operations 1 … 8 of @main. -/
abbrev seg1 : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    nullary main_v2 (iotaInDim S50000 32 0),
    binary main_v1 main_v2 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg7 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_v6 (iotaInDim S50000 32 0),
    binary main_v5 main_v6 main_v7 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]
/-- The references they write. -/
abbrev seg1_W : List (Ref sig .tc) := [main_v0, main_v1, main_v2, main_v3, main_v4, main_v5, main_v6, main_v7]
theorem seg1_writes : (seg1 : List (HloOp τ sig (Elt F))).Forall fun op => op.writes ⊆ (seg1_W.map (Proc.devRef (τ := τ) .tc)).toFinset := by
  simp only [seg1, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg1_keeps (X : Valuation τ sig (Elt F)) (r : Ref sig .tc) (h : r ∉ seg1_W) : after seg1 X (Proc.devRef .tc r) = X (Proc.devRef .tc r) :=
  after_of_writes_sub seg1 X seg1_writes h

/-- Operations 9 … 19 of @main. -/
abbrev seg2 : List (HloOp τ sig (Elt F)) :=
  [ nullary main_cst (constant S_ .f32 0x3F800000#32),
    unary main_cst main_v8 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S1650000x1 ![0] bcast_S1650000_S1650000x1_0 : (⟨S1650000, .i32⟩ : BufTy).Contents (Elt F) → (⟨S1650000x1, .i32⟩ : BufTy).Contents (Elt F)),
    ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32) ]
/-- The references they write. -/
abbrev seg2_W : List (Ref sig .tc) := [main_cst, main_v8, main_cst_0, main_v9, main_v10, main_v11, main_cst_1, main_v12, main_v13, main_v14, main_cst_2]
theorem seg2_writes : (seg2 : List (HloOp τ sig (Elt F))).Forall fun op => op.writes ⊆ (seg2_W.map (Proc.devRef (τ := τ) .tc)).toFinset := by
  simp only [seg2, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg2_keeps (X : Valuation τ sig (Elt F)) (r : Ref sig .tc) (h : r ∉ seg2_W) : after seg2 X (Proc.devRef .tc r) = X (Proc.devRef .tc r) :=
  after_of_writes_sub seg2 X seg2_writes h

/-- Operations 20 … 22 of @main. -/
abbrev seg3 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]
/-- The references they write. -/
abbrev seg3_W : List (Ref sig .tc) := [main_call0_v0, main_call0_v1, main_v15]
theorem seg3_writes : (seg3 : List (HloOp τ sig (Elt F))).Forall fun op => op.writes ⊆ (seg3_W.map (Proc.devRef (τ := τ) .tc)).toFinset := by
  simp only [seg3, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg3_keeps (X : Valuation τ sig (Elt F)) (r : Ref sig .tc) (h : r ∉ seg3_W) : after seg3 X (Proc.devRef .tc r) = X (Proc.devRef .tc r) :=
  after_of_writes_sub seg3 X seg3_writes h

/-- Operations 23 … 41 of @main. -/
abbrev seg4 : List (HloOp τ sig (Elt F)) :=
  [ nullary main_c (constantI S_ 32 0#32),
    unary main_c main_v16 (broadcastInDim S1650000 ![] bcast_S_S1650000 : (⟨S_, .i32⟩ : BufTy).Contents (Elt F) → (⟨S1650000, .i32⟩ : BufTy).Contents (Elt F)),
    binary main_v3 main_v16 main_v17 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v18 (broadcastInDim S1650000 ![] bcast_S_S1650000 : (⟨S_, .i32⟩ : BufTy).Contents (Elt F) → (⟨S1650000, .i32⟩ : BufTy).Contents (Elt F)),
    binary main_v3 main_v18 main_v19 (addi : (⟨S1650000, .i32⟩ : BufTy).Contents (Elt F) → (⟨S1650000, .i32⟩ : BufTy).Contents (Elt F) → (⟨S1650000, .i32⟩ : BufTy).Contents (Elt F)),
    ternary main_v17 main_v19 main_v3 main_v20 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v20 main_v21 (broadcastInDim S1650000x1 ![0] bcast_S1650000_S1650000x1_0 : (⟨S1650000, .i32⟩ : BufTy).Contents (Elt F) → (⟨S1650000x1, .i32⟩ : BufTy).Contents (Elt F)),
    binary main_v15 main_v21 main_v22 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v23 (broadcastInDim S1650000 ![] bcast_S_S1650000 : (⟨S_, .i32⟩ : BufTy).Contents (Elt F) → (⟨S1650000, .i32⟩ : BufTy).Contents (Elt F)),
    binary main_v7 main_v23 main_v24 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v25 (broadcastInDim S1650000 ![] bcast_S_S1650000 : (⟨S_, .i32⟩ : BufTy).Contents (Elt F) → (⟨S1650000, .i32⟩ : BufTy).Contents (Elt F)),
    binary main_v7 main_v25 main_v26 (addi : (⟨S1650000, .i32⟩ : BufTy).Contents (Elt F) → (⟨S1650000, .i32⟩ : BufTy).Contents (Elt F) → (⟨S1650000, .i32⟩ : BufTy).Contents (Elt F)),
    ternary main_v24 main_v26 main_v7 main_v27 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v27 main_v28 (broadcastInDim S1650000x1 ![0] bcast_S1650000_S1650000x1_0 : (⟨S1650000, .i32⟩ : BufTy).Contents (Elt F) → (⟨S1650000x1, .i32⟩ : BufTy).Contents (Elt F)),
    binary main_v15 main_v28 main_v29 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v22 main_v29 main_v30 (mulf : (⟨S1650000, .f32⟩ : BufTy).Contents (Elt F) → (⟨S1650000, .f32⟩ : BufTy).Contents (Elt F) → (⟨S1650000, .f32⟩ : BufTy).Contents (Elt F)) ]
/-- The references they write. -/
abbrev seg4_W : List (Ref sig .tc) := [main_c, main_v16, main_v17, main_c_3, main_v18, main_v19, main_v20, main_v21, main_v22, main_c_4, main_v23, main_v24, main_c_5, main_v25, main_v26, main_v27, main_v28, main_v29, main_v30]
theorem seg4_writes : (seg4 : List (HloOp τ sig (Elt F))).Forall fun op => op.writes ⊆ (seg4_W.map (Proc.devRef (τ := τ) .tc)).toFinset := by
  simp only [seg4, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg4_keeps (X : Valuation τ sig (Elt F)) (r : Ref sig .tc) (h : r ∉ seg4_W) : after seg4 X (Proc.devRef .tc r) = X (Proc.devRef .tc r) :=
  after_of_writes_sub seg4 X seg4_writes h

/-- Operations 42 … 58 of @main. -/
abbrev seg5 : List (HloOp τ sig (Elt F)) :=
  [ binary main_arg0 main_arg1 main_v31 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v32 (broadcastInDim S1650000 ![] bcast_S_S1650000 : (⟨S_, .i32⟩ : BufTy).Contents (Elt F) → (⟨S1650000, .i32⟩ : BufTy).Contents (Elt F)),
    binary main_v3 main_v32 main_v33 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v34 (broadcastInDim S1650000 ![] bcast_S_S1650000 : (⟨S_, .i32⟩ : BufTy).Contents (Elt F) → (⟨S1650000, .i32⟩ : BufTy).Contents (Elt F)),
    binary main_v3 main_v34 main_v35 (addi : (⟨S1650000, .i32⟩ : BufTy).Contents (Elt F) → (⟨S1650000, .i32⟩ : BufTy).Contents (Elt F) → (⟨S1650000, .i32⟩ : BufTy).Contents (Elt F)),
    ternary main_v33 main_v35 main_v3 main_v36 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v36 main_v37 (broadcastInDim S1650000x1 ![0] bcast_S1650000_S1650000x1_0 : (⟨S1650000, .i32⟩ : BufTy).Contents (Elt F) → (⟨S1650000x1, .i32⟩ : BufTy).Contents (Elt F)),
    binary main_v31 main_v37 main_v38 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v30 main_v39 (broadcastInDim S1650000x1 ![0] bcast_S1650000_S1650000x1_0 : (⟨S1650000, .f32⟩ : BufTy).Contents (Elt F) → (⟨S1650000x1, .f32⟩ : BufTy).Contents (Elt F)),
    unary main_v39 main_v40 (broadcastInDim S1650000x128 ![0, 1] bcast_S1650000x1_S1650000x128_0_1 : (⟨S1650000x1, .f32⟩ : BufTy).Contents (Elt F) → (⟨S1650000x128, .f32⟩ : BufTy).Contents (Elt F)),
    binary main_v38 main_v40 main_v41 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v7 main_v43 (broadcastInDim S1650000x1 ![0] bcast_S1650000_S1650000x1_0 : (⟨S1650000, .i32⟩ : BufTy).Contents (Elt F) → (⟨S1650000x1, .i32⟩ : BufTy).Contents (Elt F)),
    ternary main_v42 main_v43 main_v41 main_v44 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]
/-- The references they write. -/
abbrev seg5_W : List (Ref sig .tc) := [main_v31, main_c_6, main_v32, main_v33, main_c_7, main_v34, main_v35, main_v36, main_v37, main_v38, main_v39, main_v40, main_v41, main_cst_8, main_v42, main_v43, main_v44]
theorem seg5_writes : (seg5 : List (HloOp τ sig (Elt F))).Forall fun op => op.writes ⊆ (seg5_W.map (Proc.devRef (τ := τ) .tc)).toFinset := by
  simp only [seg5, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg5_keeps (X : Valuation τ sig (Elt F)) (r : Ref sig .tc) (h : r ∉ seg5_W) : after seg5 X (Proc.devRef .tc r) = X (Proc.devRef .tc r) :=
  after_of_writes_sub seg5 X seg5_writes h

/-- Operations 59 … 64 of @main. -/
abbrev seg6 : List (HloOp τ sig (Elt F)) :=
  [ unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v48) maximumf ]
/-- The references they write. -/
abbrev seg6_W : List (Ref sig .tc) := [main_v45, main_v46, main_v47, main_call1_cst, main_call1_v0, main_v48]
theorem seg6_writes : (seg6 : List (HloOp τ sig (Elt F))).Forall fun op => op.writes ⊆ (seg6_W.map (Proc.devRef (τ := τ) .tc)).toFinset := by
  simp only [seg6, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg6_keeps (X : Valuation τ sig (Elt F)) (r : Ref sig .tc) (h : r ∉ seg6_W) : after seg6 X (Proc.devRef .tc r) = X (Proc.devRef .tc r) :=
  after_of_writes_sub seg6 X seg6_writes h

/-- Operations 65 … 72 of @main. -/
abbrev seg7 : List (HloOp τ sig (Elt F)) :=
  [ unary main_arg7 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    nullary main_v51 (iotaInDim S50000 32 0),
    binary main_v50 main_v51 main_v52 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg7 main_v53 ((extractStridedSlice S1x1600000 ![1, 0] · slices_S2x1600000_S1x1600000_1_0) : (⟨S2x1600000, .i32⟩ : BufTy).Contents (Elt F) → (⟨S1x1600000, .i32⟩ : BufTy).Contents (Elt F)),
    reshape main_v53 main_v54 rfl shapeCasts_S1x1600000_S1600000,
    nullary main_v55 (iotaInDim S50000 32 0),
    binary main_v54 main_v55 main_v56 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]
/-- The references they write. -/
abbrev seg7_W : List (Ref sig .tc) := [main_v49, main_v50, main_v51, main_v52, main_v53, main_v54, main_v55, main_v56]
theorem seg7_writes : (seg7 : List (HloOp τ sig (Elt F))).Forall fun op => op.writes ⊆ (seg7_W.map (Proc.devRef (τ := τ) .tc)).toFinset := by
  simp only [seg7, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg7_keeps (X : Valuation τ sig (Elt F)) (r : Ref sig .tc) (h : r ∉ seg7_W) : after seg7 X (Proc.devRef .tc r) = X (Proc.devRef .tc r) :=
  after_of_writes_sub seg7 X seg7_writes h

/-- Operations 73 … 83 of @main. -/
abbrev seg8 : List (HloOp τ sig (Elt F)) :=
  [ nullary main_cst_9 (constant S_ .f32 0x3F800000#32),
    unary main_cst_9 main_v57 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v58 (broadcastInDim S50000 ![] bcast_S_S50000 : (⟨S_, .f32⟩ : BufTy).Contents (Elt F) → (⟨S50000, .f32⟩ : BufTy).Contents (Elt F)),
    unary main_v56 main_v59 (broadcastInDim S1650000x1 ![0] bcast_S1650000_S1650000x1_0 : (⟨S1650000, .i32⟩ : BufTy).Contents (Elt F) → (⟨S1650000x1, .i32⟩ : BufTy).Contents (Elt F)),
    ternary main_v58 main_v59 main_v57 main_v60 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_11 (constant S_ .f32 0x00000000#32),
    unary main_cst_11 main_v61 (broadcastInDim S50000 ![] bcast_S_S50000 : (⟨S_, .f32⟩ : BufTy).Contents (Elt F) → (⟨S50000, .f32⟩ : BufTy).Contents (Elt F)),
    binary main_v60 main_v61 main_v62 (cmpf .ogt : (⟨S50000, .f32⟩ : BufTy).Contents (Elt F) → (⟨S50000, .f32⟩ : BufTy).Contents (Elt F) → (⟨S50000, .i1⟩ : BufTy).Contents (Elt F)),
    unary main_v60 main_v63 (Host.rsqrt : (⟨S50000, .f32⟩ : BufTy).Contents (Elt F) → (⟨S50000, .f32⟩ : BufTy).Contents (Elt F)),
    nullary main_cst_12 (constant S_ .f32 0x00000000#32) ]
/-- The references they write. -/
abbrev seg8_W : List (Ref sig .tc) := [main_cst_9, main_v57, main_cst_10, main_v58, main_v59, main_v60, main_cst_11, main_v61, main_v62, main_v63, main_cst_12]
theorem seg8_writes : (seg8 : List (HloOp τ sig (Elt F))).Forall fun op => op.writes ⊆ (seg8_W.map (Proc.devRef (τ := τ) .tc)).toFinset := by
  simp only [seg8, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg8_keeps (X : Valuation τ sig (Elt F)) (r : Ref sig .tc) (h : r ∉ seg8_W) : after seg8 X (Proc.devRef .tc r) = X (Proc.devRef .tc r) :=
  after_of_writes_sub seg8 X seg8_writes h

/-- Operations 84 … 86 of @main. -/
abbrev seg9 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v62) (TRef.of (T := ⟨S50000, .f32⟩) main_v63) (TRef.of (T := ⟨S50000, .f32⟩) main_call2_v1) (TRef.of (T := ⟨S50000, .f32⟩) main_v64) select ]
/-- The references they write. -/
abbrev seg9_W : List (Ref sig .tc) := [main_call2_v0, main_call2_v1, main_v64]
theorem seg9_writes : (seg9 : List (HloOp τ sig (Elt F))).Forall fun op => op.writes ⊆ (seg9_W.map (Proc.devRef (τ := τ) .tc)).toFinset := by
  simp only [seg9, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg9_keeps (X : Valuation τ sig (Elt F)) (r : Ref sig .tc) (h : r ∉ seg9_W) : after seg9 X (Proc.devRef .tc r) = X (Proc.devRef .tc r) :=
  after_of_writes_sub seg9 X seg9_writes h

/-- Operations 87 … 105 of @main. -/
abbrev seg10 : List (HloOp τ sig (Elt F)) :=
  [ nullary main_c_13 (constantI S_ 32 0#32),
    unary main_c_13 main_v65 (broadcastInDim S1650000 ![] bcast_S_S1650000 : (⟨S_, .i32⟩ : BufTy).Contents (Elt F) → (⟨S1650000, .i32⟩ : BufTy).Contents (Elt F)),
    binary main_v52 main_v65 main_v66 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v67 (broadcastInDim S1650000 ![] bcast_S_S1650000 : (⟨S_, .i32⟩ : BufTy).Contents (Elt F) → (⟨S1650000, .i32⟩ : BufTy).Contents (Elt F)),
    binary main_v52 main_v67 main_v68 (addi : (⟨S1650000, .i32⟩ : BufTy).Contents (Elt F) → (⟨S1650000, .i32⟩ : BufTy).Contents (Elt F) → (⟨S1650000, .i32⟩ : BufTy).Contents (Elt F)),
    ternary main_v66 main_v68 main_v52 main_v69 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v69 main_v70 (broadcastInDim S1650000x1 ![0] bcast_S1650000_S1650000x1_0 : (⟨S1650000, .i32⟩ : BufTy).Contents (Elt F) → (⟨S1650000x1, .i32⟩ : BufTy).Contents (Elt F)),
    binary main_v64 main_v70 main_v71 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v72 (broadcastInDim S1650000 ![] bcast_S_S1650000 : (⟨S_, .i32⟩ : BufTy).Contents (Elt F) → (⟨S1650000, .i32⟩ : BufTy).Contents (Elt F)),
    binary main_v56 main_v72 main_v73 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v74 (broadcastInDim S1650000 ![] bcast_S_S1650000 : (⟨S_, .i32⟩ : BufTy).Contents (Elt F) → (⟨S1650000, .i32⟩ : BufTy).Contents (Elt F)),
    binary main_v56 main_v74 main_v75 (addi : (⟨S1650000, .i32⟩ : BufTy).Contents (Elt F) → (⟨S1650000, .i32⟩ : BufTy).Contents (Elt F) → (⟨S1650000, .i32⟩ : BufTy).Contents (Elt F)),
    ternary main_v73 main_v75 main_v56 main_v76 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v76 main_v77 (broadcastInDim S1650000x1 ![0] bcast_S1650000_S1650000x1_0 : (⟨S1650000, .i32⟩ : BufTy).Contents (Elt F) → (⟨S1650000x1, .i32⟩ : BufTy).Contents (Elt F)),
    binary main_v64 main_v77 main_v78 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v71 main_v78 main_v79 (mulf : (⟨S1650000, .f32⟩ : BufTy).Contents (Elt F) → (⟨S1650000, .f32⟩ : BufTy).Contents (Elt F) → (⟨S1650000, .f32⟩ : BufTy).Contents (Elt F)) ]
/-- The references they write. -/
abbrev seg10_W : List (Ref sig .tc) := [main_c_13, main_v65, main_v66, main_c_14, main_v67, main_v68, main_v69, main_v70, main_v71, main_c_15, main_v72, main_v73, main_c_16, main_v74, main_v75, main_v76, main_v77, main_v78, main_v79]
theorem seg10_writes : (seg10 : List (HloOp τ sig (Elt F))).Forall fun op => op.writes ⊆ (seg10_W.map (Proc.devRef (τ := τ) .tc)).toFinset := by
  simp only [seg10, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg10_keeps (X : Valuation τ sig (Elt F)) (r : Ref sig .tc) (h : r ∉ seg10_W) : after seg10 X (Proc.devRef .tc r) = X (Proc.devRef .tc r) :=
  after_of_writes_sub seg10 X seg10_writes h

/-- Operations 106 … 122 of @main. -/
abbrev seg11 : List (HloOp τ sig (Elt F)) :=
  [ binary main_v48 main_arg3 main_v80 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v81 (broadcastInDim S1650000 ![] bcast_S_S1650000 : (⟨S_, .i32⟩ : BufTy).Contents (Elt F) → (⟨S1650000, .i32⟩ : BufTy).Contents (Elt F)),
    binary main_v52 main_v81 main_v82 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v83 (broadcastInDim S1650000 ![] bcast_S_S1650000 : (⟨S_, .i32⟩ : BufTy).Contents (Elt F) → (⟨S1650000, .i32⟩ : BufTy).Contents (Elt F)),
    binary main_v52 main_v83 main_v84 (addi : (⟨S1650000, .i32⟩ : BufTy).Contents (Elt F) → (⟨S1650000, .i32⟩ : BufTy).Contents (Elt F) → (⟨S1650000, .i32⟩ : BufTy).Contents (Elt F)),
    ternary main_v82 main_v84 main_v52 main_v85 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v85 main_v86 (broadcastInDim S1650000x1 ![0] bcast_S1650000_S1650000x1_0 : (⟨S1650000, .i32⟩ : BufTy).Contents (Elt F) → (⟨S1650000x1, .i32⟩ : BufTy).Contents (Elt F)),
    binary main_v80 main_v86 main_v87 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v79 main_v88 (broadcastInDim S1650000x1 ![0] bcast_S1650000_S1650000x1_0 : (⟨S1650000, .f32⟩ : BufTy).Contents (Elt F) → (⟨S1650000x1, .f32⟩ : BufTy).Contents (Elt F)),
    unary main_v88 main_v89 (broadcastInDim S1650000x64 ![0, 1] bcast_S1650000x1_S1650000x64_0_1 : (⟨S1650000x1, .f32⟩ : BufTy).Contents (Elt F) → (⟨S1650000x64, .f32⟩ : BufTy).Contents (Elt F)),
    binary main_v87 main_v89 main_v90 (mulf : (⟨S1650000x64, .f32⟩ : BufTy).Contents (Elt F) → (⟨S1650000x64, .f32⟩ : BufTy).Contents (Elt F) → (⟨S1650000x64, .f32⟩ : BufTy).Contents (Elt F)),
    nullary main_cst_19 (constant S_ .f32 0x00000000#32),
    unary main_cst_19 main_v91 (broadcastInDim S50000x64 ![] bcast_S_S50000x64 : (⟨S_, .f32⟩ : BufTy).Contents (Elt F) → (⟨S50000x64, .f32⟩ : BufTy).Contents (Elt F)),
    unary main_v56 main_v92 (broadcastInDim S1650000x1 ![0] bcast_S1650000_S1650000x1_0 : (⟨S1650000, .i32⟩ : BufTy).Contents (Elt F) → (⟨S1650000x1, .i32⟩ : BufTy).Contents (Elt F)),
    ternary main_v91 main_v92 main_v90 main_v93 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]
/-- The references they write. -/
abbrev seg11_W : List (Ref sig .tc) := [main_v80, main_c_17, main_v81, main_v82, main_c_18, main_v83, main_v84, main_v85, main_v86, main_v87, main_v88, main_v89, main_v90, main_cst_19, main_v91, main_v92, main_v93]
theorem seg11_writes : (seg11 : List (HloOp τ sig (Elt F))).Forall fun op => op.writes ⊆ (seg11_W.map (Proc.devRef (τ := τ) .tc)).toFinset := by
  simp only [seg11, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg11_keeps (X : Valuation τ sig (Elt F)) (r : Ref sig .tc) (h : r ∉ seg11_W) : after seg11 X (Proc.devRef .tc r) = X (Proc.devRef .tc r) :=
  after_of_writes_sub seg11 X seg11_writes h

/-- Operations 123 … 125 of @main. -/
abbrev seg12 : List (HloOp τ sig (Elt F)) :=
  [ unary main_arg4 main_v94 (broadcastInDim S1x64 ![1] bcast_S64_S1x64_1 : (⟨S64, .f32⟩ : BufTy).Contents (Elt F) → (⟨S1x64, .f32⟩ : BufTy).Contents (Elt F)),
    unary main_v94 main_v95 (broadcastInDim S50000x64 ![0, 1] bcast_S1x64_S50000x64_0_1 : (⟨S1x64, .f32⟩ : BufTy).Contents (Elt F) → (⟨S50000x64, .f32⟩ : BufTy).Contents (Elt F)),
    binary main_v93 main_v95 main_v96 (addf : (⟨S50000x64, .f32⟩ : BufTy).Contents (Elt F) → (⟨S50000x64, .f32⟩ : BufTy).Contents (Elt F) → (⟨S50000x64, .f32⟩ : BufTy).Contents (Elt F)) ]
/-- The references they write. -/
abbrev seg12_W : List (Ref sig .tc) := [main_v94, main_v95, main_v96]
theorem seg12_writes : (seg12 : List (HloOp τ sig (Elt F))).Forall fun op => op.writes ⊆ (seg12_W.map (Proc.devRef (τ := τ) .tc)).toFinset := by
  simp only [seg12, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg12_keeps (X : Valuation τ sig (Elt F)) (r : Ref sig .tc) (h : r ∉ seg12_W) : after seg12 X (Proc.devRef .tc r) = X (Proc.devRef .tc r) :=
  after_of_writes_sub seg12 X seg12_writes h

/-- Operations 126 … 133 of @main. -/
abbrev seg13 : List (HloOp τ sig (Elt F)) :=
  [ unary main_arg7 main_v97 ((extractStridedSlice S1x1600000 ![0, 0] · slices_S2x1600000_S1x1600000_0_0) : (⟨S2x1600000, .i32⟩ : BufTy).Contents (Elt F) → (⟨S1x1600000, .i32⟩ : BufTy).Contents (Elt F)),
    reshape main_v97 main_v98 rfl shapeCasts_S1x1600000_S1600000,
    nullary main_v99 (iotaInDim S50000 32 0),
    binary main_v98 main_v99 main_v100 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg7 main_v101 ((extractStridedSlice S1x1600000 ![1, 0] · slices_S2x1600000_S1x1600000_1_0) : (⟨S2x1600000, .i32⟩ : BufTy).Contents (Elt F) → (⟨S1x1600000, .i32⟩ : BufTy).Contents (Elt F)),
    reshape main_v101 main_v102 rfl shapeCasts_S1x1600000_S1600000,
    nullary main_v103 (iotaInDim S50000 32 0),
    binary main_v102 main_v103 main_v104 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]
/-- The references they write. -/
abbrev seg13_W : List (Ref sig .tc) := [main_v97, main_v98, main_v99, main_v100, main_v101, main_v102, main_v103, main_v104]
theorem seg13_writes : (seg13 : List (HloOp τ sig (Elt F))).Forall fun op => op.writes ⊆ (seg13_W.map (Proc.devRef (τ := τ) .tc)).toFinset := by
  simp only [seg13, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg13_keeps (X : Valuation τ sig (Elt F)) (r : Ref sig .tc) (h : r ∉ seg13_W) : after seg13 X (Proc.devRef .tc r) = X (Proc.devRef .tc r) :=
  after_of_writes_sub seg13 X seg13_writes h

/-- Operations 134 … 144 of @main. -/
abbrev seg14 : List (HloOp τ sig (Elt F)) :=
  [ nullary main_cst_20 (constant S_ .f32 0x3F800000#32),
    unary main_cst_20 main_v105 (broadcastInDim S1650000 ![] bcast_S_S1650000 : (⟨S_, .f32⟩ : BufTy).Contents (Elt F) → (⟨S1650000, .f32⟩ : BufTy).Contents (Elt F)),
    nullary main_cst_21 (constant S_ .f32 0x00000000#32),
    unary main_cst_21 main_v106 (broadcastInDim S50000 ![] bcast_S_S50000 : (⟨S_, .f32⟩ : BufTy).Contents (Elt F) → (⟨S50000, .f32⟩ : BufTy).Contents (Elt F)),
    unary main_v104 main_v107 (broadcastInDim S1650000x1 ![0] bcast_S1650000_S1650000x1_0 : (⟨S1650000, .i32⟩ : BufTy).Contents (Elt F) → (⟨S1650000x1, .i32⟩ : BufTy).Contents (Elt F)),
    ternary main_v106 main_v107 main_v105 main_v108 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_22 (constant S_ .f32 0x00000000#32),
    unary main_cst_22 main_v109 (broadcastInDim S50000 ![] bcast_S_S50000 : (⟨S_, .f32⟩ : BufTy).Contents (Elt F) → (⟨S50000, .f32⟩ : BufTy).Contents (Elt F)),
    binary main_v108 main_v109 main_v110 (cmpf .ogt : (⟨S50000, .f32⟩ : BufTy).Contents (Elt F) → (⟨S50000, .f32⟩ : BufTy).Contents (Elt F) → (⟨S50000, .i1⟩ : BufTy).Contents (Elt F)),
    unary main_v108 main_v111 (Host.rsqrt : (⟨S50000, .f32⟩ : BufTy).Contents (Elt F) → (⟨S50000, .f32⟩ : BufTy).Contents (Elt F)),
    nullary main_cst_23 (constant S_ .f32 0x00000000#32) ]
/-- The references they write. -/
abbrev seg14_W : List (Ref sig .tc) := [main_cst_20, main_v105, main_cst_21, main_v106, main_v107, main_v108, main_cst_22, main_v109, main_v110, main_v111, main_cst_23]
theorem seg14_writes : (seg14 : List (HloOp τ sig (Elt F))).Forall fun op => op.writes ⊆ (seg14_W.map (Proc.devRef (τ := τ) .tc)).toFinset := by
  simp only [seg14, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg14_keeps (X : Valuation τ sig (Elt F)) (r : Ref sig .tc) (h : r ∉ seg14_W) : after seg14 X (Proc.devRef .tc r) = X (Proc.devRef .tc r) :=
  after_of_writes_sub seg14 X seg14_writes h

/-- Operations 145 … 147 of @main. -/
abbrev seg15 : List (HloOp τ sig (Elt F)) :=
  [ TRef.unary (TRef.of (T := ⟨S_, .f32⟩) main_cst_23) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v110) (TRef.of (T := ⟨S50000, .f32⟩) main_v111) (TRef.of (T := ⟨S50000, .f32⟩) main_call3_v1) (TRef.of (T := ⟨S50000, .f32⟩) main_v112) select ]
/-- The references they write. -/
abbrev seg15_W : List (Ref sig .tc) := [main_call3_v0, main_call3_v1, main_v112]
theorem seg15_writes : (seg15 : List (HloOp τ sig (Elt F))).Forall fun op => op.writes ⊆ (seg15_W.map (Proc.devRef (τ := τ) .tc)).toFinset := by
  simp only [seg15, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg15_keeps (X : Valuation τ sig (Elt F)) (r : Ref sig .tc) (h : r ∉ seg15_W) : after seg15 X (Proc.devRef .tc r) = X (Proc.devRef .tc r) :=
  after_of_writes_sub seg15 X seg15_writes h

/-- Operations 148 … 166 of @main. -/
abbrev seg16 : List (HloOp τ sig (Elt F)) :=
  [ nullary main_c_24 (constantI S_ 32 0#32),
    unary main_c_24 main_v113 (broadcastInDim S1650000 ![] bcast_S_S1650000 : (⟨S_, .i32⟩ : BufTy).Contents (Elt F) → (⟨S1650000, .i32⟩ : BufTy).Contents (Elt F)),
    binary main_v100 main_v113 main_v114 (cmpi .slt : (⟨S1650000, .i32⟩ : BufTy).Contents (Elt F) → (⟨S1650000, .i32⟩ : BufTy).Contents (Elt F) → (⟨S1650000, .i1⟩ : BufTy).Contents (Elt F)),
    nullary main_c_25 (constantI S_ 32 50000#32),
    unary main_c_25 main_v115 (broadcastInDim S1650000 ![] bcast_S_S1650000 : (⟨S_, .i32⟩ : BufTy).Contents (Elt F) → (⟨S1650000, .i32⟩ : BufTy).Contents (Elt F)),
    binary main_v100 main_v115 main_v116 (addi : (⟨S1650000, .i32⟩ : BufTy).Contents (Elt F) → (⟨S1650000, .i32⟩ : BufTy).Contents (Elt F) → (⟨S1650000, .i32⟩ : BufTy).Contents (Elt F)),
    ternary main_v114 main_v116 main_v100 main_v117 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v117 main_v118 (broadcastInDim S1650000x1 ![0] bcast_S1650000_S1650000x1_0 : (⟨S1650000, .i32⟩ : BufTy).Contents (Elt F) → (⟨S1650000x1, .i32⟩ : BufTy).Contents (Elt F)),
    binary main_v112 main_v118 main_v119 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_26 (constantI S_ 32 0#32),
    unary main_c_26 main_v120 (broadcastInDim S1650000 ![] bcast_S_S1650000 : (⟨S_, .i32⟩ : BufTy).Contents (Elt F) → (⟨S1650000, .i32⟩ : BufTy).Contents (Elt F)),
    binary main_v104 main_v120 main_v121 (cmpi .slt : (⟨S1650000, .i32⟩ : BufTy).Contents (Elt F) → (⟨S1650000, .i32⟩ : BufTy).Contents (Elt F) → (⟨S1650000, .i1⟩ : BufTy).Contents (Elt F)),
    nullary main_c_27 (constantI S_ 32 50000#32),
    unary main_c_27 main_v122 (broadcastInDim S1650000 ![] bcast_S_S1650000 : (⟨S_, .i32⟩ : BufTy).Contents (Elt F) → (⟨S1650000, .i32⟩ : BufTy).Contents (Elt F)),
    binary main_v104 main_v122 main_v123 (addi : (⟨S1650000, .i32⟩ : BufTy).Contents (Elt F) → (⟨S1650000, .i32⟩ : BufTy).Contents (Elt F) → (⟨S1650000, .i32⟩ : BufTy).Contents (Elt F)),
    ternary main_v121 main_v123 main_v104 main_v124 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v124 main_v125 (broadcastInDim S1650000x1 ![0] bcast_S1650000_S1650000x1_0 : (⟨S1650000, .i32⟩ : BufTy).Contents (Elt F) → (⟨S1650000x1, .i32⟩ : BufTy).Contents (Elt F)),
    binary main_v112 main_v125 main_v126 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v119 main_v126 main_v127 (mulf : (⟨S1650000, .f32⟩ : BufTy).Contents (Elt F) → (⟨S1650000, .f32⟩ : BufTy).Contents (Elt F) → (⟨S1650000, .f32⟩ : BufTy).Contents (Elt F)) ]
/-- The references they write. -/
abbrev seg16_W : List (Ref sig .tc) := [main_c_24, main_v113, main_v114, main_c_25, main_v115, main_v116, main_v117, main_v118, main_v119, main_c_26, main_v120, main_v121, main_c_27, main_v122, main_v123, main_v124, main_v125, main_v126, main_v127]
theorem seg16_writes : (seg16 : List (HloOp τ sig (Elt F))).Forall fun op => op.writes ⊆ (seg16_W.map (Proc.devRef (τ := τ) .tc)).toFinset := by
  simp only [seg16, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg16_keeps (X : Valuation τ sig (Elt F)) (r : Ref sig .tc) (h : r ∉ seg16_W) : after seg16 X (Proc.devRef .tc r) = X (Proc.devRef .tc r) :=
  after_of_writes_sub seg16 X seg16_writes h

/-- Operations 167 … 183 of @main. -/
abbrev seg17 : List (HloOp τ sig (Elt F)) :=
  [ binary main_v48 main_arg5 main_v128 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_28 (constantI S_ 32 0#32),
    unary main_c_28 main_v129 (broadcastInDim S1650000 ![] bcast_S_S1650000 : (⟨S_, .i32⟩ : BufTy).Contents (Elt F) → (⟨S1650000, .i32⟩ : BufTy).Contents (Elt F)),
    binary main_v100 main_v129 main_v130 (cmpi .slt : (⟨S1650000, .i32⟩ : BufTy).Contents (Elt F) → (⟨S1650000, .i32⟩ : BufTy).Contents (Elt F) → (⟨S1650000, .i1⟩ : BufTy).Contents (Elt F)),
    nullary main_c_29 (constantI S_ 32 50000#32),
    unary main_c_29 main_v131 (broadcastInDim S1650000 ![] bcast_S_S1650000 : (⟨S_, .i32⟩ : BufTy).Contents (Elt F) → (⟨S1650000, .i32⟩ : BufTy).Contents (Elt F)),
    binary main_v100 main_v131 main_v132 (addi : (⟨S1650000, .i32⟩ : BufTy).Contents (Elt F) → (⟨S1650000, .i32⟩ : BufTy).Contents (Elt F) → (⟨S1650000, .i32⟩ : BufTy).Contents (Elt F)),
    ternary main_v130 main_v132 main_v100 main_v133 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v133 main_v134 (broadcastInDim S1650000x1 ![0] bcast_S1650000_S1650000x1_0 : (⟨S1650000, .i32⟩ : BufTy).Contents (Elt F) → (⟨S1650000x1, .i32⟩ : BufTy).Contents (Elt F)),
    binary main_v128 main_v134 main_v135 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v127 main_v136 (broadcastInDim S1650000x1 ![0] bcast_S1650000_S1650000x1_0 : (⟨S1650000, .f32⟩ : BufTy).Contents (Elt F) → (⟨S1650000x1, .f32⟩ : BufTy).Contents (Elt F)),
    unary main_v136 main_v137 (broadcastInDim S1650000x64 ![0, 1] bcast_S1650000x1_S1650000x64_0_1 : (⟨S1650000x1, .f32⟩ : BufTy).Contents (Elt F) → (⟨S1650000x64, .f32⟩ : BufTy).Contents (Elt F)),
    binary main_v135 main_v137 main_v138 (mulf : (⟨S1650000x64, .f32⟩ : BufTy).Contents (Elt F) → (⟨S1650000x64, .f32⟩ : BufTy).Contents (Elt F) → (⟨S1650000x64, .f32⟩ : BufTy).Contents (Elt F)),
    nullary main_cst_30 (constant S_ .f32 0x00000000#32),
    unary main_cst_30 main_v139 (broadcastInDim S50000x64 ![] bcast_S_S50000x64 : (⟨S_, .f32⟩ : BufTy).Contents (Elt F) → (⟨S50000x64, .f32⟩ : BufTy).Contents (Elt F)),
    unary main_v104 main_v140 (broadcastInDim S1650000x1 ![0] bcast_S1650000_S1650000x1_0 : (⟨S1650000, .i32⟩ : BufTy).Contents (Elt F) → (⟨S1650000x1, .i32⟩ : BufTy).Contents (Elt F)),
    ternary main_v139 main_v140 main_v138 main_v141 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)) ]
/-- The references they write. -/
abbrev seg17_W : List (Ref sig .tc) := [main_v128, main_c_28, main_v129, main_v130, main_c_29, main_v131, main_v132, main_v133, main_v134, main_v135, main_v136, main_v137, main_v138, main_cst_30, main_v139, main_v140, main_v141]
theorem seg17_writes : (seg17 : List (HloOp τ sig (Elt F))).Forall fun op => op.writes ⊆ (seg17_W.map (Proc.devRef (τ := τ) .tc)).toFinset := by
  simp only [seg17, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg17_keeps (X : Valuation τ sig (Elt F)) (r : Ref sig .tc) (h : r ∉ seg17_W) : after seg17 X (Proc.devRef .tc r) = X (Proc.devRef .tc r) :=
  after_of_writes_sub seg17 X seg17_writes h

/-- Operations 184 … 186 of @main. -/
abbrev seg18 : List (HloOp τ sig (Elt F)) :=
  [ unary main_arg6 main_v142 (broadcastInDim S1x64 ![1] bcast_S64_S1x64_1 : (⟨S64, .f32⟩ : BufTy).Contents (Elt F) → (⟨S1x64, .f32⟩ : BufTy).Contents (Elt F)),
    unary main_v142 main_v143 (broadcastInDim S50000x64 ![0, 1] bcast_S1x64_S50000x64_0_1 : (⟨S1x64, .f32⟩ : BufTy).Contents (Elt F) → (⟨S50000x64, .f32⟩ : BufTy).Contents (Elt F)),
    binary main_v141 main_v143 main_v144 (addf : (⟨S50000x64, .f32⟩ : BufTy).Contents (Elt F) → (⟨S50000x64, .f32⟩ : BufTy).Contents (Elt F) → (⟨S50000x64, .f32⟩ : BufTy).Contents (Elt F)) ]
/-- The references they write. -/
abbrev seg18_W : List (Ref sig .tc) := [main_v142, main_v143, main_v144]
theorem seg18_writes : (seg18 : List (HloOp τ sig (Elt F))).Forall fun op => op.writes ⊆ (seg18_W.map (Proc.devRef (τ := τ) .tc)).toFinset := by
  simp only [seg18, List.Forall, nullary_writes, unary_writes, binary_writes, ternary_writes, quaternary_writes, reshape_writes, Finset.singleton_subset_iff, List.mem_toFinset]
  repeat' apply And.intro
  all_goals exact List.mem_map_of_mem (by decide)
/-- A buffer none of them writes keeps its contents. -/
theorem seg18_keeps (X : Valuation τ sig (Elt F)) (r : Ref sig .tc) (h : r ∉ seg18_W) : after seg18 X (Proc.devRef .tc r) = X (Proc.devRef .tc r) :=
  after_of_writes_sub seg18 X seg18_writes h

set_option maxRecDepth 65536 in
set_option maxHeartbeats 4000000 in
/-- The operation list is the stretches one after the other. -/
theorem ops_eq : (ops : List (HloOp τ sig (Elt F))) = seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18))))))))))))))))) := rfl

end Cert.ReferenceIdeal.GcnRef

end
-- ==== Proof.RefStretches.lean ====
/-
  The idealized reference program read stretch by stretch: from ANY buffer contents `X` at a stretch's start, what the
  stretch leaves in the buffers later stretches read, as the convolution's functions (the edge sources and destinations,
  the degrees' inverse square roots, the edge weights, one gather / scale / scatter-add of a product, a bias added).
-/
import proofs.«143387_j11854109737065_1_alg».proof.Proof.RefOps
import proofs.«143387_j11854109737065_1_alg».proof.Proof.GcnSpec

set_option maxRecDepth 16384

noncomputable section

namespace Cert.ReferenceIdeal.GcnRef

open Cert.ReferenceIdeal Cert.ReferenceIdeal.Gen Idealize.ShloMosaic Idealize.ShloMosaic.TcCoe Idealize.SL.Sem Idealize.ShloMosaic.StableHlo
open Cert.Gcn

variable {F : FTy → Type} [FloatOps F]

/-! ## What the stretches compute -/

/-! ### The graph's structure, first time -/

theorem seg1_src (X : Valuation τ sig (Elt F)) : after seg1 X (Proc.devRef .tc main_v3) = srcOf (F := F) (X (Proc.devRef .tc main_arg7)) := by
  dsimp only [seg1]; after_results; rfl
theorem seg1_dst (X : Valuation τ sig (Elt F)) : after seg1 X (Proc.devRef .tc main_v7) = dstOf (F := F) (X (Proc.devRef .tc main_arg7)) := by
  dsimp only [seg1]; after_results; rfl
theorem seg2_pos (X : Valuation τ sig (Elt F)) (e : (⟨S2x1600000, .i32⟩ : BufTy).Contents (Elt F)) (hd : X (Proc.devRef .tc main_v7) = dstOf (F := F) e) :
    after seg2 X (Proc.devRef .tc main_v13) = cmpf .ogt (degOf (F := F) e) (broadcastInDim S50000 ![] bcast_S_S50000 (constant (F := F) S_ .f32 0x00000000#32)) := by
  dsimp only [seg2]; after_results_simp; rw [hd]; rfl
theorem seg2_rsqrt (X : Valuation τ sig (Elt F)) (e : (⟨S2x1600000, .i32⟩ : BufTy).Contents (Elt F)) (hd : X (Proc.devRef .tc main_v7) = dstOf (F := F) e) :
    after seg2 X (Proc.devRef .tc main_v14) = Host.rsqrt (degOf (F := F) e) := by
  dsimp only [seg2]; after_results_simp; rw [hd]; rfl
theorem seg2_zero (X : Valuation τ sig (Elt F)) : after seg2 X (Proc.devRef .tc main_cst_2) = constant (F := F) S_ .f32 0x00000000#32 := by
  dsimp only [seg2]; after_results_simp <;> rfl
theorem seg3_dinv (X : Valuation τ sig (Elt F)) (e : (⟨S2x1600000, .i32⟩ : BufTy).Contents (Elt F))
    (hp : X (Proc.devRef .tc main_v13) = cmpf .ogt (degOf (F := F) e) (broadcastInDim S50000 ![] bcast_S_S50000 (constant (F := F) S_ .f32 0x00000000#32))) (hr : X (Proc.devRef .tc main_v14) = Host.rsqrt (degOf (F := F) e))
    (hz : X (Proc.devRef .tc main_cst_2) = constant (F := F) S_ .f32 0x00000000#32) :
    after seg3 X (Proc.devRef .tc main_v15) = dinvOf (F := F) e := by
  dsimp only [seg3]; after_results_simp; rw [hp, hr, hz]; rfl
theorem seg4_norm (X : Valuation τ sig (Elt F)) (e : (⟨S2x1600000, .i32⟩ : BufTy).Contents (Elt F))
    (hs : X (Proc.devRef .tc main_v3) = srcOf (F := F) e) (hd : X (Proc.devRef .tc main_v7) = dstOf (F := F) e) (hi : X (Proc.devRef .tc main_v15) = dinvOf (F := F) e) :
    after seg4 X (Proc.devRef .tc main_v30) = normOf (F := F) e := by
  dsimp only [seg4]; after_results_simp; rw [hs, hd, hi]; rfl

/-- The first convolution, of `x · W_h`. -/
theorem seg5_conv (X : Valuation τ sig (Elt F)) (e : (⟨S2x1600000, .i32⟩ : BufTy).Contents (Elt F))
    (hs : X (Proc.devRef .tc main_v3) = srcOf (F := F) e) (hd : X (Proc.devRef .tc main_v7) = dstOf (F := F) e) (hn : X (Proc.devRef .tc main_v30) = normOf (F := F) e) :
    after seg5 X (Proc.devRef .tc main_v44) = agg128 (F := F) e (Host.dotGeneral dot_S50000x256_S256x128_S50000x128_1_0_0_1_n_n none (X (Proc.devRef .tc main_arg0)) (X (Proc.devRef .tc main_arg1))) := by
  dsimp only [seg5]; after_results_simp; rw [hs, hd, hn]; rfl
/-- The bias and the rectifier. -/
theorem seg6_hidden (X : Valuation τ sig (Elt F)) :
    after seg6 X (Proc.devRef .tc main_v48) = maximumf (addf (X (Proc.devRef .tc main_v44)) (biasRows128 (F := F) (X (Proc.devRef .tc main_arg2))))
      (broadcastInDim S50000x128 ![] bcast_S_S50000x128 (constant (F := F) S_ .f32 0x00000000#32)) := by
  dsimp only [seg6]; after_results_simp <;> rfl

/-! ### The graph's structure, second time -/

theorem seg7_src (X : Valuation τ sig (Elt F)) : after seg7 X (Proc.devRef .tc main_v52) = srcOf (F := F) (X (Proc.devRef .tc main_arg7)) := by
  dsimp only [seg7]; after_results; rfl
theorem seg7_dst (X : Valuation τ sig (Elt F)) : after seg7 X (Proc.devRef .tc main_v56) = dstOf (F := F) (X (Proc.devRef .tc main_arg7)) := by
  dsimp only [seg7]; after_results; rfl
theorem seg8_pos (X : Valuation τ sig (Elt F)) (e : (⟨S2x1600000, .i32⟩ : BufTy).Contents (Elt F)) (hd : X (Proc.devRef .tc main_v56) = dstOf (F := F) e) :
    after seg8 X (Proc.devRef .tc main_v62) = cmpf .ogt (degOf (F := F) e) (broadcastInDim S50000 ![] bcast_S_S50000 (constant (F := F) S_ .f32 0x00000000#32)) := by
  dsimp only [seg8]; after_results_simp; rw [hd]; rfl
theorem seg8_rsqrt (X : Valuation τ sig (Elt F)) (e : (⟨S2x1600000, .i32⟩ : BufTy).Contents (Elt F)) (hd : X (Proc.devRef .tc main_v56) = dstOf (F := F) e) :
    after seg8 X (Proc.devRef .tc main_v63) = Host.rsqrt (degOf (F := F) e) := by
  dsimp only [seg8]; after_results_simp; rw [hd]; rfl
theorem seg8_zero (X : Valuation τ sig (Elt F)) : after seg8 X (Proc.devRef .tc main_cst_12) = constant (F := F) S_ .f32 0x00000000#32 := by
  dsimp only [seg8]; after_results_simp <;> rfl
theorem seg9_dinv (X : Valuation τ sig (Elt F)) (e : (⟨S2x1600000, .i32⟩ : BufTy).Contents (Elt F))
    (hp : X (Proc.devRef .tc main_v62) = cmpf .ogt (degOf (F := F) e) (broadcastInDim S50000 ![] bcast_S_S50000 (constant (F := F) S_ .f32 0x00000000#32))) (hr : X (Proc.devRef .tc main_v63) = Host.rsqrt (degOf (F := F) e))
    (hz : X (Proc.devRef .tc main_cst_12) = constant (F := F) S_ .f32 0x00000000#32) :
    after seg9 X (Proc.devRef .tc main_v64) = dinvOf (F := F) e := by
  dsimp only [seg9]; after_results_simp; rw [hp, hr, hz]; rfl
theorem seg10_norm (X : Valuation τ sig (Elt F)) (e : (⟨S2x1600000, .i32⟩ : BufTy).Contents (Elt F))
    (hs : X (Proc.devRef .tc main_v52) = srcOf (F := F) e) (hd : X (Proc.devRef .tc main_v56) = dstOf (F := F) e) (hi : X (Proc.devRef .tc main_v64) = dinvOf (F := F) e) :
    after seg10 X (Proc.devRef .tc main_v79) = normOf (F := F) e := by
  dsimp only [seg10]; after_results_simp; rw [hs, hd, hi]; rfl

/-- The second convolution, of `h · W_mu`. -/
theorem seg11_conv (X : Valuation τ sig (Elt F)) (e : (⟨S2x1600000, .i32⟩ : BufTy).Contents (Elt F))
    (hs : X (Proc.devRef .tc main_v52) = srcOf (F := F) e) (hd : X (Proc.devRef .tc main_v56) = dstOf (F := F) e) (hn : X (Proc.devRef .tc main_v79) = normOf (F := F) e) :
    after seg11 X (Proc.devRef .tc main_v93) = agg64 (F := F) e (Host.dotGeneral dot_S50000x128_S128x64_S50000x64_1_0_0_1_n_n none (X (Proc.devRef .tc main_v48)) (X (Proc.devRef .tc main_arg3))) := by
  dsimp only [seg11]; after_results_simp; rw [hs, hd, hn]; rfl
theorem seg12_bias (X : Valuation τ sig (Elt F)) :
    after seg12 X (Proc.devRef .tc main_v96) = addf (X (Proc.devRef .tc main_v93)) (biasRows64 (F := F) (X (Proc.devRef .tc main_arg4))) := by
  dsimp only [seg12]; after_results_simp <;> rfl

/-! ### The graph's structure, third time -/

theorem seg13_src (X : Valuation τ sig (Elt F)) : after seg13 X (Proc.devRef .tc main_v100) = srcOf (F := F) (X (Proc.devRef .tc main_arg7)) := by
  dsimp only [seg13]; after_results; rfl
theorem seg13_dst (X : Valuation τ sig (Elt F)) : after seg13 X (Proc.devRef .tc main_v104) = dstOf (F := F) (X (Proc.devRef .tc main_arg7)) := by
  dsimp only [seg13]; after_results; rfl
theorem seg14_pos (X : Valuation τ sig (Elt F)) (e : (⟨S2x1600000, .i32⟩ : BufTy).Contents (Elt F)) (hd : X (Proc.devRef .tc main_v104) = dstOf (F := F) e) :
    after seg14 X (Proc.devRef .tc main_v110) = cmpf .ogt (degOf (F := F) e) (broadcastInDim S50000 ![] bcast_S_S50000 (constant (F := F) S_ .f32 0x00000000#32)) := by
  dsimp only [seg14]; after_results_simp; rw [hd]; rfl
theorem seg14_rsqrt (X : Valuation τ sig (Elt F)) (e : (⟨S2x1600000, .i32⟩ : BufTy).Contents (Elt F)) (hd : X (Proc.devRef .tc main_v104) = dstOf (F := F) e) :
    after seg14 X (Proc.devRef .tc main_v111) = Host.rsqrt (degOf (F := F) e) := by
  dsimp only [seg14]; after_results_simp; rw [hd]; rfl
theorem seg14_zero (X : Valuation τ sig (Elt F)) : after seg14 X (Proc.devRef .tc main_cst_23) = constant (F := F) S_ .f32 0x00000000#32 := by
  dsimp only [seg14]; after_results_simp <;> rfl
theorem seg15_dinv (X : Valuation τ sig (Elt F)) (e : (⟨S2x1600000, .i32⟩ : BufTy).Contents (Elt F))
    (hp : X (Proc.devRef .tc main_v110) = cmpf .ogt (degOf (F := F) e) (broadcastInDim S50000 ![] bcast_S_S50000 (constant (F := F) S_ .f32 0x00000000#32))) (hr : X (Proc.devRef .tc main_v111) = Host.rsqrt (degOf (F := F) e))
    (hz : X (Proc.devRef .tc main_cst_23) = constant (F := F) S_ .f32 0x00000000#32) :
    after seg15 X (Proc.devRef .tc main_v112) = dinvOf (F := F) e := by
  dsimp only [seg15]; after_results_simp; rw [hp, hr, hz]; rfl
theorem seg16_norm (X : Valuation τ sig (Elt F)) (e : (⟨S2x1600000, .i32⟩ : BufTy).Contents (Elt F))
    (hs : X (Proc.devRef .tc main_v100) = srcOf (F := F) e) (hd : X (Proc.devRef .tc main_v104) = dstOf (F := F) e) (hi : X (Proc.devRef .tc main_v112) = dinvOf (F := F) e) :
    after seg16 X (Proc.devRef .tc main_v127) = normOf (F := F) e := by
  dsimp only [seg16]; after_results_simp; rw [hs, hd, hi]; rfl

/-- The third convolution, of `h · W_ls`. -/
theorem seg17_conv (X : Valuation τ sig (Elt F)) (e : (⟨S2x1600000, .i32⟩ : BufTy).Contents (Elt F))
    (hs : X (Proc.devRef .tc main_v100) = srcOf (F := F) e) (hd : X (Proc.devRef .tc main_v104) = dstOf (F := F) e) (hn : X (Proc.devRef .tc main_v127) = normOf (F := F) e) :
    after seg17 X (Proc.devRef .tc main_v141) = agg64 (F := F) e (Host.dotGeneral dot_S50000x128_S128x64_S50000x64_1_0_0_1_n_n none (X (Proc.devRef .tc main_v48)) (X (Proc.devRef .tc main_arg5))) := by
  dsimp only [seg17]; after_results_simp; rw [hs, hd, hn]; rfl
theorem seg18_bias (X : Valuation τ sig (Elt F)) :
    after seg18 X (Proc.devRef .tc main_v144) = addf (X (Proc.devRef .tc main_v141)) (biasRows64 (F := F) (X (Proc.devRef .tc main_arg6))) := by
  dsimp only [seg18]; after_results_simp <;> rfl

end Cert.ReferenceIdeal.GcnRef

end
-- ==== Proof.RefRun.lean ====
/-
  The idealized reference program's run, read: every weakly fair execution terminates, the two result buffers end at
  `mu` and `logstd` of the argument arrays (the graph convolution network of the specification), and the arguments
  end unchanged.  The contents of the buffers after each of the eighteen stretches is a fold from the launch memory;
  what the buffers that matter hold at each of these boundaries is followed from the first to the last.
-/
import proofs.«143387_j11854109737065_1_alg».proof.Proof.RefStretches

set_option maxRecDepth 16384

noncomputable section

namespace Cert.ReferenceIdeal.GcnRef

open Cert.ReferenceIdeal Cert.ReferenceIdeal.Gen Idealize.ShloMosaic Idealize.ShloMosaic.TcCoe Idealize.SL.Sem Idealize.ShloMosaic.StableHlo
open Cert.Gcn

variable {F : FTy → Type} [FloatOps F]

/-- Two lines of operations run one after the other. -/
theorem after_two : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_two l₁ l₂]

variable (m : (ℓ : Loc nD τ sig) → Buf (Elt F) ℓ) (c : Dev nD)

/-! ## The buffer contents after each stretch -/

abbrev Y0 : Valuation τ sig (Elt F) := launchContents m c
abbrev Y1 : Valuation τ sig (Elt F) := after seg1 (Y0 m c)
abbrev Y2 : Valuation τ sig (Elt F) := after seg2 (Y1 m c)
abbrev Y3 : Valuation τ sig (Elt F) := after seg3 (Y2 m c)
abbrev Y4 : Valuation τ sig (Elt F) := after seg4 (Y3 m c)
abbrev Y5 : Valuation τ sig (Elt F) := after seg5 (Y4 m c)
abbrev Y6 : Valuation τ sig (Elt F) := after seg6 (Y5 m c)
abbrev Y7 : Valuation τ sig (Elt F) := after seg7 (Y6 m c)
abbrev Y8 : Valuation τ sig (Elt F) := after seg8 (Y7 m c)
abbrev Y9 : Valuation τ sig (Elt F) := after seg9 (Y8 m c)
abbrev Y10 : Valuation τ sig (Elt F) := after seg10 (Y9 m c)
abbrev Y11 : Valuation τ sig (Elt F) := after seg11 (Y10 m c)
abbrev Y12 : Valuation τ sig (Elt F) := after seg12 (Y11 m c)
abbrev Y13 : Valuation τ sig (Elt F) := after seg13 (Y12 m c)
abbrev Y14 : Valuation τ sig (Elt F) := after seg14 (Y13 m c)
abbrev Y15 : Valuation τ sig (Elt F) := after seg15 (Y14 m c)
abbrev Y16 : Valuation τ sig (Elt F) := after seg16 (Y15 m c)
abbrev Y17 : Valuation τ sig (Elt F) := after seg17 (Y16 m c)
abbrev Y18 : Valuation τ sig (Elt F) := after seg18 (Y17 m c)

/-- The whole line is the stretches in order. -/
theorem after_ops (b : DevRef τ sig) : after ops (launchContents m c) b = Y18 m c b := by
  rw [ops_eq]
  simp only [after_two]

/-! ## The argument arrays as launched -/

abbrev x0 (m : (ℓ : Loc nD τ sig) → Buf (Elt F) ℓ) (c : Dev nD) : (⟨S50000x256, .f32⟩ : BufTy).Contents (Elt F) := m ((c.tc : Thread nD τ).loc main_arg0)
abbrev x1 (m : (ℓ : Loc nD τ sig) → Buf (Elt F) ℓ) (c : Dev nD) : (⟨S256x128, .f32⟩ : BufTy).Contents (Elt F) := m ((c.tc : Thread nD τ).loc main_arg1)
abbrev x2 (m : (ℓ : Loc nD τ sig) → Buf (Elt F) ℓ) (c : Dev nD) : (⟨S128, .f32⟩ : BufTy).Contents (Elt F) := m ((c.tc : Thread nD τ).loc main_arg2)
abbrev x3 (m : (ℓ : Loc nD τ sig) → Buf (Elt F) ℓ) (c : Dev nD) : (⟨S128x64, .f32⟩ : BufTy).Contents (Elt F) := m ((c.tc : Thread nD τ).loc main_arg3)
abbrev x4 (m : (ℓ : Loc nD τ sig) → Buf (Elt F) ℓ) (c : Dev nD) : (⟨S64, .f32⟩ : BufTy).Contents (Elt F) := m ((c.tc : Thread nD τ).loc main_arg4)
abbrev x5 (m : (ℓ : Loc nD τ sig) → Buf (Elt F) ℓ) (c : Dev nD) : (⟨S128x64, .f32⟩ : BufTy).Contents (Elt F) := m ((c.tc : Thread nD τ).loc main_arg5)
abbrev x6 (m : (ℓ : Loc nD τ sig) → Buf (Elt F) ℓ) (c : Dev nD) : (⟨S64, .f32⟩ : BufTy).Contents (Elt F) := m ((c.tc : Thread nD τ).loc main_arg6)
abbrev x7 (m : (ℓ : Loc nD τ sig) → Buf (Elt F) ℓ) (c : Dev nD) : (⟨S2x1600000, .i32⟩ : BufTy).Contents (Elt F) := m ((c.tc : Thread nD τ).loc main_arg7)

/-! ## The chain -/

theorem arg0_at4 : Y4 m c (Proc.devRef .tc main_arg0) = (x0 m c) :=
  ((seg4_keeps (Y3 m c) main_arg0 (by decide)).trans ((seg3_keeps (Y2 m c) main_arg0 (by decide)).trans ((seg2_keeps (Y1 m c) main_arg0 (by decide)).trans ((seg1_keeps (Y0 m c) main_arg0 (by decide)).trans (rfl : Y0 m c (Proc.devRef .tc main_arg0) = (x0 m c))))))

theorem arg0_at18 : Y18 m c (Proc.devRef .tc main_arg0) = (x0 m c) :=
  ((seg18_keeps (Y17 m c) main_arg0 (by decide)).trans ((seg17_keeps (Y16 m c) main_arg0 (by decide)).trans ((seg16_keeps (Y15 m c) main_arg0 (by decide)).trans ((seg15_keeps (Y14 m c) main_arg0 (by decide)).trans ((seg14_keeps (Y13 m c) main_arg0 (by decide)).trans ((seg13_keeps (Y12 m c) main_arg0 (by decide)).trans ((seg12_keeps (Y11 m c) main_arg0 (by decide)).trans ((seg11_keeps (Y10 m c) main_arg0 (by decide)).trans ((seg10_keeps (Y9 m c) main_arg0 (by decide)).trans ((seg9_keeps (Y8 m c) main_arg0 (by decide)).trans ((seg8_keeps (Y7 m c) main_arg0 (by decide)).trans ((seg7_keeps (Y6 m c) main_arg0 (by decide)).trans ((seg6_keeps (Y5 m c) main_arg0 (by decide)).trans ((seg5_keeps (Y4 m c) main_arg0 (by decide)).trans ((seg4_keeps (Y3 m c) main_arg0 (by decide)).trans ((seg3_keeps (Y2 m c) main_arg0 (by decide)).trans ((seg2_keeps (Y1 m c) main_arg0 (by decide)).trans ((seg1_keeps (Y0 m c) main_arg0 (by decide)).trans (rfl : Y0 m c (Proc.devRef .tc main_arg0) = (x0 m c))))))))))))))))))))

theorem arg1_at4 : Y4 m c (Proc.devRef .tc main_arg1) = (x1 m c) :=
  ((seg4_keeps (Y3 m c) main_arg1 (by decide)).trans ((seg3_keeps (Y2 m c) main_arg1 (by decide)).trans ((seg2_keeps (Y1 m c) main_arg1 (by decide)).trans ((seg1_keeps (Y0 m c) main_arg1 (by decide)).trans (rfl : Y0 m c (Proc.devRef .tc main_arg1) = (x1 m c))))))

theorem arg1_at18 : Y18 m c (Proc.devRef .tc main_arg1) = (x1 m c) :=
  ((seg18_keeps (Y17 m c) main_arg1 (by decide)).trans ((seg17_keeps (Y16 m c) main_arg1 (by decide)).trans ((seg16_keeps (Y15 m c) main_arg1 (by decide)).trans ((seg15_keeps (Y14 m c) main_arg1 (by decide)).trans ((seg14_keeps (Y13 m c) main_arg1 (by decide)).trans ((seg13_keeps (Y12 m c) main_arg1 (by decide)).trans ((seg12_keeps (Y11 m c) main_arg1 (by decide)).trans ((seg11_keeps (Y10 m c) main_arg1 (by decide)).trans ((seg10_keeps (Y9 m c) main_arg1 (by decide)).trans ((seg9_keeps (Y8 m c) main_arg1 (by decide)).trans ((seg8_keeps (Y7 m c) main_arg1 (by decide)).trans ((seg7_keeps (Y6 m c) main_arg1 (by decide)).trans ((seg6_keeps (Y5 m c) main_arg1 (by decide)).trans ((seg5_keeps (Y4 m c) main_arg1 (by decide)).trans ((seg4_keeps (Y3 m c) main_arg1 (by decide)).trans ((seg3_keeps (Y2 m c) main_arg1 (by decide)).trans ((seg2_keeps (Y1 m c) main_arg1 (by decide)).trans ((seg1_keeps (Y0 m c) main_arg1 (by decide)).trans (rfl : Y0 m c (Proc.devRef .tc main_arg1) = (x1 m c))))))))))))))))))))

theorem arg2_at5 : Y5 m c (Proc.devRef .tc main_arg2) = (x2 m c) :=
  ((seg5_keeps (Y4 m c) main_arg2 (by decide)).trans ((seg4_keeps (Y3 m c) main_arg2 (by decide)).trans ((seg3_keeps (Y2 m c) main_arg2 (by decide)).trans ((seg2_keeps (Y1 m c) main_arg2 (by decide)).trans ((seg1_keeps (Y0 m c) main_arg2 (by decide)).trans (rfl : Y0 m c (Proc.devRef .tc main_arg2) = (x2 m c)))))))

theorem arg2_at18 : Y18 m c (Proc.devRef .tc main_arg2) = (x2 m c) :=
  ((seg18_keeps (Y17 m c) main_arg2 (by decide)).trans ((seg17_keeps (Y16 m c) main_arg2 (by decide)).trans ((seg16_keeps (Y15 m c) main_arg2 (by decide)).trans ((seg15_keeps (Y14 m c) main_arg2 (by decide)).trans ((seg14_keeps (Y13 m c) main_arg2 (by decide)).trans ((seg13_keeps (Y12 m c) main_arg2 (by decide)).trans ((seg12_keeps (Y11 m c) main_arg2 (by decide)).trans ((seg11_keeps (Y10 m c) main_arg2 (by decide)).trans ((seg10_keeps (Y9 m c) main_arg2 (by decide)).trans ((seg9_keeps (Y8 m c) main_arg2 (by decide)).trans ((seg8_keeps (Y7 m c) main_arg2 (by decide)).trans ((seg7_keeps (Y6 m c) main_arg2 (by decide)).trans ((seg6_keeps (Y5 m c) main_arg2 (by decide)).trans ((seg5_keeps (Y4 m c) main_arg2 (by decide)).trans ((seg4_keeps (Y3 m c) main_arg2 (by decide)).trans ((seg3_keeps (Y2 m c) main_arg2 (by decide)).trans ((seg2_keeps (Y1 m c) main_arg2 (by decide)).trans ((seg1_keeps (Y0 m c) main_arg2 (by decide)).trans (rfl : Y0 m c (Proc.devRef .tc main_arg2) = (x2 m c))))))))))))))))))))

theorem arg3_at10 : Y10 m c (Proc.devRef .tc main_arg3) = (x3 m c) :=
  ((seg10_keeps (Y9 m c) main_arg3 (by decide)).trans ((seg9_keeps (Y8 m c) main_arg3 (by decide)).trans ((seg8_keeps (Y7 m c) main_arg3 (by decide)).trans ((seg7_keeps (Y6 m c) main_arg3 (by decide)).trans ((seg6_keeps (Y5 m c) main_arg3 (by decide)).trans ((seg5_keeps (Y4 m c) main_arg3 (by decide)).trans ((seg4_keeps (Y3 m c) main_arg3 (by decide)).trans ((seg3_keeps (Y2 m c) main_arg3 (by decide)).trans ((seg2_keeps (Y1 m c) main_arg3 (by decide)).trans ((seg1_keeps (Y0 m c) main_arg3 (by decide)).trans (rfl : Y0 m c (Proc.devRef .tc main_arg3) = (x3 m c))))))))))))

theorem arg3_at18 : Y18 m c (Proc.devRef .tc main_arg3) = (x3 m c) :=
  ((seg18_keeps (Y17 m c) main_arg3 (by decide)).trans ((seg17_keeps (Y16 m c) main_arg3 (by decide)).trans ((seg16_keeps (Y15 m c) main_arg3 (by decide)).trans ((seg15_keeps (Y14 m c) main_arg3 (by decide)).trans ((seg14_keeps (Y13 m c) main_arg3 (by decide)).trans ((seg13_keeps (Y12 m c) main_arg3 (by decide)).trans ((seg12_keeps (Y11 m c) main_arg3 (by decide)).trans ((seg11_keeps (Y10 m c) main_arg3 (by decide)).trans ((seg10_keeps (Y9 m c) main_arg3 (by decide)).trans ((seg9_keeps (Y8 m c) main_arg3 (by decide)).trans ((seg8_keeps (Y7 m c) main_arg3 (by decide)).trans ((seg7_keeps (Y6 m c) main_arg3 (by decide)).trans ((seg6_keeps (Y5 m c) main_arg3 (by decide)).trans ((seg5_keeps (Y4 m c) main_arg3 (by decide)).trans ((seg4_keeps (Y3 m c) main_arg3 (by decide)).trans ((seg3_keeps (Y2 m c) main_arg3 (by decide)).trans ((seg2_keeps (Y1 m c) main_arg3 (by decide)).trans ((seg1_keeps (Y0 m c) main_arg3 (by decide)).trans (rfl : Y0 m c (Proc.devRef .tc main_arg3) = (x3 m c))))))))))))))))))))

theorem arg4_at11 : Y11 m c (Proc.devRef .tc main_arg4) = (x4 m c) :=
  ((seg11_keeps (Y10 m c) main_arg4 (by decide)).trans ((seg10_keeps (Y9 m c) main_arg4 (by decide)).trans ((seg9_keeps (Y8 m c) main_arg4 (by decide)).trans ((seg8_keeps (Y7 m c) main_arg4 (by decide)).trans ((seg7_keeps (Y6 m c) main_arg4 (by decide)).trans ((seg6_keeps (Y5 m c) main_arg4 (by decide)).trans ((seg5_keeps (Y4 m c) main_arg4 (by decide)).trans ((seg4_keeps (Y3 m c) main_arg4 (by decide)).trans ((seg3_keeps (Y2 m c) main_arg4 (by decide)).trans ((seg2_keeps (Y1 m c) main_arg4 (by decide)).trans ((seg1_keeps (Y0 m c) main_arg4 (by decide)).trans (rfl : Y0 m c (Proc.devRef .tc main_arg4) = (x4 m c)))))))))))))

theorem arg4_at18 : Y18 m c (Proc.devRef .tc main_arg4) = (x4 m c) :=
  ((seg18_keeps (Y17 m c) main_arg4 (by decide)).trans ((seg17_keeps (Y16 m c) main_arg4 (by decide)).trans ((seg16_keeps (Y15 m c) main_arg4 (by decide)).trans ((seg15_keeps (Y14 m c) main_arg4 (by decide)).trans ((seg14_keeps (Y13 m c) main_arg4 (by decide)).trans ((seg13_keeps (Y12 m c) main_arg4 (by decide)).trans ((seg12_keeps (Y11 m c) main_arg4 (by decide)).trans ((seg11_keeps (Y10 m c) main_arg4 (by decide)).trans ((seg10_keeps (Y9 m c) main_arg4 (by decide)).trans ((seg9_keeps (Y8 m c) main_arg4 (by decide)).trans ((seg8_keeps (Y7 m c) main_arg4 (by decide)).trans ((seg7_keeps (Y6 m c) main_arg4 (by decide)).trans ((seg6_keeps (Y5 m c) main_arg4 (by decide)).trans ((seg5_keeps (Y4 m c) main_arg4 (by decide)).trans ((seg4_keeps (Y3 m c) main_arg4 (by decide)).trans ((seg3_keeps (Y2 m c) main_arg4 (by decide)).trans ((seg2_keeps (Y1 m c) main_arg4 (by decide)).trans ((seg1_keeps (Y0 m c) main_arg4 (by decide)).trans (rfl : Y0 m c (Proc.devRef .tc main_arg4) = (x4 m c))))))))))))))))))))

theorem arg5_at16 : Y16 m c (Proc.devRef .tc main_arg5) = (x5 m c) :=
  ((seg16_keeps (Y15 m c) main_arg5 (by decide)).trans ((seg15_keeps (Y14 m c) main_arg5 (by decide)).trans ((seg14_keeps (Y13 m c) main_arg5 (by decide)).trans ((seg13_keeps (Y12 m c) main_arg5 (by decide)).trans ((seg12_keeps (Y11 m c) main_arg5 (by decide)).trans ((seg11_keeps (Y10 m c) main_arg5 (by decide)).trans ((seg10_keeps (Y9 m c) main_arg5 (by decide)).trans ((seg9_keeps (Y8 m c) main_arg5 (by decide)).trans ((seg8_keeps (Y7 m c) main_arg5 (by decide)).trans ((seg7_keeps (Y6 m c) main_arg5 (by decide)).trans ((seg6_keeps (Y5 m c) main_arg5 (by decide)).trans ((seg5_keeps (Y4 m c) main_arg5 (by decide)).trans ((seg4_keeps (Y3 m c) main_arg5 (by decide)).trans ((seg3_keeps (Y2 m c) main_arg5 (by decide)).trans ((seg2_keeps (Y1 m c) main_arg5 (by decide)).trans ((seg1_keeps (Y0 m c) main_arg5 (by decide)).trans (rfl : Y0 m c (Proc.devRef .tc main_arg5) = (x5 m c))))))))))))))))))

theorem arg5_at18 : Y18 m c (Proc.devRef .tc main_arg5) = (x5 m c) :=
  ((seg18_keeps (Y17 m c) main_arg5 (by decide)).trans ((seg17_keeps (Y16 m c) main_arg5 (by decide)).trans ((seg16_keeps (Y15 m c) main_arg5 (by decide)).trans ((seg15_keeps (Y14 m c) main_arg5 (by decide)).trans ((seg14_keeps (Y13 m c) main_arg5 (by decide)).trans ((seg13_keeps (Y12 m c) main_arg5 (by decide)).trans ((seg12_keeps (Y11 m c) main_arg5 (by decide)).trans ((seg11_keeps (Y10 m c) main_arg5 (by decide)).trans ((seg10_keeps (Y9 m c) main_arg5 (by decide)).trans ((seg9_keeps (Y8 m c) main_arg5 (by decide)).trans ((seg8_keeps (Y7 m c) main_arg5 (by decide)).trans ((seg7_keeps (Y6 m c) main_arg5 (by decide)).trans ((seg6_keeps (Y5 m c) main_arg5 (by decide)).trans ((seg5_keeps (Y4 m c) main_arg5 (by decide)).trans ((seg4_keeps (Y3 m c) main_arg5 (by decide)).trans ((seg3_keeps (Y2 m c) main_arg5 (by decide)).trans ((seg2_keeps (Y1 m c) main_arg5 (by decide)).trans ((seg1_keeps (Y0 m c) main_arg5 (by decide)).trans (rfl : Y0 m c (Proc.devRef .tc main_arg5) = (x5 m c))))))))))))))))))))

theorem arg6_at17 : Y17 m c (Proc.devRef .tc main_arg6) = (x6 m c) :=
  ((seg17_keeps (Y16 m c) main_arg6 (by decide)).trans ((seg16_keeps (Y15 m c) main_arg6 (by decide)).trans ((seg15_keeps (Y14 m c) main_arg6 (by decide)).trans ((seg14_keeps (Y13 m c) main_arg6 (by decide)).trans ((seg13_keeps (Y12 m c) main_arg6 (by decide)).trans ((seg12_keeps (Y11 m c) main_arg6 (by decide)).trans ((seg11_keeps (Y10 m c) main_arg6 (by decide)).trans ((seg10_keeps (Y9 m c) main_arg6 (by decide)).trans ((seg9_keeps (Y8 m c) main_arg6 (by decide)).trans ((seg8_keeps (Y7 m c) main_arg6 (by decide)).trans ((seg7_keeps (Y6 m c) main_arg6 (by decide)).trans ((seg6_keeps (Y5 m c) main_arg6 (by decide)).trans ((seg5_keeps (Y4 m c) main_arg6 (by decide)).trans ((seg4_keeps (Y3 m c) main_arg6 (by decide)).trans ((seg3_keeps (Y2 m c) main_arg6 (by decide)).trans ((seg2_keeps (Y1 m c) main_arg6 (by decide)).trans ((seg1_keeps (Y0 m c) main_arg6 (by decide)).trans (rfl : Y0 m c (Proc.devRef .tc main_arg6) = (x6 m c)))))))))))))))))))

theorem arg6_at18 : Y18 m c (Proc.devRef .tc main_arg6) = (x6 m c) :=
  ((seg18_keeps (Y17 m c) main_arg6 (by decide)).trans ((seg17_keeps (Y16 m c) main_arg6 (by decide)).trans ((seg16_keeps (Y15 m c) main_arg6 (by decide)).trans ((seg15_keeps (Y14 m c) main_arg6 (by decide)).trans ((seg14_keeps (Y13 m c) main_arg6 (by decide)).trans ((seg13_keeps (Y12 m c) main_arg6 (by decide)).trans ((seg12_keeps (Y11 m c) main_arg6 (by decide)).trans ((seg11_keeps (Y10 m c) main_arg6 (by decide)).trans ((seg10_keeps (Y9 m c) main_arg6 (by decide)).trans ((seg9_keeps (Y8 m c) main_arg6 (by decide)).trans ((seg8_keeps (Y7 m c) main_arg6 (by decide)).trans ((seg7_keeps (Y6 m c) main_arg6 (by decide)).trans ((seg6_keeps (Y5 m c) main_arg6 (by decide)).trans ((seg5_keeps (Y4 m c) main_arg6 (by decide)).trans ((seg4_keeps (Y3 m c) main_arg6 (by decide)).trans ((seg3_keeps (Y2 m c) main_arg6 (by decide)).trans ((seg2_keeps (Y1 m c) main_arg6 (by decide)).trans ((seg1_keeps (Y0 m c) main_arg6 (by decide)).trans (rfl : Y0 m c (Proc.devRef .tc main_arg6) = (x6 m c))))))))))))))))))))

theorem arg7_at6 : Y6 m c (Proc.devRef .tc main_arg7) = (x7 m c) :=
  ((seg6_keeps (Y5 m c) main_arg7 (by decide)).trans ((seg5_keeps (Y4 m c) main_arg7 (by decide)).trans ((seg4_keeps (Y3 m c) main_arg7 (by decide)).trans ((seg3_keeps (Y2 m c) main_arg7 (by decide)).trans ((seg2_keeps (Y1 m c) main_arg7 (by decide)).trans ((seg1_keeps (Y0 m c) main_arg7 (by decide)).trans (rfl : Y0 m c (Proc.devRef .tc main_arg7) = (x7 m c))))))))

theorem arg7_at12 : Y12 m c (Proc.devRef .tc main_arg7) = (x7 m c) :=
  ((seg12_keeps (Y11 m c) main_arg7 (by decide)).trans ((seg11_keeps (Y10 m c) main_arg7 (by decide)).trans ((seg10_keeps (Y9 m c) main_arg7 (by decide)).trans ((seg9_keeps (Y8 m c) main_arg7 (by decide)).trans ((seg8_keeps (Y7 m c) main_arg7 (by decide)).trans ((seg7_keeps (Y6 m c) main_arg7 (by decide)).trans ((seg6_keeps (Y5 m c) main_arg7 (by decide)).trans ((seg5_keeps (Y4 m c) main_arg7 (by decide)).trans ((seg4_keeps (Y3 m c) main_arg7 (by decide)).trans ((seg3_keeps (Y2 m c) main_arg7 (by decide)).trans ((seg2_keeps (Y1 m c) main_arg7 (by decide)).trans ((seg1_keeps (Y0 m c) main_arg7 (by decide)).trans (rfl : Y0 m c (Proc.devRef .tc main_arg7) = (x7 m c))))))))))))))

theorem arg7_at18 : Y18 m c (Proc.devRef .tc main_arg7) = (x7 m c) :=
  ((seg18_keeps (Y17 m c) main_arg7 (by decide)).trans ((seg17_keeps (Y16 m c) main_arg7 (by decide)).trans ((seg16_keeps (Y15 m c) main_arg7 (by decide)).trans ((seg15_keeps (Y14 m c) main_arg7 (by decide)).trans ((seg14_keeps (Y13 m c) main_arg7 (by decide)).trans ((seg13_keeps (Y12 m c) main_arg7 (by decide)).trans ((seg12_keeps (Y11 m c) main_arg7 (by decide)).trans ((seg11_keeps (Y10 m c) main_arg7 (by decide)).trans ((seg10_keeps (Y9 m c) main_arg7 (by decide)).trans ((seg9_keeps (Y8 m c) main_arg7 (by decide)).trans ((seg8_keeps (Y7 m c) main_arg7 (by decide)).trans ((seg7_keeps (Y6 m c) main_arg7 (by decide)).trans ((seg6_keeps (Y5 m c) main_arg7 (by decide)).trans ((seg5_keeps (Y4 m c) main_arg7 (by decide)).trans ((seg4_keeps (Y3 m c) main_arg7 (by decide)).trans ((seg3_keeps (Y2 m c) main_arg7 (by decide)).trans ((seg2_keeps (Y1 m c) main_arg7 (by decide)).trans ((seg1_keeps (Y0 m c) main_arg7 (by decide)).trans (rfl : Y0 m c (Proc.devRef .tc main_arg7) = (x7 m c))))))))))))))))))))

theorem src1_at1 : Y1 m c (Proc.devRef .tc main_v3) = srcOf (F := F) (x7 m c) :=
  (seg1_src (Y0 m c))

theorem dst1_at1 : Y1 m c (Proc.devRef .tc main_v7) = dstOf (F := F) (x7 m c) :=
  (seg1_dst (Y0 m c))

theorem pos1_at2 : Y2 m c (Proc.devRef .tc main_v13) = cmpf .ogt (degOf (F := F) (x7 m c)) (broadcastInDim S50000 ![] bcast_S_S50000 (constant (F := F) S_ .f32 0x00000000#32)) :=
  seg2_pos (Y1 m c) (x7 m c) (dst1_at1 m c)

theorem rsqrt1_at2 : Y2 m c (Proc.devRef .tc main_v14) = Host.rsqrt (degOf (F := F) (x7 m c)) :=
  seg2_rsqrt (Y1 m c) (x7 m c) (dst1_at1 m c)

theorem zero1_at2 : Y2 m c (Proc.devRef .tc main_cst_2) = constant (F := F) S_ .f32 0x00000000#32 :=
  seg2_zero (Y1 m c)

theorem dinv1_at3 : Y3 m c (Proc.devRef .tc main_v15) = dinvOf (F := F) (x7 m c) :=
  seg3_dinv (Y2 m c) (x7 m c) (pos1_at2 m c) (rsqrt1_at2 m c) (zero1_at2 m c)

theorem src1_at3 : Y3 m c (Proc.devRef .tc main_v3) = srcOf (F := F) (x7 m c) :=
  ((seg3_keeps (Y2 m c) main_v3 (by decide)).trans ((seg2_keeps (Y1 m c) main_v3 (by decide)).trans (src1_at1 m c)))

theorem dst1_at3 : Y3 m c (Proc.devRef .tc main_v7) = dstOf (F := F) (x7 m c) :=
  ((seg3_keeps (Y2 m c) main_v7 (by decide)).trans ((seg2_keeps (Y1 m c) main_v7 (by decide)).trans (dst1_at1 m c)))

theorem nrm1_at4 : Y4 m c (Proc.devRef .tc main_v30) = normOf (F := F) (x7 m c) :=
  seg4_norm (Y3 m c) (x7 m c) (src1_at3 m c) (dst1_at3 m c) (dinv1_at3 m c)

theorem src1_at4 : Y4 m c (Proc.devRef .tc main_v3) = srcOf (F := F) (x7 m c) :=
  ((seg4_keeps (Y3 m c) main_v3 (by decide)).trans (src1_at3 m c))

theorem dst1_at4 : Y4 m c (Proc.devRef .tc main_v7) = dstOf (F := F) (x7 m c) :=
  ((seg4_keeps (Y3 m c) main_v7 (by decide)).trans (dst1_at3 m c))

/-- The first convolution. -/
theorem agg1_at5 : Y5 m c (Proc.devRef .tc main_v44) = agg128 (F := F) (x7 m c) (Host.dotGeneral (F := F) (φ₁ := .f32) (φ₂ := .f32) dot_S50000x256_S256x128_S50000x128_1_0_0_1_n_n none (x0 m c) (x1 m c)) := by
  rw [← arg0_at4 m c, ← arg1_at4 m c]
  exact seg5_conv (Y4 m c) (x7 m c) (src1_at4 m c) (dst1_at4 m c) (nrm1_at4 m c)

/-- The hidden layer. -/
theorem hid_at6 : Y6 m c (Proc.devRef .tc main_v48) = (hidden (F := F) (x0 m c) (x1 m c) (x2 m c) (x7 m c)) := by
  refine (seg6_hidden (Y5 m c)).trans ?_
  rw [agg1_at5 m c, arg2_at5 m c]
  rfl

theorem src2_at7 : Y7 m c (Proc.devRef .tc main_v52) = srcOf (F := F) (x7 m c) :=
  ((seg7_src (Y6 m c)).trans (congrArg _ (arg7_at6 m c)))

theorem dst2_at7 : Y7 m c (Proc.devRef .tc main_v56) = dstOf (F := F) (x7 m c) :=
  ((seg7_dst (Y6 m c)).trans (congrArg _ (arg7_at6 m c)))

theorem pos2_at8 : Y8 m c (Proc.devRef .tc main_v62) = cmpf .ogt (degOf (F := F) (x7 m c)) (broadcastInDim S50000 ![] bcast_S_S50000 (constant (F := F) S_ .f32 0x00000000#32)) :=
  seg8_pos (Y7 m c) (x7 m c) (dst2_at7 m c)

theorem rsqrt2_at8 : Y8 m c (Proc.devRef .tc main_v63) = Host.rsqrt (degOf (F := F) (x7 m c)) :=
  seg8_rsqrt (Y7 m c) (x7 m c) (dst2_at7 m c)

theorem zero2_at8 : Y8 m c (Proc.devRef .tc main_cst_12) = constant (F := F) S_ .f32 0x00000000#32 :=
  seg8_zero (Y7 m c)

theorem dinv2_at9 : Y9 m c (Proc.devRef .tc main_v64) = dinvOf (F := F) (x7 m c) :=
  seg9_dinv (Y8 m c) (x7 m c) (pos2_at8 m c) (rsqrt2_at8 m c) (zero2_at8 m c)

theorem src2_at9 : Y9 m c (Proc.devRef .tc main_v52) = srcOf (F := F) (x7 m c) :=
  ((seg9_keeps (Y8 m c) main_v52 (by decide)).trans ((seg8_keeps (Y7 m c) main_v52 (by decide)).trans (src2_at7 m c)))

theorem dst2_at9 : Y9 m c (Proc.devRef .tc main_v56) = dstOf (F := F) (x7 m c) :=
  ((seg9_keeps (Y8 m c) main_v56 (by decide)).trans ((seg8_keeps (Y7 m c) main_v56 (by decide)).trans (dst2_at7 m c)))

theorem nrm2_at10 : Y10 m c (Proc.devRef .tc main_v79) = normOf (F := F) (x7 m c) :=
  seg10_norm (Y9 m c) (x7 m c) (src2_at9 m c) (dst2_at9 m c) (dinv2_at9 m c)

theorem src2_at10 : Y10 m c (Proc.devRef .tc main_v52) = srcOf (F := F) (x7 m c) :=
  ((seg10_keeps (Y9 m c) main_v52 (by decide)).trans (src2_at9 m c))

theorem dst2_at10 : Y10 m c (Proc.devRef .tc main_v56) = dstOf (F := F) (x7 m c) :=
  ((seg10_keeps (Y9 m c) main_v56 (by decide)).trans (dst2_at9 m c))

/-- The hidden layer is still there: the second convolution's preparation does not write it. -/
theorem hid_at10 : Y10 m c (Proc.devRef .tc main_v48) = (hidden (F := F) (x0 m c) (x1 m c) (x2 m c) (x7 m c)) :=
  ((seg10_keeps (Y9 m c) main_v48 (by decide)).trans ((seg9_keeps (Y8 m c) main_v48 (by decide)).trans ((seg8_keeps (Y7 m c) main_v48 (by decide)).trans ((seg7_keeps (Y6 m c) main_v48 (by decide)).trans (hid_at6 m c)))))

/-- The second convolution. -/
theorem agg2_at11 : Y11 m c (Proc.devRef .tc main_v93) = agg64 (F := F) (x7 m c) (Host.dotGeneral (F := F) (φ₁ := .f32) (φ₂ := .f32) dot_S50000x128_S128x64_S50000x64_1_0_0_1_n_n none (hidden (F := F) (x0 m c) (x1 m c) (x2 m c) (x7 m c)) (x3 m c)) := by
  rw [← hid_at10 m c, ← arg3_at10 m c]
  exact seg11_conv (Y10 m c) (x7 m c) (src2_at10 m c) (dst2_at10 m c) (nrm2_at10 m c)

/-- The first result. -/
theorem mu_at12 : Y12 m c (Proc.devRef .tc main_v96) = head (F := F) (hidden (F := F) (x0 m c) (x1 m c) (x2 m c) (x7 m c)) (x3 m c) (x4 m c) (x7 m c) := by
  refine (seg12_bias (Y11 m c)).trans ?_
  rw [agg2_at11 m c, arg4_at11 m c]
  rfl

theorem src3_at13 : Y13 m c (Proc.devRef .tc main_v100) = srcOf (F := F) (x7 m c) :=
  ((seg13_src (Y12 m c)).trans (congrArg _ (arg7_at12 m c)))

theorem dst3_at13 : Y13 m c (Proc.devRef .tc main_v104) = dstOf (F := F) (x7 m c) :=
  ((seg13_dst (Y12 m c)).trans (congrArg _ (arg7_at12 m c)))

theorem pos3_at14 : Y14 m c (Proc.devRef .tc main_v110) = cmpf .ogt (degOf (F := F) (x7 m c)) (broadcastInDim S50000 ![] bcast_S_S50000 (constant (F := F) S_ .f32 0x00000000#32)) :=
  seg14_pos (Y13 m c) (x7 m c) (dst3_at13 m c)

theorem rsqrt3_at14 : Y14 m c (Proc.devRef .tc main_v111) = Host.rsqrt (degOf (F := F) (x7 m c)) :=
  seg14_rsqrt (Y13 m c) (x7 m c) (dst3_at13 m c)

theorem zero3_at14 : Y14 m c (Proc.devRef .tc main_cst_23) = constant (F := F) S_ .f32 0x00000000#32 :=
  seg14_zero (Y13 m c)

theorem dinv3_at15 : Y15 m c (Proc.devRef .tc main_v112) = dinvOf (F := F) (x7 m c) :=
  seg15_dinv (Y14 m c) (x7 m c) (pos3_at14 m c) (rsqrt3_at14 m c) (zero3_at14 m c)

theorem src3_at15 : Y15 m c (Proc.devRef .tc main_v100) = srcOf (F := F) (x7 m c) :=
  ((seg15_keeps (Y14 m c) main_v100 (by decide)).trans ((seg14_keeps (Y13 m c) main_v100 (by decide)).trans (src3_at13 m c)))

theorem dst3_at15 : Y15 m c (Proc.devRef .tc main_v104) = dstOf (F := F) (x7 m c) :=
  ((seg15_keeps (Y14 m c) main_v104 (by decide)).trans ((seg14_keeps (Y13 m c) main_v104 (by decide)).trans (dst3_at13 m c)))

theorem nrm3_at16 : Y16 m c (Proc.devRef .tc main_v127) = normOf (F := F) (x7 m c) :=
  seg16_norm (Y15 m c) (x7 m c) (src3_at15 m c) (dst3_at15 m c) (dinv3_at15 m c)

theorem src3_at16 : Y16 m c (Proc.devRef .tc main_v100) = srcOf (F := F) (x7 m c) :=
  ((seg16_keeps (Y15 m c) main_v100 (by decide)).trans (src3_at15 m c))

theorem dst3_at16 : Y16 m c (Proc.devRef .tc main_v104) = dstOf (F := F) (x7 m c) :=
  ((seg16_keeps (Y15 m c) main_v104 (by decide)).trans (dst3_at15 m c))

theorem hid_at16 : Y16 m c (Proc.devRef .tc main_v48) = (hidden (F := F) (x0 m c) (x1 m c) (x2 m c) (x7 m c)) :=
  ((seg16_keeps (Y15 m c) main_v48 (by decide)).trans ((seg15_keeps (Y14 m c) main_v48 (by decide)).trans ((seg14_keeps (Y13 m c) main_v48 (by decide)).trans ((seg13_keeps (Y12 m c) main_v48 (by decide)).trans ((seg12_keeps (Y11 m c) main_v48 (by decide)).trans ((seg11_keeps (Y10 m c) main_v48 (by decide)).trans (hid_at10 m c)))))))

/-- The third convolution. -/
theorem agg3_at17 : Y17 m c (Proc.devRef .tc main_v141) = agg64 (F := F) (x7 m c) (Host.dotGeneral (F := F) (φ₁ := .f32) (φ₂ := .f32) dot_S50000x128_S128x64_S50000x64_1_0_0_1_n_n none (hidden (F := F) (x0 m c) (x1 m c) (x2 m c) (x7 m c)) (x5 m c)) := by
  rw [← hid_at16 m c, ← arg5_at16 m c]
  exact seg17_conv (Y16 m c) (x7 m c) (src3_at16 m c) (dst3_at16 m c) (nrm3_at16 m c)

/-- The second result. -/
theorem ls_at18 : Y18 m c (Proc.devRef .tc main_v144) = head (F := F) (hidden (F := F) (x0 m c) (x1 m c) (x2 m c) (x7 m c)) (x5 m c) (x6 m c) (x7 m c) := by
  refine (seg18_bias (Y17 m c)).trans ?_
  rw [agg3_at17 m c, arg6_at17 m c]
  rfl

/-- … and the first result is still there at the end. -/
theorem mu_at18 : Y18 m c (Proc.devRef .tc main_v96) = head (F := F) (hidden (F := F) (x0 m c) (x1 m c) (x2 m c) (x7 m c)) (x3 m c) (x4 m c) (x7 m c) :=
  ((seg18_keeps (Y17 m c) main_v96 (by decide)).trans ((seg17_keeps (Y16 m c) main_v96 (by decide)).trans ((seg16_keeps (Y15 m c) main_v96 (by decide)).trans ((seg15_keeps (Y14 m c) main_v96 (by decide)).trans ((seg14_keeps (Y13 m c) main_v96 (by decide)).trans ((seg13_keeps (Y12 m c) main_v96 (by decide)).trans (mu_at12 m c)))))))

/-! ## The run -/

/-- On every device, from any memory with zero counters: every weakly fair execution of @main terminates with the two
    results at the network's two outputs and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v96) = head (F := F) (hidden (F := F) (x0 m c) (x1 m c) (x2 m c) (x7 m c)) (x3 m c) (x4 m c) (x7 m c)
      ∧ r.2.mem ((c.tc : Thread nD τ).loc main_v144) = head (F := F) (hidden (F := F) (x0 m c) (x1 m c) (x2 m c) (x7 m c)) (x5 m c) (x6 m c) (x7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v96).trans ((after_ops m c _).trans (mu_at18 m c)),
      (h c main_v144).trans ((after_ops m c _).trans (ls_at18 m c)),
      (h c main_arg0).trans ((after_ops m c _).trans (arg0_at18 m c)),
      (h c main_arg1).trans ((after_ops m c _).trans (arg1_at18 m c)),
      (h c main_arg2).trans ((after_ops m c _).trans (arg2_at18 m c)),
      (h c main_arg3).trans ((after_ops m c _).trans (arg3_at18 m c)),
      (h c main_arg4).trans ((after_ops m c _).trans (arg4_at18 m c)),
      (h c main_arg5).trans ((after_ops m c _).trans (arg5_at18 m c)),
      (h c main_arg6).trans ((after_ops m c _).trans (arg6_at18 m c)),
      (h c main_arg7).trans ((after_ops m c _).trans (arg7_at18 m c))⟩)
    (run_seq scopedRefs_eq scopedSems_eq defs main (fun _ => ops) main_eq (fun _ => ops_sub) m ρ)

end Cert.ReferenceIdeal.GcnRef

end
-- ==== Proof.lean ====
/-
  The idealized kernel and the idealized reference compute the same two-headed graph convolution network.

  Both programs gather the source row of every edge of a product `x · W`, scale it by the edge's weight
  `dinv (src) · dinv (dst)` and scatter-add it at the destination row, with the same host operations; they differ in
  how the dense parts are done.  The kernel computes each product `x · W` in ten launches' worth of 5000-row blocks
  (operands rounded to bf16, which changes nothing over the extended reals) and adds each bias, with or without the
  rectifier, block by block; the reference computes one whole product and one whole broadcast addition.  Entry
  `(i, j)` of a block product is the sum over `k` of `x (i, k) · W (k, j)`, the same sum the whole product has there, and
  entry `(i, j)` of a block's biased rows is `a (i, j) + b (j)`, as in the whole array; so after each launch the kernel's
  output array is the reference's operation applied to the whole input arrays.  The kernel computes the edge weights
  once and the reference three times, from the same edge list.  No law of arithmetic beyond these rearrangements is
  used, so the finiteness of the inputs is not needed.

  The three frames: the kernel's two are the generated frame certificates; the reference's is its run with the results
  dropped.  The idealization rewrote no operation, so there is nothing to preserve.
-/
import proofs.«143387_j11854109737065_1_alg».proof.Defs
import proofs.«143387_j11854109737065_1_alg».proof.Proof.Gen.Kernel
import proofs.«143387_j11854109737065_1_alg».proof.Proof.Gen.Kernel.Frame
import proofs.«143387_j11854109737065_1_alg».proof.Proof.Gen.KernelIdeal
import proofs.«143387_j11854109737065_1_alg».proof.Proof.Gen.KernelIdeal.Frame
import proofs.«143387_j11854109737065_1_alg».proof.Proof.Gen.ReferenceIdeal
import proofs.«143387_j11854109737065_1_alg».proof.Proof.Gen.Pre_finite_inputs
import proofs.«143387_j11854109737065_1_alg».proof.Proof.KernelRun
import proofs.«143387_j11854109737065_1_alg».proof.Proof.KernelChain
import proofs.«143387_j11854109737065_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the two results dropped. -/
theorem frame_reference_ideal : Cert.frame_ReferenceIdeal := fun m ρ _ =>
  (θ_run Cert.ReferenceIdeal.defs _ _).mono (fun _ h c => (h c).2.2) (Cert.ReferenceIdeal.GcnRef.run (F := Ideal) m ρ)

theorem preserves : Cert.preserves_Kernel_KernelIdeal := trivial

/-- Both runs end with the two results at `mu` and `logstd` of the (agreeing) argument arrays. -/
theorem algebraic : Cert.algebraic_KernelIdeal_ReferenceIdeal := by
  intro m ρ m' ρ' _ hagree
  refine ⟨fun c => Cert.Gcn.head (F := Ideal) (Cert.Gcn.hidden (F := Ideal) (Cert.KernelIdeal.GcnChain.a0 m c) (Cert.KernelIdeal.GcnChain.a1 m c) (Cert.KernelIdeal.GcnChain.a2 m c) (Cert.KernelIdeal.GcnChain.a7 m c)) (Cert.KernelIdeal.GcnChain.a3 m c) (Cert.KernelIdeal.GcnChain.a4 m c) (Cert.KernelIdeal.GcnChain.a7 m c),
    fun c => Cert.Gcn.head (F := Ideal) (Cert.Gcn.hidden (F := Ideal) (Cert.KernelIdeal.GcnChain.a0 m c) (Cert.KernelIdeal.GcnChain.a1 m c) (Cert.KernelIdeal.GcnChain.a2 m c) (Cert.KernelIdeal.GcnChain.a7 m c)) (Cert.KernelIdeal.GcnChain.a5 m c) (Cert.KernelIdeal.GcnChain.a6 m c) (Cert.KernelIdeal.GcnChain.a7 m c), ?_, ?_⟩
  · exact (θ_run Cert.KernelIdeal.defs _ _).mono
      (fun _ h c => ⟨(h c).1.trans (Cert.KernelIdeal.GcnChain.mu_at12 m ρ c), (h c).2.1.trans (Cert.KernelIdeal.GcnChain.ls_at12 m ρ c), (h c).2.2⟩)
      (Cert.KernelIdeal.GcnRun.run_named m ρ)
  · refine (θ_run Cert.ReferenceIdeal.defs _ _).mono (fun _ h c => ⟨(h c).1.trans ?_, (h c).2.1.trans ?_, (h c).2.2⟩)
      (Cert.ReferenceIdeal.GcnRef.run (F := Ideal) m' ρ')
    · dsimp only [Cert.ReferenceIdeal.GcnRef.x0, Cert.ReferenceIdeal.GcnRef.x1, Cert.ReferenceIdeal.GcnRef.x2, Cert.ReferenceIdeal.GcnRef.x3, Cert.ReferenceIdeal.GcnRef.x4, Cert.ReferenceIdeal.GcnRef.x5, Cert.ReferenceIdeal.GcnRef.x6, Cert.ReferenceIdeal.GcnRef.x7, Cert.KernelIdeal.GcnChain.a0, Cert.KernelIdeal.GcnChain.a1, Cert.KernelIdeal.GcnChain.a2, Cert.KernelIdeal.GcnChain.a3, Cert.KernelIdeal.GcnChain.a4, Cert.KernelIdeal.GcnChain.a5, Cert.KernelIdeal.GcnChain.a6, Cert.KernelIdeal.GcnChain.a7]
      rw [(hagree c).1, (hagree c).2.1, (hagree c).2.2.1, (hagree c).2.2.2.1, (hagree c).2.2.2.2.1, (hagree c).2.2.2.2.2.2.2]
    · dsimp only [Cert.ReferenceIdeal.GcnRef.x0, Cert.ReferenceIdeal.GcnRef.x1, Cert.ReferenceIdeal.GcnRef.x2, Cert.ReferenceIdeal.GcnRef.x3, Cert.ReferenceIdeal.GcnRef.x4, Cert.ReferenceIdeal.GcnRef.x5, Cert.ReferenceIdeal.GcnRef.x6, Cert.ReferenceIdeal.GcnRef.x7, Cert.KernelIdeal.GcnChain.a0, Cert.KernelIdeal.GcnChain.a1, Cert.KernelIdeal.GcnChain.a2, Cert.KernelIdeal.GcnChain.a3, Cert.KernelIdeal.GcnChain.a4, Cert.KernelIdeal.GcnChain.a5, Cert.KernelIdeal.GcnChain.a6, Cert.KernelIdeal.GcnChain.a7]
      rw [(hagree c).1, (hagree c).2.1, (hagree c).2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
